-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S8192x1024 : Shape := ⟨2, ![8192, 1024]⟩
abbrev S8192 : Shape := ⟨1, ![8192]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S1024 .f32) (main_arg1 : FVec F S8192x1024 .f32) (main_arg2 : IVec S8192 1) : IVec S_ 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S1024 : Shape := ⟨1, ![1024]⟩
abbrev S8192x1024 : Shape := ⟨2, ![8192, 1024]⟩
abbrev S8192 : Shape := ⟨1, ![8192]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S8192x1 : Shape := ⟨2, ![8192, 1]⟩
abbrev S1024x1 : Shape := ⟨2, ![1024, 1]⟩
abbrev S_ : Shape := ⟨0, ![]⟩
abbrev S1 : Shape := ⟨1, ![1]⟩

abbrev nBuf : Space → Nat
  | .hbm => 46
  | .vmem => 21
  | .smem => 0
  | _ => 0

abbrev bufTy : (tb : Table) → Fin (tcTables nBuf tb) → BufTy
  | .hbm, ⟨0, _⟩ => ⟨S1024, .f32⟩
  | .hbm, ⟨1, _⟩ => ⟨S8192x1024, .f32⟩
  | .hbm, ⟨2, _⟩ => ⟨S8192, .i1⟩
  | .hbm, ⟨3, _⟩ => ⟨S1x1024, .f32⟩
  | .hbm, ⟨4, _⟩ => ⟨S8192x1024, .bf16⟩
  | .hbm, ⟨5, _⟩ => ⟨S8192x1024, .bf16⟩
  | .hbm, ⟨6, _⟩ => ⟨S1024x1024, .f32⟩
  | .hbm, ⟨7, _⟩ => ⟨S1x1024, .f32⟩
  | .hbm, ⟨8, _⟩ => ⟨S1024x1024, .bf16⟩
  | .hbm, ⟨9, _⟩ => ⟨S8192x1, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .i1⟩
  | .hbm, ⟨15, _⟩ => ⟨S_, .i1⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1024, .f32⟩
  | .local _ .vmem, ⟨0, _⟩ => ⟨S1x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x1, .f32⟩
  | .local _ .vmem, ⟨20, _⟩ => ⟨S1024x1, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_call2_v0 : Ref sig .tc := ⟨.hbm, 37, rfl⟩
abbrev main_call2_cst : Ref sig .tc := ⟨.hbm, 38, rfl⟩
abbrev main_call2_v1 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_scratch0 : Ref sig .tc := ⟨.vmem, 11, rfl⟩
abbrev cc1_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_11 : BitVec 32 := 0#32
  let v21 : BitVec 1 := Scalar.cmpi .ne v20 c0_i32_11
  v21

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [0] S1024
  reduces_S1024x1024_S1024_2 : S1024x1024.Reduces [1] S1024
  shapeCasts_S1024_S1024x1 : S1024.ShapeCasts S1024x1
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  reducesTo_S8192x1024_S1024_d0 : S8192x1024.ReducesTo [0] S1024
  reducesTo_S1024_S_d0 : S1024.ReducesTo [0] S_
  bcast_S_S1024 : S_.BroadcastsInDim S1024 (![] : Fin 0 → Fin S1024.rank)
  dot_S1024x1024_S1024x1024_S1024x1024_0_0_1_1_n_n_wf : DotDims.WF S1024x1024 S1024x1024 S1024x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .bf16 = 32 ∨ (Rect.block (s := S8192x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x1024.size a
  hwx2_1 : ∀ i : grid2.Coords, EltTy.bits .bf16 = 32 ∨ (Rect.block (s := S8192x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .bf16 = 32 ∨ (Rect.block (s := S1024x1024) S1024x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S8192x1.size a
  hwx2_4 : ∀ i : grid2.Coords, EltTy.bits .f32 = 32 ∨ (Rect.block (s := S8192x1) S1024x1.size (cc2_transform_4 i) (hinb2_4 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1_1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1024x1024.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1x1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2_1) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1024x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1024 : Shape := ⟨1, ![1024]⟩
abbrev S8192x1024 : Shape := ⟨2, ![8192, 1024]⟩
abbrev S8192 : Shape := ⟨1, ![8192]⟩
abbrev S1x1024 : Shape := ⟨2, ![1, 1024]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S1 : Shape := ⟨1, ![1]⟩

abbrev nBuf : Space → Nat
  | .hbm => 84
  | .vmem => 0
  | .smem => 0
  | _ => 0

abbrev bufTy : (tb : Table) → Fin (tcTables nBuf tb) → BufTy
  | .hbm, ⟨0, _⟩ => ⟨S1024, .f32⟩
  | .hbm, ⟨1, _⟩ => ⟨S8192x1024, .f32⟩
  | .hbm, ⟨2, _⟩ => ⟨S8192, .i1⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1024x8192, .f32⟩
  | .hbm, ⟨30, _⟩ => ⟨S8192x8192, .f32⟩
  | .hbm, ⟨31, _⟩ => ⟨S1024x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .i32⟩
  | .hbm, ⟨38, _⟩ => ⟨S8192x8192, .i32⟩
  | .hbm, ⟨39, _⟩ => ⟨S_, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S1, .f32⟩
  | .hbm, ⟨64, _⟩ => ⟨S8192, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S_, .f32⟩
  | .hbm, ⟨73, _⟩ => ⟨S_, .f32⟩
  | .hbm, ⟨74, _⟩ => ⟨S1, .f32⟩
  | .hbm, ⟨75, _⟩ => ⟨S1, .f32⟩
  | .hbm, ⟨76, _⟩ => ⟨S_, .f32⟩
  | .hbm, ⟨77, _⟩ => ⟨S1, .f32⟩
  | .hbm, ⟨78, _⟩ => ⟨S1, .f32⟩
  | .hbm, ⟨79, _⟩ => ⟨S1024, .f32⟩
  | .hbm, ⟨80, _⟩ => ⟨S1024, .f32⟩
  | .hbm, ⟨81, _⟩ => ⟨S_, .i1⟩
  | .hbm, ⟨82, _⟩ => ⟨S_, .i1⟩
  | .hbm, ⟨83, _⟩ => ⟨S1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_cst_5 : Ref sig .tc := ⟨.hbm, 50, rfl⟩
abbrev main_call2_v0 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_call3_v0 : Ref sig .tc := ⟨.hbm, 71, rfl⟩
abbrev main_call3_cst : Ref sig .tc := ⟨.hbm, 72, rfl⟩
abbrev main_call3_v1 : Ref sig .tc := ⟨.hbm, 73, rfl⟩
abbrev main_call3_v2 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  reducesTo_S8192x1024_S1024_d0 : S8192x1024.ReducesTo [0] S1024
  reducesTo_S1024_S_d0 : S1024.ReducesTo [0] S_
  bcast_S1_S1024_0 : S1.BroadcastsInDim S1024 (![0] : Fin 1 → Fin S1024.rank)
  bcast_S_S1024 : S_.BroadcastsInDim S1024 (![] : Fin 0 → Fin S1024.rank)
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.K.Reg0.lean ====
/-
  Region 0 — the row normalisation — as one pipeline of 16 points over four windows: the question (one row of
  1024 features, the same block at every point), the documents (512 rows per point), and the two results, the
  normalised averaged rows and the normalised documents (512 rows per point each).

  Everything here is stated at a parameter `V`: the contents of the TensorCore's buffers when the region is
  entered.  At a point `t` the body finds each input window's block of `V`'s array in its staging buffer,
  whether that block was fetched there or carried over from the point before; it overwrites each result's
  staging buffer by ONE store of a payload computed from the two input blocks.  So what the body leaves in a
  result's buffer is a closed function of the two input blocks (`out0_2`, `out0_3`), and the proof data of the
  pipeline (`dat0`) names exactly that.  The body obligation of the pipeline follows from the body's triple.
-/
import proofs.«108611_j80152679678829_2_alg».proof.Proof.Gen.Kernel.Launch
import proofs.«108611_j80152679678829_2_alg».proof.Proof.Gen.Kernel.Skeleton
import proofs.«108611_j80152679678829_2_alg».proof.Proof.Gen.Kernel.Points
import Idealize.ShloMosaic.Lib.Pipeline.FrameBody
import Idealize.ShloMosaic.Lib.Ring
import Idealize.ShloMosaic.Lib.Tactic

-- membership in a rectangle of 512 × 1024 entries is checked coordinate by coordinate
set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array, as the region finds the array, that the
    pipeline stages for that point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The question's staging buffer holds the question's block at every point — fetched at the first point only,
    and then left in place, the block index never moving — for any proof data whose array is `V`'s and whose body
    leaves the block where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The documents' staging buffer holds the documents' block of the point, fetched afresh at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

/-- The whole one-row buffer of the question. -/
abbrev rq : Rect S1x1024 := Rect.unit (s := S1x1024) ![0, 0] S1x1024.size inb_S1x1024_S1x1024_0_0
/-- The whole buffer of 512 rows. -/
abbrev rd : Rect S512x1024 := Rect.unit (s := S512x1024) ![0, 0] S512x1024.size inb_S512x1024_S512x1024_0_0

/-! ## What the body leaves in each result's buffer -/

/-- The buffer of the normalised averaged rows after the body, from the question's block `x0` and the documents'
    block `x1`: its one store, of the payload computed from the two loads. -/
def out0_2 (x0 : Vec F S1x1024 .f32) (x1 : Vec F S512x1024 .f32) : Vec F S512x1024 .bf16 :=
  View.canon [⟨rd, k0_pay1 (View.ld x1 rd) (View.ld x0 rq)⟩]

/-- The buffer of the normalised documents after the body, from the documents' block `x1`: its one store. -/
def out0_3 (x1 : Vec F S512x1024 .f32) : Vec F S512x1024 .bf16 :=
  View.canon [⟨rd, k0_pay2 (View.ld x1 rd)⟩]

/-- One store through the whole rectangle covers the buffer. -/
theorem cover0 (p0 : Vec F S512x1024 .bf16) (y : S512x1024.Idx) :
    ∃ pc ∈ ([⟨rd, p0⟩] : List (View.Piece (Elt F) S512x1024 .bf16)), y ∈ pc.1.set :=
  View.cover_of_tiled [⟨rd, p0⟩] S512x1024.size (by rfl) y

/-! ## The body's triple -/

set_option maxHeartbeats 1000000 in
/-- The body on whole staging buffers — the inputs' at contents reading `x0`, `x1`, the results' at anything — runs
    to the end, leaving the inputs' as they were and each result's at `out0_2 x0 x1`, `out0_3 x1`.  (Each result's
    buffer is also loaded before it is stored; the loaded value is not used.) -/
theorem sound_kernel0 (c : Dev nD) (E : Set ℕ) (i : grid0.Coords)
    (arg1 : Memref sig .tc .vmem S1x1024 .f32) (harg1 : arg1.IsWhole) (arg2 : Memref sig .tc .vmem S512x1024 .f32) (harg2 : arg2.IsWhole)
    (arg3 : Memref sig .tc .vmem S512x1024 .bf16) (harg3 : arg3.IsWhole) (arg4 : Memref sig .tc .vmem S512x1024 .bf16) (harg4 : arg4.IsWhole)
    (x0 : Vec F S1x1024 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x1)) -∗ K ⟨⟩))
      ⊢ wp frame (wpE (defs₀ (F := F)) Variants.none c none) E (cc0__norm_kernel i arg1 harg1 arg2 harg2 arg3 harg3 arg4 harg4) K := by
  simp only [cc0__norm_kernel_eq_skeleton]; unfold cc0__norm_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-! ## The pipeline's proof data -/

/-- The proof data of the pipeline on core `c`: the arrays as the region finds them; after the body at point `t`
    each input's buffer still at its block and each result's at its closed form of the two input blocks; the
    invariant that of a body keeping nothing between points (the scoped rest and the generator register, untouched);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg0

end
-- ==== Proof.K.Reg2.lean ====
/-
  The frame half of the third pipeline (the score kernel, a grid of 8 points), generic in the float model and
  stated at a parameter `V`: the TensorCore's buffer contents when the region is entered.

  Four input windows — the normalised averaged rows and the normalised documents, a block of 1024 rows each per
  point; the Gram matrix and the column sums, whole and fetched once — and one output window, the scores of the
  point's 1024 rows. The body loads the four staging buffers whole, computes, and stores the whole output buffer:
  what it leaves there is a closed function `out2_4` of the four input blocks, and what it finds in an input buffer
  is that window's block at the point, fetched there or not.
-/
import proofs.«108611_j80152679678829_2_alg».proof.Proof.Gen.Kernel.Launch
import proofs.«108611_j80152679678829_2_alg».proof.Proof.Gen.Kernel.Skeleton
import proofs.«108611_j80152679678829_2_alg».proof.Proof.Gen.Kernel.Points
import Idealize.ShloMosaic.Lib.Pipeline.FrameBody
import Idealize.ShloMosaic.Lib.Ring
import Idealize.ShloMosaic.Lib.Tactic

-- membership in a rectangle of full extents: the elaborator's structural look recurses once per coordinate
set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved), for any proof data whose array is `V`'s and whose body leaves the block in
    place. Window 0: the averaged rows. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1: the documents. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2: the Gram matrix, fetched at the first point only. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3: the column sums, fetched at the first point only. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1024x1024 := Rect.unit (s := S1024x1024) ![0, 0] S1024x1024.size inb_S1024x1024_S1024x1024_0_0
abbrev r2_3 : Rect S1x1024 := Rect.unit (s := S1x1024) ![0, 0] S1x1024.size inb_S1x1024_S1x1024_0_0
abbrev r2_4 : Rect S1024x1 := Rect.unit (s := S1024x1) ![0, 0] S1024x1.size inb_S1024x1_S1024x1_0_0

/-! ## What the body leaves in the output window's buffer -/

/-- The output buffer after the body, from the four input blocks: its one store, of the score payload of the
    four loads. -/
def out2_4 (x0 x1 x2 : Vec F S1024x1024 .bf16) (x3 : Vec F S1x1024 .f32) : Vec F S1024x1 .f32 :=
  View.canon [⟨r2_4, k2_pay1 (View.ld x0 r2_0) (View.ld x1 r2_0) (View.ld x2 r2_0) (View.ld x3 r2_3)⟩]

/-- The one store is of the whole buffer, so it covers it. -/
theorem cover2_4 (p0 : Vec F S1024x1 .f32) (y : S1024x1.Idx) :
    ∃ pc ∈ ([⟨r2_4, p0⟩] : List (View.Piece (Elt F) S1024x1 .f32)), y ∈ pc.1.set :=
  View.cover_of_tiled [⟨r2_4, p0⟩] S1024x1.size (by rfl) y

/-! ## The body's triple -/

set_option maxHeartbeats 1000000 in
/-- The kernel body on whole staging memrefs, the inputs' at read contents `x0 … x3` and the output's at anything,
    runs to the continuation holding the inputs' as they were and the output's at `out2_4` of the inputs'. The
    output buffer is also loaded before it is stored; the loaded value is not used. -/
theorem sound_kernel2 (c : Dev nD) (E : Set ℕ) (i : grid2.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1x1024 .f32) (harg4 : arg4.IsWhole)
    (arg5 : Memref sig .tc .vmem S1024x1 .f32) (harg5 : arg5.IsWhole)
    (x0 x1 x2 : Vec F S1024x1024 .bf16) (x3 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__score_kernel i arg1 harg1 arg2 harg2 arg3 harg3 arg4 harg4 arg5 harg5) K := by
  simp only [cc2__score_kernel_eq_skeleton]; unfold cc2__score_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the pipeline on core `c`: the arrays as the region finds them; after the body at point `t`
    each input's buffer at its block and the output's at `out2_4` of the four input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg2

end
-- ==== Proof.K.Reg1Runs.lean ====
/-
  The second pipeline (the Gram accumulation, eight grid points): what its three cases share.

  The body zeroes two accumulators at the first point, adds at every point the block's Gram matrix (the block
  transposed, times the block) to the first and the block's column sums to the second, and copies both
  accumulators to the two output blocks at the last point only. The accumulators live in two buffers of the
  kernel's own that keep their contents from one point to the next. Here: the two branch conditions in closed
  form over the grid, where the outputs are idle, the memrefs the body is called with, and the region invariant
  split into the two accumulators and the rest.
-/
import proofs.«108611_j80152679678829_2_alg».proof.Proof.Gen.Kernel.Launch
import proofs.«108611_j80152679678829_2_alg».proof.Proof.Gen.Kernel.Skeleton
import proofs.«108611_j80152679678829_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional of the body (zero the accumulators), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional of the body (copy the accumulators out), from the grid coordinates. -/
abbrev cond1_1 (i : grid1.Coords) : Prop := k1_cond2 i = 1#1
/-- It holds at the last point only. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input window is never idle. -/
theorem liveAt1_0 : ∀ t : Fin cfg1.N, cfg1.idle 0 (grid1.coords t) = false := by decide +kernel
/-- Away from the last point the first output is idle: nothing is stored into it, -/
theorem idleAt1_1 : ∀ t : Fin cfg1.N, ¬cond1_1 (grid1.coords t) → cfg1.idle 1 (grid1.coords t) = true := by decide +kernel
/-- and its block is not written back. -/
theorem noFlush1_1 : ∀ t : Fin cfg1.N, ¬cond1_1 (grid1.coords t) → (cfg1.win 1).flush t = false := by decide +kernel
/-- At the last point it is live. -/
theorem liveAt1_1 : ∀ t : Fin cfg1.N, cond1_1 (grid1.coords t) → cfg1.idle 1 (grid1.coords t) = false := by decide +kernel
/-- The same of the second output. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

/-- One staging buffer of each output window, through which its contents are stated. -/
abbrev VO1_1 : View sig .tc .vmem S1024x1024 .f32 := (Memref.whole cc1_stg1_0 : Memref sig .tc .vmem S1024x1024 .f32).view
abbrev VO1_2 : View sig .tc .vmem S1x1024 .f32 := (Memref.whole cc1_stg2_0 : Memref sig .tc .vmem S1x1024 .f32).view
/-- Each window's current staging memref at point `t`, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
/-- The two accumulators: whole buffers of the kernel's own, passed beside the windows. -/
abbrev scM1_0 : Memref sig .tc .vmem S1024x1024 .f32 := Memref.whole cc1_scratch0
abbrev scM1_1 : Memref sig .tc .vmem S1x1024 .f32 := Memref.whole cc1_scratch1
/-- The accumulators as views: what they hold is stated through these. -/
abbrev VS1_0 : View sig .tc .vmem S1024x1024 .f32 := scM1_0.view
abbrev VS1_1 : View sig .tc .vmem S1x1024 .f32 := scM1_1.view

/-! ## The region invariant, split -/

/-- The core's other scoped buffers (the staging buffers of the other two pipelines), each at some contents: the
    part of the invariant this pipeline's body never touches. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The region invariant hands the body the two accumulators at some contents, the untouched rest and the
    generator register at some state; -/
theorem PhiA1_in (c : Dev nD) :
    (Pipeline.ΦA spec1 c : sProp 𝕄)
      ⊢ iprop(rest1 c ∗ (∃ d, owns (c : Thread nD τ) scM1_0 fullShare d) ∗ (∃ d, owns (c : Thread nD τ) scM1_1 fullShare d) ∗ (∃ r, prngReg c r)) := by
  unfold Pipeline.ΦA rest1; rw [scopedRest1_eq]; simp only [scM1_0, scM1_1, owns_whole]
  iintro ⟨⟨R1, R2, R3, R4, R5, R6, R7, S0, S1, R8, R9, R10, R11, R12, R13, R14, R15⟩, Hg⟩
  isplitl [R1 R2 R3 R4 R5 R6 R7 R8 R9 R10 R11 R12 R13 R14 R15]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  isplitl [S0]; · iexact S0
  isplitl [S1]; · iexact S1
  iexact Hg

/-- and is given back from the same. -/
theorem PhiA1_out (c : Dev nD) :
    iprop(rest1 c ∗ (∃ d, owns (c : Thread nD τ) scM1_0 fullShare d) ∗ (∃ d, owns (c : Thread nD τ) scM1_1 fullShare d) ∗ (∃ r, prngReg c r))
      ⊢ (Pipeline.ΦA spec1 c : sProp 𝕄) := by
  unfold Pipeline.ΦA rest1; rw [scopedRest1_eq]; simp only [scM1_0, scM1_1, owns_whole]
  iintro ⟨⟨R1, R2, R3, R4, R5, R6, R7, R8, R9, R10, R11, R12, R13, R14, R15⟩, S0, S1, Hg⟩
  isplitl [R1 R2 R3 R4 R5 R6 R7 R8 R9 R10 R11 R12 R13 R14 R15 S0 S1]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [S0]; · iexact S0
    isplitl [S1]; · iexact S1
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  iexact Hg

end Cert.Kernel.Reg1

end
-- ==== Proof.K.Reg1RunA.lean ====
/-
  The body's run at the first grid point: both accumulators are zeroed, then the block's Gram matrix is added to
  the first and its column sums to the second; nothing is stored into the two outputs. The pieces each accumulator
  ends with are found by running the body.
-/
import proofs.«108611_j80152679678829_2_alg».proof.Proof.K.Reg1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point (the first conditional taken, the second not): on whole memrefs — the input's at its contents
    `x0`, the two outputs' at contents handed back untouched, the two accumulators' at anything — the body runs to the
    continuation holding the input and the outputs as they were and each accumulator with its pieces written. -/
noncomputable def kernelRun1_A (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond1_0 i) (hc1 : ¬cond1_1 i)
    (x0 : Vec F S1024x1024 .bf16) :
    Σ' (LS0 : List (View.Piece (Elt F) S1024x1024 .f32)), { LS1 : List (View.Piece (Elt F) S1x1024 .f32) //
      ∀ (xi1 : Vec F S1024x1024 .f32) (xi2 : Vec F S1x1024 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__gram_kernel i arg1 harg1 arg2 harg2 arg3 harg3 arg4 harg4 arg5 harg5) K } := by
  refine ⟨?_, ?_, fun xi1 xi2 E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Reg1

end
-- ==== Proof.K.Reg1RunB.lean ====
/-
  The body's run at a middle grid point: the block's Gram matrix is added to the first accumulator and its column
  sums to the second, over what the point before left there; nothing is stored into the two outputs.
-/
import proofs.«108611_j80152679678829_2_alg».proof.Proof.K.Reg1RunA

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle point (neither conditional taken): on whole memrefs — the input's at its contents `x0`, the two outputs'
    at contents handed back untouched, the two accumulators' at what the point before left (`xs0`, `xs1`) — the body runs
    to the continuation holding the input and the outputs as they were and each accumulator with its pieces written. -/
noncomputable def kernelRun1_B (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : ¬cond1_1 i)
    (x0 : Vec F S1024x1024 .bf16) (xs0 : Vec F S1024x1024 .f32) (xs1 : Vec F S1x1024 .f32) :
    Σ' (LS0 : List (View.Piece (Elt F) S1024x1024 .f32)), { LS1 : List (View.Piece (Elt F) S1x1024 .f32) //
      ∀ (xi1 : Vec F S1024x1024 .f32) (xi2 : Vec F S1x1024 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__gram_kernel i arg1 harg1 arg2 harg2 arg3 harg3 arg4 harg4 arg5 harg5) K } := by
  refine ⟨?_, ?_, fun xi1 xi2 E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Reg1

end
-- ==== Proof.K.Reg1RunC.lean ====
/-
  The body's run at the last grid point: the block's Gram matrix is added to the first accumulator and its column
  sums to the second, over what the point before left there, and then each accumulator is copied whole into its
  output block.
-/
import proofs.«108611_j80152679678829_2_alg».proof.Proof.K.Reg1RunB

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last point (the first conditional not taken, the second taken): on whole memrefs — the input's at its
    contents `x0`, the two outputs' at anything, the two accumulators' at what the point before left (`xs0`, `xs1`) — the
    body runs to the continuation holding the input as it was and each output and each accumulator with its pieces
    written. -/
noncomputable def kernelRun1_C (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) :
    Σ' (L1 : List (View.Piece (Elt F) S1024x1024 .f32)) (L2 : List (View.Piece (Elt F) S1x1024 .f32)) (LS0 : List (View.Piece (Elt F) S1024x1024 .f32)), { LS1 : List (View.Piece (Elt F) S1x1024 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__gram_kernel i arg1 harg1 arg2 harg2 arg3 harg3 arg4 harg4 arg5 harg5) K } := by
  refine ⟨?_, ?_, ?_, ?_, fun E K => ?run⟩
  case run =>
    simp only [cc1__gram_kernel_eq_skeleton]; unfold cc1__gram_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Reg1

end
-- ==== Proof.K.Reg1.lean ====
/-
  The second pipeline (the Gram accumulation): its proof data and body obligation, at any contents `V` of the
  core's buffers when the pipeline is entered.

  After the body at a point the first accumulator holds what it held before plus the block's Gram matrix, the
  second what it held before plus the block's column sums (both from zero at the first point); the two outputs are
  untouched until the last point, where each receives its accumulator. `outsAt1` states these contents point by
  point; the region invariant carries the two accumulators at them from one point to the next.
-/
import proofs.«108611_j80152679678829_2_alg».proof.Proof.K.Reg1RunC

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulators and the outputs -/

/-- Case A's pieces for the first accumulator cover it. -/
theorem scover1_A_0 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond1_0 i) (hc1 : ¬cond1_1 i)
    (x0 : Vec F S1024x1024 .bf16) (y : S1024x1024.Idx) :
    ∃ pc ∈ (kernelRun1_A c i arg1 harg1 arg2 harg2 arg3 harg3 arg4 harg4 arg5 harg5 hc0 hc1 x0).1, y ∈ pc.1.set :=
  View.cover_of_tiledL (kernelRun1_A c i arg1 harg1 arg2 harg2 arg3 harg3 arg4 harg4 arg5 harg5 hc0 hc1 x0).1 S1024x1024.size (by sl_kernel_rfl) y

/-- What case A leaves in the first accumulator: its pieces read back. -/
def sout1_A_0 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond1_0 i) (hc1 : ¬cond1_1 i)
    (x0 : Vec F S1024x1024 .bf16) : Vec F S1024x1024 .f32 :=
  VS1_0.read (Elt F) (VS1_0.writes (Elt F) VS1_0.junk (kernelRun1_A c i arg1 harg1 arg2 harg2 arg3 harg3 arg4 harg4 arg5 harg5 hc0 hc1 x0).1)

/-- Case A's pieces for the second accumulator cover it. -/
theorem scover1_A_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond1_0 i) (hc1 : ¬cond1_1 i)
    (x0 : Vec F S1024x1024 .bf16) (y : S1x1024.Idx) :
    ∃ pc ∈ (kernelRun1_A c i arg1 harg1 arg2 harg2 arg3 harg3 arg4 harg4 arg5 harg5 hc0 hc1 x0).2.1, y ∈ pc.1.set :=
  View.cover_of_tiledL (kernelRun1_A c i arg1 harg1 arg2 harg2 arg3 harg3 arg4 harg4 arg5 harg5 hc0 hc1 x0).2.1 S1x1024.size (by sl_kernel_rfl) y

/-- What case A leaves in the second accumulator: its pieces read back. -/
def sout1_A_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond1_0 i) (hc1 : ¬cond1_1 i)
    (x0 : Vec F S1024x1024 .bf16) : Vec F S1x1024 .f32 :=
  VS1_1.read (Elt F) (VS1_1.writes (Elt F) VS1_1.junk (kernelRun1_A c i arg1 harg1 arg2 harg2 arg3 harg3 arg4 harg4 arg5 harg5 hc0 hc1 x0).2.1)

/-- Case B's pieces for the first accumulator cover it. -/
theorem scover1_B_0 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : ¬cond1_1 i)
    (x0 : Vec F S1024x1024 .bf16) (xs0 : Vec F S1024x1024 .f32) (xs1 : Vec F S1x1024 .f32) (y : S1024x1024.Idx) :
    ∃ pc ∈ (kernelRun1_B c i arg1 harg1 arg2 harg2 arg3 harg3 arg4 harg4 arg5 harg5 hc0 hc1 x0 xs0 xs1).1, y ∈ pc.1.set :=
  View.cover_of_tiledL (kernelRun1_B c i arg1 harg1 arg2 harg2 arg3 harg3 arg4 harg4 arg5 harg5 hc0 hc1 x0 xs0 xs1).1 S1024x1024.size (by sl_kernel_rfl) y

/-- What case B leaves in the first accumulator: its pieces read back. -/
def sout1_B_0 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : ¬cond1_1 i)
    (x0 : Vec F S1024x1024 .bf16) (xs0 : Vec F S1024x1024 .f32) (xs1 : Vec F S1x1024 .f32) : Vec F S1024x1024 .f32 :=
  VS1_0.read (Elt F) (VS1_0.writes (Elt F) VS1_0.junk (kernelRun1_B c i arg1 harg1 arg2 harg2 arg3 harg3 arg4 harg4 arg5 harg5 hc0 hc1 x0 xs0 xs1).1)

/-- Case B's pieces for the second accumulator cover it. -/
theorem scover1_B_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : ¬cond1_1 i)
    (x0 : Vec F S1024x1024 .bf16) (xs0 : Vec F S1024x1024 .f32) (xs1 : Vec F S1x1024 .f32) (y : S1x1024.Idx) :
    ∃ pc ∈ (kernelRun1_B c i arg1 harg1 arg2 harg2 arg3 harg3 arg4 harg4 arg5 harg5 hc0 hc1 x0 xs0 xs1).2.1, y ∈ pc.1.set :=
  View.cover_of_tiledL (kernelRun1_B c i arg1 harg1 arg2 harg2 arg3 harg3 arg4 harg4 arg5 harg5 hc0 hc1 x0 xs0 xs1).2.1 S1x1024.size (by sl_kernel_rfl) y

/-- What case B leaves in the second accumulator: its pieces read back. -/
def sout1_B_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : ¬cond1_1 i)
    (x0 : Vec F S1024x1024 .bf16) (xs0 : Vec F S1024x1024 .f32) (xs1 : Vec F S1x1024 .f32) : Vec F S1x1024 .f32 :=
  VS1_1.read (Elt F) (VS1_1.writes (Elt F) VS1_1.junk (kernelRun1_B c i arg1 harg1 arg2 harg2 arg3 harg3 arg4 harg4 arg5 harg5 hc0 hc1 x0 xs0 xs1).2.1)

/-- Case C's pieces for the first output's staging buffer cover it. -/
theorem cover1_C_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) (y : S1024x1024.Idx) :
    ∃ pc ∈ (kernelRun1_C c i arg1 harg1 arg2 harg2 arg3 harg3 arg4 harg4 arg5 harg5 hc0 hc1 x0 xs0 xs1).1, y ∈ pc.1.set :=
  View.cover_of_tiledL (kernelRun1_C c i arg1 harg1 arg2 harg2 arg3 harg3 arg4 harg4 arg5 harg5 hc0 hc1 x0 xs0 xs1).1 S1024x1024.size (by sl_kernel_rfl) y

/-- What case C leaves in the first output's staging buffer: its pieces read back. -/
def out1_C_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) : Vec F S1024x1024 .f32 :=
  VO1_1.read (Elt F) (VO1_1.writes (Elt F) VO1_1.junk (kernelRun1_C c i arg1 harg1 arg2 harg2 arg3 harg3 arg4 harg4 arg5 harg5 hc0 hc1 x0 xs0 xs1).1)

/-- Case C's pieces for the second output's staging buffer cover it. -/
theorem cover1_C_2 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) (y : S1x1024.Idx) :
    ∃ pc ∈ (kernelRun1_C c i arg1 harg1 arg2 harg2 arg3 harg3 arg4 harg4 arg5 harg5 hc0 hc1 x0 xs0 xs1).2.1, y ∈ pc.1.set :=
  View.cover_of_tiledL (kernelRun1_C c i arg1 harg1 arg2 harg2 arg3 harg3 arg4 harg4 arg5 harg5 hc0 hc1 x0 xs0 xs1).2.1 S1x1024.size (by sl_kernel_rfl) y

/-- What case C leaves in the second output's staging buffer: its pieces read back. -/
def out1_C_2 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) : Vec F S1x1024 .f32 :=
  VO1_2.read (Elt F) (VO1_2.writes (Elt F) VO1_2.junk (kernelRun1_C c i arg1 harg1 arg2 harg2 arg3 harg3 arg4 harg4 arg5 harg5 hc0 hc1 x0 xs0 xs1).2.1)

/-- Case C's pieces for the first accumulator cover it. -/
theorem scover1_C_0 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) (y : S1024x1024.Idx) :
    ∃ pc ∈ (kernelRun1_C c i arg1 harg1 arg2 harg2 arg3 harg3 arg4 harg4 arg5 harg5 hc0 hc1 x0 xs0 xs1).2.2.1, y ∈ pc.1.set :=
  View.cover_of_tiledL (kernelRun1_C c i arg1 harg1 arg2 harg2 arg3 harg3 arg4 harg4 arg5 harg5 hc0 hc1 x0 xs0 xs1).2.2.1 S1024x1024.size (by sl_kernel_rfl) y

/-- What case C leaves in the first accumulator: its pieces read back. -/
def sout1_C_0 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) : Vec F S1024x1024 .f32 :=
  VS1_0.read (Elt F) (VS1_0.writes (Elt F) VS1_0.junk (kernelRun1_C c i arg1 harg1 arg2 harg2 arg3 harg3 arg4 harg4 arg5 harg5 hc0 hc1 x0 xs0 xs1).2.2.1)

/-- Case C's pieces for the second accumulator cover it. -/
theorem scover1_C_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) (y : S1x1024.Idx) :
    ∃ pc ∈ (kernelRun1_C c i arg1 harg1 arg2 harg2 arg3 harg3 arg4 harg4 arg5 harg5 hc0 hc1 x0 xs0 xs1).2.2.2.1, y ∈ pc.1.set :=
  View.cover_of_tiledL (kernelRun1_C c i arg1 harg1 arg2 harg2 arg3 harg3 arg4 harg4 arg5 harg5 hc0 hc1 x0 xs0 xs1).2.2.2.1 S1x1024.size (by sl_kernel_rfl) y

/-- What case C leaves in the second accumulator: its pieces read back. -/
def sout1_C_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) : Vec F S1x1024 .f32 :=
  VS1_1.read (Elt F) (VS1_1.writes (Elt F) VS1_1.junk (kernelRun1_C c i arg1 harg1 arg2 harg2 arg3 harg3 arg4 harg4 arg5 harg5 hc0 hc1 x0 xs0 xs1).2.2.2.1)

/-! ## What the buffers hold after each point -/

/-- What the two outputs' staging buffers and the two accumulators hold after the body at position `n` (a tuple: the
    outputs, then the accumulators): the case of the point, run at the point's memrefs and input block, over what
    the point before left in the accumulators. Before the last point the outputs' components are placeholders that
    nothing consults (the windows are idle there and not written back). -/
def outsAt1 (c : Dev nD) : (n : ℕ) → n < cfg1.N → Vec F S1024x1024 .f32 × Vec F S1x1024 .f32 × Vec F S1024x1024 .f32 × Vec F S1x1024 .f32
  | 0, hn => ((VO1_1.read (Elt F) (VO1_1.writes (Elt F) VO1_1.junk [])), (VO1_2.read (Elt F) (VO1_2.writes (Elt F) VO1_2.junk [])), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h1 : (n + 1) % 8 = 7 then
      (out1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 8 := lt_of_lt_of_eq hn (show cfg1.N = 8 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 8 := lt_of_lt_of_eq hn (show cfg1.N = 8 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 8 := lt_of_lt_of_eq hn (show cfg1.N = 8 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 8 := lt_of_lt_of_eq hn (show cfg1.N = 8 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2)
    else
      ((VO1_1.read (Elt F) (VO1_1.writes (Elt F) VO1_1.junk [])), (VO1_2.read (Elt F) (VO1_2.writes (Elt F) VO1_2.junk [])), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 8 := lt_of_lt_of_eq hn (show cfg1.N = 8 from N_1); (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 8 := lt_of_lt_of_eq hn (show cfg1.N = 8 from N_1); (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2)

/-- `outsAt1` at the first point. -/
theorem outsAt1_A (c : Dev nD) (t : Fin cfg1.N) (h0 : t.val % 8 = 0) (h1 : ¬t.val % 8 = 7) :
    outsAt1 V c t.val t.isLt = ((VO1_1.read (Elt F) (VO1_1.writes (Elt F) VO1_1.junk [])), (VO1_2.read (Elt F) (VO1_2.writes (Elt F) VO1_2.junk [])), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t)) := by
  obtain ⟨n, hn⟩ := t
  cases n with
  | zero => exact rfl
  | succ n => exact (by exfalso; have hN : n + 1 < 8 := lt_of_lt_of_eq hn (show cfg1.N = 8 from N_1); (try dsimp only at h0); omega)

/-- `outsAt1` at a middle point: over what the point before left. -/
theorem outsAt1_B (c : Dev nD) (t : Fin cfg1.N) (h0 : ¬t.val % 8 = 0) (h1 : ¬t.val % 8 = 7) :
    outsAt1 V c t.val t.isLt = ((VO1_1.read (Elt F) (VO1_1.writes (Elt F) VO1_1.junk [])), (VO1_2.read (Elt F) (VO1_2.writes (Elt F) VO1_2.junk [])), sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt1` at the last point: over what the point before left. -/
theorem outsAt1_C (c : Dev nD) (t : Fin cfg1.N) (h0 : ¬t.val % 8 = 0) (h1 : t.val % 8 = 7) :
    outsAt1 V c t.val t.isLt = (out1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-- The invariant before position `n`: before the first point the accumulators at anything; afterwards each at what
    the point before left in it; always the untouched rest and the generator register at some state. -/
def PhiS1 (c : Dev nD) : (n : ℕ) → n ≤ cfg1.N → sProp 𝕄
  | 0, _ => iprop(rest1 c ∗ (∃ d, owns (c : Thread nD τ) scM1_0 fullShare d) ∗ (∃ d, owns (c : Thread nD τ) scM1_1 fullShare d) ∗ (∃ r, prngReg c r))
  | n + 1, hn => iprop(rest1 c ∗ owns (c : Thread nD τ) scM1_0 fullShare ((outsAt1 V c n hn).2.2.1) ∗ owns (c : Thread nD τ) scM1_1 fullShare ((outsAt1 V c n hn).2.2.2) ∗ (∃ r, prngReg c r))

theorem PhiS1_zero (c : Dev nD) (n : ℕ) (h : n ≤ cfg1.N) (hz : n = 0) :
    PhiS1 V c n h = iprop(rest1 c ∗ (∃ d, owns (c : Thread nD τ) scM1_0 fullShare d) ∗ (∃ d, owns (c : Thread nD τ) scM1_1 fullShare d) ∗ (∃ r, prngReg c r)) := by
  subst hz; rfl

theorem PhiS1_succ (c : Dev nD) (n : ℕ) (hn : n < cfg1.N) :
    PhiS1 V c (n + 1) hn = iprop(rest1 c ∗ owns (c : Thread nD τ) scM1_0 fullShare ((outsAt1 V c n hn).2.2.1) ∗ owns (c : Thread nD τ) scM1_1 fullShare ((outsAt1 V c n hn).2.2.2) ∗ (∃ r, prngReg c r)) := rfl

theorem PhiS1_pos (c : Dev nD) (n : ℕ) (h : n ≤ cfg1.N) (hz : n ≠ 0) :
    PhiS1 V c n h = iprop(rest1 c ∗ owns (c : Thread nD τ) scM1_0 fullShare ((outsAt1 V c (n - 1) (by omega)).2.2.1) ∗ owns (c : Thread nD τ) scM1_1 fullShare ((outsAt1 V c (n - 1) (by omega)).2.2.2) ∗ (∃ r, prngReg c r)) := by
  cases n with
  | zero => exact absurd rfl hz
  | succ n => rfl

/-! ## The pipeline's proof data -/

/-- The proof data of the pipeline on core `c`: the arrays as the pipeline finds them; after the body at point `t` the
    input's buffer at its block and the outputs' at `outsAt1`'s components; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the input's memref holds its block; the closed forms say which case the point is in; the
    invariant hands the body the accumulators at what the point before left (at anything at the first point) and
    takes them back at this point's contents; the outputs are handed back untouched before the last point and at the
    accumulators' contents at the last; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 8 = 0
  · by_cases h1 : t.val % 8 = 7
    · exfalso; omega
    · have hz : t.val = 0 := by omega
      rw [show (dat1 V c).leavesExact 0 t = owns (c : Thread nD τ) (ms1_0 t) fullShare ((dat1 V c).after 0 t) from by
          unfold Dat.leavesExact; rw [liveAt1_0 t], after1_0]
      rw [Dat.leavesExact_idle (dat1 V c) 1 t (idleAt1_1 t (fun h => h1 ((hcond1_1 t).mp h))) (noFlush1_1 t (fun h => h1 ((hcond1_1 t).mp h)))]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0 sout1_A_1; (try dsimp only)
      rw [PhiS1_castSucc V c t, PhiS1_zero V c _ _ hz]
      iintro ⟨⟨HR, HS0, HS1, Hg⟩, Ho, ⟨%d0, H0⟩, ⟨%d1, H1⟩, ⟨%d2, H2⟩⟩
      iapply ((kernelRun1_A c (grid1.coords t) _ _ _ _ _ _ _ _ _ _ ((hcond1_0 t).mpr h0) (fun h => h1 ((hcond1_1 t).mp h)) (iblk1 V c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover1_A_0 c _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _)
        iexact Hg
      isplitl [Ho]; · iexact Ho
      isplitl [H0]; · iexact H0
      isplitl [H1]; · iexists _; iexact H1
      iexists _; iexact H2
  · have hz : t.val ≠ 0 := by omega
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t ((hcond1_1 t).mpr h1)], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_1 out1_C_2 sout1_C_0 sout1_C_1; (try dsimp only)
      rw [PhiS1_castSucc V c t, PhiS1_pos V c _ _ hz]
      iintro ⟨⟨HR, HS0, HS1, Hg⟩, Ho, ⟨%d0, H0⟩, ⟨%d1, H1⟩, ⟨%d2, H2⟩⟩
      iapply ((kernelRun1_C c (grid1.coords t) _ _ _ _ _ _ _ _ _ _ (fun h => h0 ((hcond1_0 t).mp h)) ((hcond1_1 t).mpr h1) (iblk1 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _)
        iexact Hg
      isplitl [Ho]; · iexact Ho
      isplitl [H0]; · iexact H0
      isplitl [H1]
      · unfold owns; iexists _; isplitr
        swap; · iexact H1
        ipureintro; exact View.read_writes_of_cover _ _ _ _ _ (cover1_C_1 c _ _ _ _ _ _ _ _ _ _ _ _ _ _ _ _)
      unfold owns; iexists _; isplitr
      swap; · iexact H2
      ipureintro; exact View.read_writes_of_cover _ _ _ _ _ (cover1_C_2 c _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1 t (fun h => h1 ((hcond1_1 t).mp h))) (noFlush1_1 t (fun h => h1 ((hcond1_1 t).mp h)))]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨HR, HS0, HS1, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) (fun h => h1 ((hcond1_1 t).mp h)) (iblk1 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _)
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the pipeline is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_in c

/-- After the last point the invariant gives it back: the accumulators' named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl, PhiS1_pos V c _ _ ht]
  refine BIBase.Entails.trans ?_ (PhiA1_out c)
  iintro ⟨HR, HS0, HS1, Hg⟩
  isplitl [HR]; · iexact HR
  isplitl [HS0]; · iexists _; iexact HS0
  isplitl [HS1]; · iexists _; iexact HS1
  iexact Hg

end Cert.Kernel.Reg1

end
-- ==== Proof.K.Run.lean ====
import proofs.«108611_j80152679678829_2_alg».proof.Proof.K.Reg0
import proofs.«108611_j80152679678829_2_alg».proof.Proof.K.Reg2
import proofs.«108611_j80152679678829_2_alg».proof.Proof.K.Reg1
import proofs.«108611_j80152679678829_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The whole run of the program: the buffers' contents at each boundary between two items of the entry function — a fold
  from the launch memory through the host stretches (each operation applied) and the three kernel regions (each region's
  arrays at what its write-backs leave, every other buffer untouched) —, the three regions as segments over the state
  "every unscoped buffer at the boundary's contents, the generator register at some state, nothing owed", and the run:
  every weakly fair execution ends, and the final memory holds every unscoped buffer at the last boundary's contents.
  The frame claim (arguments unchanged) and the value of the result are both read off that last valuation.
-/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the question's reshape (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its two outputs at what the sixteen write-backs leave. -/
def W2 (c : Dev nD) : Valuation τ sig (Elt F) :=
  Pipeline.withArrays spec0 c (W1 m c) fun w => (Reg0.dat0 (V1 m) c).arrAt w cfg0.N
abbrev V2 : (c : Dev nD) → (b : Ref sig .tc) → Buf (Elt F) ((c : Thread nD τ).loc b) := fun c b => W2 m c b
/-- After region 1: its two outputs at what the last point's write-back leaves. -/
def W3 (c : Dev nD) : Valuation τ sig (Elt F) :=
  Pipeline.withArrays spec1 c (W2 m c) fun w => (Reg1.dat1 (V2 m) c).arrAt w cfg1.N
/-- After the Gram matrix's change of format (region 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After region 2: the scores at what the eight write-backs leave. -/
def W5 (c : Dev nD) : Valuation τ sig (Elt F) :=
  Pipeline.withArrays spec2 c (W4 m c) fun w => (Reg2.dat2 (V4 m) c).arrAt w cfg2.N
/-- After each of the eight host stretches that follow. -/
abbrev W6 : Dev nD → Valuation τ sig (Elt F) := fun c => StableHlo.after hostOps3 (W5 m c)
abbrev W7 : Dev nD → Valuation τ sig (Elt F) := fun c => StableHlo.after hostOps3_1 (W6 m c)
abbrev W8 : Dev nD → Valuation τ sig (Elt F) := fun c => StableHlo.after hostOps3_2 (W7 m c)
abbrev W9 : Dev nD → Valuation τ sig (Elt F) := fun c => StableHlo.after hostOps3_3 (W8 m c)
abbrev W10 : Dev nD → Valuation τ sig (Elt F) := fun c => StableHlo.after hostOps3_4 (W9 m c)
abbrev W11 : Dev nD → Valuation τ sig (Elt F) := fun c => StableHlo.after hostOps3_5 (W10 m c)
abbrev W12 : Dev nD → Valuation τ sig (Elt F) := fun c => StableHlo.after hostOps3_6 (W11 m c)
abbrev W13 : Dev nD → Valuation τ sig (Elt F) := fun c => StableHlo.after hostOps3_7 (W12 m c)

theorem W2_arr (c : Dev nD) (w : Fin cfg0.W) :
    W2 m c (Proc.devRef .tc (Pipeline.arrRef spec0 w)) = (Reg0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (Reg1.dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem W5_arr (c : Dev nD) (w : Fin cfg2.W) :
    W5 m c (Proc.devRef .tc (Pipeline.arrRef spec2 w)) = (Reg2.dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b

theorem hF0 (c : Dev nD) (w : Fin cfg0.W) : (Reg0.dat0 (V1 m) c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (Reg1.dat1 (V2 m) c).arrAt w cfg1.N = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
theorem hF2 (c : Dev nD) (w : Fin cfg2.W) : (Reg2.dat2 (V4 m) c).arrAt w cfg2.N = V5 m c (Pipeline.arrRef spec2 w) := (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat0 (V1 m) c
  | ⟨1, _⟩ => fun c => Reg1.dat1 (V2 m) c
  | ⟨2, _⟩ => fun c => Reg2.dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered at `W2`, left at `W3`. Its invariant carries the two accumulators between
    points; at the region's two ends it is the plain one (every scratch at some contents). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show (Pipeline.ΦA spec1 c : sProp 𝕄) ⊢ (pdats m 1 c).Φ 0 from Reg1.hin1 (V2 m) c)
    unfold Pipeline.ΦA
    show (_ : sProp 𝕄) ⊢ _
    iintro ⟨Hp, -, Hr⟩
    isplitl [Hr]; · iexact Hr
    iexact Hp
  hout c := by
    rw [Pipeline.ownSems0_none]
    refine BI.Entails.trans (show (pdats m 1 c).Φ (Fin.last _) ⊢ (Pipeline.ΦA spec1 c : sProp 𝕄) from Reg1.hout1 (V2 m) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered at `W4`, left at `W5`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the run -/

/-- The thirteen items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)),
    .host (hseg hostOps3_1 hostOps3_1_sub hostOps3_1_fresh (W6 m)),
    .host (hseg hostOps3_2 hostOps3_2_sub hostOps3_2_fresh (W7 m)),
    .host (hseg hostOps3_3 hostOps3_3_sub hostOps3_3_fresh (W8 m)),
    .host (hseg hostOps3_4 hostOps3_4_sub hostOps3_4_fresh (W9 m)),
    .host (hseg hostOps3_5 hostOps3_5_sub hostOps3_5_fresh (W10 m)),
    .host (hseg hostOps3_6 hostOps3_6_sub hostOps3_6_fresh (W11 m)),
    .host (hseg hostOps3_7 hostOps3_7_sub hostOps3_7_fresh (W12 m)) ]

variable (ρ : Dev nD → PrngReg)

set_option backward.isDefEq.respectTransparency.types false in
/-- THE RUN. From any memory with zero counters every weakly fair execution of the entry function on the TensorCores
    terminates, nothing faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W13 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W13 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-! ## What the last valuation holds at the arguments -/

open Idealize.ShloMosaic.StableHlo in
/-- A buffer that no host stretch after the third kernel writes holds at the end what it held when that kernel returned. -/
theorem W13_of (c : Dev nD) (r : Ref sig .tc) (h3 : r ∉ hostOps3_W) (h31 : r ∉ hostOps3_1_W) (h32 : r ∉ hostOps3_2_W) (h33 : r ∉ hostOps3_3_W)
    (h34 : r ∉ hostOps3_4_W) (h35 : r ∉ hostOps3_5_W) (h36 : r ∉ hostOps3_6_W) (h37 : r ∉ hostOps3_7_W) :
    W13 m c (Proc.devRef .tc r) = W5 m c (Proc.devRef .tc r) :=
  (after_of_writes_sub hostOps3_7 _ hostOps3_7_writes h37).trans <|
  (after_of_writes_sub hostOps3_6 _ hostOps3_6_writes h36).trans <|
  (after_of_writes_sub hostOps3_5 _ hostOps3_5_writes h35).trans <|
  (after_of_writes_sub hostOps3_4 _ hostOps3_4_writes h34).trans <|
  (after_of_writes_sub hostOps3_3 _ hostOps3_3_writes h33).trans <|
  (after_of_writes_sub hostOps3_2 _ hostOps3_2_writes h32).trans <|
  (after_of_writes_sub hostOps3_1 _ hostOps3_1_writes h31).trans <|
  (after_of_writes_sub hostOps3 _ hostOps3_writes h3)

open Idealize.ShloMosaic.StableHlo in
/-- The question reaches the third kernel's return as launched: no stretch writes it, no region stages it. -/
theorem W5_main_arg0 (c : Dev nD) : W5 m c (Proc.devRef .tc main_arg0) = m ((c : Thread nD τ).loc main_arg0) :=
  (W5_of_ne m c main_arg0 (by decide)).trans <|
  (after_of_writes_sub hostOps2 _ hostOps2_writes (by decide)).trans <|
  (W3_of_ne m c main_arg0 (by decide)).trans <|
  (W2_of_ne m c main_arg0 (by decide)).trans <|
  (after_of_writes_sub hostOps0 _ hostOps0_writes (by decide)).trans rfl

open Idealize.ShloMosaic.StableHlo in
/-- The mask likewise. -/
theorem W5_main_arg2 (c : Dev nD) : W5 m c (Proc.devRef .tc main_arg2) = m ((c : Thread nD τ).loc main_arg2) :=
  (W5_of_ne m c main_arg2 (by decide)).trans <|
  (after_of_writes_sub hostOps2 _ hostOps2_writes (by decide)).trans <|
  (W3_of_ne m c main_arg2 (by decide)).trans <|
  (W2_of_ne m c main_arg2 (by decide)).trans <|
  (after_of_writes_sub hostOps0 _ hostOps0_writes (by decide)).trans rfl

open Idealize.ShloMosaic.StableHlo in
/-- The documents: the first kernel stages them as an input window, which leaves the array as it was. -/
theorem W5_main_arg1 (c : Dev nD) : W5 m c (Proc.devRef .tc main_arg1) = m ((c : Thread nD τ).loc main_arg1) :=
  (W5_of_ne m c main_arg1 (by decide)).trans <|
  (after_of_writes_sub hostOps2 _ hostOps2_writes (by decide)).trans <|
  (W3_of_ne m c main_arg1 (by decide)).trans <|
  ((W2_arr m c 1).trans (((Reg0.dat0 (V1 m) c).arrAt_in 1 rfl _).trans (Reg0.A_eq0 (V1 m) c 1))).trans <|
  (after_of_writes_sub hostOps0 _ hostOps0_writes (by decide)).trans rfl

theorem W13_main_arg0 (c : Dev nD) : W13 m c (Proc.devRef .tc main_arg0) = m ((c : Thread nD τ).loc main_arg0) :=
  (W13_of m c main_arg0 (by decide) (by decide) (by decide) (by decide) (by decide) (by decide) (by decide) (by decide)).trans (W5_main_arg0 m c)
theorem W13_main_arg1 (c : Dev nD) : W13 m c (Proc.devRef .tc main_arg1) = m ((c : Thread nD τ).loc main_arg1) :=
  (W13_of m c main_arg1 (by decide) (by decide) (by decide) (by decide) (by decide) (by decide) (by decide) (by decide)).trans (W5_main_arg1 m c)
theorem W13_main_arg2 (c : Dev nD) : W13 m c (Proc.devRef .tc main_arg2) = m ((c : Thread nD τ).loc main_arg2) :=
  (W13_of m c main_arg2 (by decide) (by decide) (by decide) (by decide) (by decide) (by decide) (by decide) (by decide)).trans (W5_main_arg2 m c)

/-- THE FRAME: every weakly fair execution terminates and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c)⟩) (run_all m ρ)

end Cert.Kernel.Run

end
-- ==== Proof.KI.Reg0.lean ====
/-
  Region 0 — the row normalisation — as one pipeline of 16 points over four windows: the question (one row of
  1024 features, the same block at every point), the documents (512 rows per point), and the two results, the
  normalised averaged rows and the normalised documents (512 rows per point each).

  Everything here is stated at a parameter `V`: the contents of the TensorCore's buffers when the region is
  entered.  At a point `t` the body finds each input window's block of `V`'s array in its staging buffer,
  whether that block was fetched there or carried over from the point before; it overwrites each result's
  staging buffer by ONE store of a payload computed from the two input blocks.  So what the body leaves in a
  result's buffer is a closed function of the two input blocks (`out0_2`, `out0_3`), and the proof data of the
  pipeline (`dat0`) names exactly that.  The body obligation of the pipeline follows from the body's triple.
-/
import proofs.«108611_j80152679678829_2_alg».proof.Proof.Gen.KernelIdeal.Launch
import proofs.«108611_j80152679678829_2_alg».proof.Proof.Gen.KernelIdeal.Skeleton
import proofs.«108611_j80152679678829_2_alg».proof.Proof.Gen.KernelIdeal.Points
import Idealize.ShloMosaic.Lib.Pipeline.FrameBody
import Idealize.ShloMosaic.Lib.Ring
import Idealize.ShloMosaic.Lib.Tactic

-- membership in a rectangle of 512 × 1024 entries is checked coordinate by coordinate
set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array, as the region finds the array, that the
    pipeline stages for that point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The question's staging buffer holds the question's block at every point — fetched at the first point only,
    and then left in place, the block index never moving — for any proof data whose array is `V`'s and whose body
    leaves the block where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The documents' staging buffer holds the documents' block of the point, fetched afresh at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

/-- The whole one-row buffer of the question. -/
abbrev rq : Rect S1x1024 := Rect.unit (s := S1x1024) ![0, 0] S1x1024.size inb_S1x1024_S1x1024_0_0
/-- The whole buffer of 512 rows. -/
abbrev rd : Rect S512x1024 := Rect.unit (s := S512x1024) ![0, 0] S512x1024.size inb_S512x1024_S512x1024_0_0

/-! ## What the body leaves in each result's buffer -/

/-- The buffer of the normalised averaged rows after the body, from the question's block `x0` and the documents'
    block `x1`: its one store, of the payload computed from the two loads. -/
def out0_2 (x0 : Vec F S1x1024 .f32) (x1 : Vec F S512x1024 .f32) : Vec F S512x1024 .bf16 :=
  View.canon [⟨rd, k0_pay1 (View.ld x1 rd) (View.ld x0 rq)⟩]

/-- The buffer of the normalised documents after the body, from the documents' block `x1`: its one store. -/
def out0_3 (x1 : Vec F S512x1024 .f32) : Vec F S512x1024 .bf16 :=
  View.canon [⟨rd, k0_pay2 (View.ld x1 rd)⟩]

/-- One store through the whole rectangle covers the buffer. -/
theorem cover0 (p0 : Vec F S512x1024 .bf16) (y : S512x1024.Idx) :
    ∃ pc ∈ ([⟨rd, p0⟩] : List (View.Piece (Elt F) S512x1024 .bf16)), y ∈ pc.1.set :=
  View.cover_of_tiled [⟨rd, p0⟩] S512x1024.size (by rfl) y

/-! ## The body's triple -/

set_option maxHeartbeats 1000000 in
/-- The body on whole staging buffers — the inputs' at contents reading `x0`, `x1`, the results' at anything — runs
    to the end, leaving the inputs' as they were and each result's at `out0_2 x0 x1`, `out0_3 x1`.  (Each result's
    buffer is also loaded before it is stored; the loaded value is not used.) -/
theorem sound_kernel0 (c : Dev nD) (E : Set ℕ) (i : grid0.Coords)
    (arg1 : Memref sig .tc .vmem S1x1024 .f32) (harg1 : arg1.IsWhole) (arg2 : Memref sig .tc .vmem S512x1024 .f32) (harg2 : arg2.IsWhole)
    (arg3 : Memref sig .tc .vmem S512x1024 .bf16) (harg3 : arg3.IsWhole) (arg4 : Memref sig .tc .vmem S512x1024 .bf16) (harg4 : arg4.IsWhole)
    (x0 : Vec F S1x1024 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x1)) -∗ K ⟨⟩))
      ⊢ wp frame (wpE (defs₀ (F := F)) Variants.none c none) E (cc0__norm_kernel i arg1 harg1 arg2 harg2 arg3 harg3 arg4 harg4) K := by
  simp only [cc0__norm_kernel_eq_skeleton]; unfold cc0__norm_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-! ## The pipeline's proof data -/

/-- The proof data of the pipeline on core `c`: the arrays as the region finds them; after the body at point `t`
    each input's buffer still at its block and each result's at its closed form of the two input blocks; the
    invariant that of a body keeping nothing between points (the scoped rest and the generator register, untouched);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg0

end
-- ==== Proof.KI.Reg2.lean ====
/-
  The frame half of the third pipeline (the score kernel, a grid of 8 points), generic in the float model and
  stated at a parameter `V`: the TensorCore's buffer contents when the region is entered.

  Four input windows — the normalised averaged rows and the normalised documents, a block of 1024 rows each per
  point; the Gram matrix and the column sums, whole and fetched once — and one output window, the scores of the
  point's 1024 rows. The body loads the four staging buffers whole, computes, and stores the whole output buffer:
  what it leaves there is a closed function `out2_4` of the four input blocks, and what it finds in an input buffer
  is that window's block at the point, fetched there or not.
-/
import proofs.«108611_j80152679678829_2_alg».proof.Proof.Gen.KernelIdeal.Launch
import proofs.«108611_j80152679678829_2_alg».proof.Proof.Gen.KernelIdeal.Skeleton
import proofs.«108611_j80152679678829_2_alg».proof.Proof.Gen.KernelIdeal.Points
import Idealize.ShloMosaic.Lib.Pipeline.FrameBody
import Idealize.ShloMosaic.Lib.Ring
import Idealize.ShloMosaic.Lib.Tactic

-- membership in a rectangle of full extents: the elaborator's structural look recurses once per coordinate
set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved), for any proof data whose array is `V`'s and whose body leaves the block in
    place. Window 0: the averaged rows. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1: the documents. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2: the Gram matrix, fetched at the first point only. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3: the column sums, fetched at the first point only. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1024x1024 := Rect.unit (s := S1024x1024) ![0, 0] S1024x1024.size inb_S1024x1024_S1024x1024_0_0
abbrev r2_3 : Rect S1x1024 := Rect.unit (s := S1x1024) ![0, 0] S1x1024.size inb_S1x1024_S1x1024_0_0
abbrev r2_4 : Rect S1024x1 := Rect.unit (s := S1024x1) ![0, 0] S1024x1.size inb_S1024x1_S1024x1_0_0

/-! ## What the body leaves in the output window's buffer -/

/-- The output buffer after the body, from the four input blocks: its one store, of the score payload of the
    four loads. -/
def out2_4 (x0 x1 x2 : Vec F S1024x1024 .bf16) (x3 : Vec F S1x1024 .f32) : Vec F S1024x1 .f32 :=
  View.canon [⟨r2_4, k2_pay1 (View.ld x0 r2_0) (View.ld x1 r2_0) (View.ld x2 r2_0) (View.ld x3 r2_3)⟩]

/-- The one store is of the whole buffer, so it covers it. -/
theorem cover2_4 (p0 : Vec F S1024x1 .f32) (y : S1024x1.Idx) :
    ∃ pc ∈ ([⟨r2_4, p0⟩] : List (View.Piece (Elt F) S1024x1 .f32)), y ∈ pc.1.set :=
  View.cover_of_tiled [⟨r2_4, p0⟩] S1024x1.size (by rfl) y

/-! ## The body's triple -/

set_option maxHeartbeats 1000000 in
/-- The kernel body on whole staging memrefs, the inputs' at read contents `x0 … x3` and the output's at anything,
    runs to the continuation holding the inputs' as they were and the output's at `out2_4` of the inputs'. The
    output buffer is also loaded before it is stored; the loaded value is not used. -/
theorem sound_kernel2 (c : Dev nD) (E : Set ℕ) (i : grid2.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1x1024 .f32) (harg4 : arg4.IsWhole)
    (arg5 : Memref sig .tc .vmem S1024x1 .f32) (harg5 : arg5.IsWhole)
    (x0 x1 x2 : Vec F S1024x1024 .bf16) (x3 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__score_kernel i arg1 harg1 arg2 harg2 arg3 harg3 arg4 harg4 arg5 harg5) K := by
  simp only [cc2__score_kernel_eq_skeleton]; unfold cc2__score_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the pipeline on core `c`: the arrays as the region finds them; after the body at point `t`
    each input's buffer at its block and the output's at `out2_4` of the four input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg2

end
-- ==== Proof.KI.Reg1Runs.lean ====
/-
  The second pipeline (the Gram accumulation, eight grid points): what its three cases share.

  The body zeroes two accumulators at the first point, adds at every point the block's Gram matrix (the block
  transposed, times the block) to the first and the block's column sums to the second, and copies both
  accumulators to the two output blocks at the last point only. The accumulators live in two buffers of the
  kernel's own that keep their contents from one point to the next. Here: the two branch conditions in closed
  form over the grid, where the outputs are idle, the memrefs the body is called with, and the region invariant
  split into the two accumulators and the rest.
-/
import proofs.«108611_j80152679678829_2_alg».proof.Proof.Gen.KernelIdeal.Launch
import proofs.«108611_j80152679678829_2_alg».proof.Proof.Gen.KernelIdeal.Skeleton
import proofs.«108611_j80152679678829_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional of the body (zero the accumulators), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional of the body (copy the accumulators out), from the grid coordinates. -/
abbrev cond1_1 (i : grid1.Coords) : Prop := k1_cond2 i = 1#1
/-- It holds at the last point only. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input window is never idle. -/
theorem liveAt1_0 : ∀ t : Fin cfg1.N, cfg1.idle 0 (grid1.coords t) = false := by decide +kernel
/-- Away from the last point the first output is idle: nothing is stored into it, -/
theorem idleAt1_1 : ∀ t : Fin cfg1.N, ¬cond1_1 (grid1.coords t) → cfg1.idle 1 (grid1.coords t) = true := by decide +kernel
/-- and its block is not written back. -/
theorem noFlush1_1 : ∀ t : Fin cfg1.N, ¬cond1_1 (grid1.coords t) → (cfg1.win 1).flush t = false := by decide +kernel
/-- At the last point it is live. -/
theorem liveAt1_1 : ∀ t : Fin cfg1.N, cond1_1 (grid1.coords t) → cfg1.idle 1 (grid1.coords t) = false := by decide +kernel
/-- The same of the second output. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

/-- One staging buffer of each output window, through which its contents are stated. -/
abbrev VO1_1 : View sig .tc .vmem S1024x1024 .f32 := (Memref.whole cc1_stg1_0 : Memref sig .tc .vmem S1024x1024 .f32).view
abbrev VO1_2 : View sig .tc .vmem S1x1024 .f32 := (Memref.whole cc1_stg2_0 : Memref sig .tc .vmem S1x1024 .f32).view
/-- Each window's current staging memref at point `t`, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
/-- The two accumulators: whole buffers of the kernel's own, passed beside the windows. -/
abbrev scM1_0 : Memref sig .tc .vmem S1024x1024 .f32 := Memref.whole cc1_scratch0
abbrev scM1_1 : Memref sig .tc .vmem S1x1024 .f32 := Memref.whole cc1_scratch1
/-- The accumulators as views: what they hold is stated through these. -/
abbrev VS1_0 : View sig .tc .vmem S1024x1024 .f32 := scM1_0.view
abbrev VS1_1 : View sig .tc .vmem S1x1024 .f32 := scM1_1.view

/-! ## The region invariant, split -/

/-- The core's other scoped buffers (the staging buffers of the other two pipelines), each at some contents: the
    part of the invariant this pipeline's body never touches. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The region invariant hands the body the two accumulators at some contents, the untouched rest and the
    generator register at some state; -/
theorem PhiA1_in (c : Dev nD) :
    (Pipeline.ΦA spec1 c : sProp 𝕄)
      ⊢ iprop(rest1 c ∗ (∃ d, owns (c : Thread nD τ) scM1_0 fullShare d) ∗ (∃ d, owns (c : Thread nD τ) scM1_1 fullShare d) ∗ (∃ r, prngReg c r)) := by
  unfold Pipeline.ΦA rest1; rw [scopedRest1_eq]; simp only [scM1_0, scM1_1, owns_whole]
  iintro ⟨⟨R1, R2, R3, R4, R5, R6, R7, S0, S1, R8, R9, R10, R11, R12, R13, R14, R15⟩, Hg⟩
  isplitl [R1 R2 R3 R4 R5 R6 R7 R8 R9 R10 R11 R12 R13 R14 R15]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  isplitl [S0]; · iexact S0
  isplitl [S1]; · iexact S1
  iexact Hg

/-- and is given back from the same. -/
theorem PhiA1_out (c : Dev nD) :
    iprop(rest1 c ∗ (∃ d, owns (c : Thread nD τ) scM1_0 fullShare d) ∗ (∃ d, owns (c : Thread nD τ) scM1_1 fullShare d) ∗ (∃ r, prngReg c r))
      ⊢ (Pipeline.ΦA spec1 c : sProp 𝕄) := by
  unfold Pipeline.ΦA rest1; rw [scopedRest1_eq]; simp only [scM1_0, scM1_1, owns_whole]
  iintro ⟨⟨R1, R2, R3, R4, R5, R6, R7, R8, R9, R10, R11, R12, R13, R14, R15⟩, S0, S1, Hg⟩
  isplitl [R1 R2 R3 R4 R5 R6 R7 R8 R9 R10 R11 R12 R13 R14 R15 S0 S1]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [S0]; · iexact S0
    isplitl [S1]; · iexact S1
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  iexact Hg

end Cert.KernelIdeal.Reg1

end
-- ==== Proof.KI.Reg1RunA.lean ====
/-
  The body's run at the first grid point: both accumulators are zeroed, then the block's Gram matrix is added to
  the first and its column sums to the second; nothing is stored into the two outputs. The pieces each accumulator
  ends with are found by running the body.
-/
import proofs.«108611_j80152679678829_2_alg».proof.Proof.KI.Reg1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point (the first conditional taken, the second not): on whole memrefs — the input's at its contents
    `x0`, the two outputs' at contents handed back untouched, the two accumulators' at anything — the body runs to the
    continuation holding the input and the outputs as they were and each accumulator with its pieces written. -/
noncomputable def kernelRun1_A (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond1_0 i) (hc1 : ¬cond1_1 i)
    (x0 : Vec F S1024x1024 .bf16) :
    Σ' (LS0 : List (View.Piece (Elt F) S1024x1024 .f32)), { LS1 : List (View.Piece (Elt F) S1x1024 .f32) //
      ∀ (xi1 : Vec F S1024x1024 .f32) (xi2 : Vec F S1x1024 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__gram_kernel i arg1 harg1 arg2 harg2 arg3 harg3 arg4 harg4 arg5 harg5) K } := by
  refine ⟨?_, ?_, fun xi1 xi2 E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Reg1

end
-- ==== Proof.KI.Reg1RunB.lean ====
/-
  The body's run at a middle grid point: the block's Gram matrix is added to the first accumulator and its column
  sums to the second, over what the point before left there; nothing is stored into the two outputs.
-/
import proofs.«108611_j80152679678829_2_alg».proof.Proof.KI.Reg1RunA

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle point (neither conditional taken): on whole memrefs — the input's at its contents `x0`, the two outputs'
    at contents handed back untouched, the two accumulators' at what the point before left (`xs0`, `xs1`) — the body runs
    to the continuation holding the input and the outputs as they were and each accumulator with its pieces written. -/
noncomputable def kernelRun1_B (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : ¬cond1_1 i)
    (x0 : Vec F S1024x1024 .bf16) (xs0 : Vec F S1024x1024 .f32) (xs1 : Vec F S1x1024 .f32) :
    Σ' (LS0 : List (View.Piece (Elt F) S1024x1024 .f32)), { LS1 : List (View.Piece (Elt F) S1x1024 .f32) //
      ∀ (xi1 : Vec F S1024x1024 .f32) (xi2 : Vec F S1x1024 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__gram_kernel i arg1 harg1 arg2 harg2 arg3 harg3 arg4 harg4 arg5 harg5) K } := by
  refine ⟨?_, ?_, fun xi1 xi2 E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Reg1

end
-- ==== Proof.KI.Reg1RunC.lean ====
/-
  The body's run at the last grid point: the block's Gram matrix is added to the first accumulator and its column
  sums to the second, over what the point before left there, and then each accumulator is copied whole into its
  output block.
-/
import proofs.«108611_j80152679678829_2_alg».proof.Proof.KI.Reg1RunB

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last point (the first conditional not taken, the second taken): on whole memrefs — the input's at its
    contents `x0`, the two outputs' at anything, the two accumulators' at what the point before left (`xs0`, `xs1`) — the
    body runs to the continuation holding the input as it was and each output and each accumulator with its pieces
    written. -/
noncomputable def kernelRun1_C (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) :
    Σ' (L1 : List (View.Piece (Elt F) S1024x1024 .f32)) (L2 : List (View.Piece (Elt F) S1x1024 .f32)) (LS0 : List (View.Piece (Elt F) S1024x1024 .f32)), { LS1 : List (View.Piece (Elt F) S1x1024 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__gram_kernel i arg1 harg1 arg2 harg2 arg3 harg3 arg4 harg4 arg5 harg5) K } := by
  refine ⟨?_, ?_, ?_, ?_, fun E K => ?run⟩
  case run =>
    simp only [cc1__gram_kernel_eq_skeleton]; unfold cc1__gram_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Reg1

end
-- ==== Proof.KI.Reg1.lean ====
/-
  The second pipeline (the Gram accumulation): its proof data and body obligation, at any contents `V` of the
  core's buffers when the pipeline is entered.

  After the body at a point the first accumulator holds what it held before plus the block's Gram matrix, the
  second what it held before plus the block's column sums (both from zero at the first point); the two outputs are
  untouched until the last point, where each receives its accumulator. `outsAt1` states these contents point by
  point; the region invariant carries the two accumulators at them from one point to the next.
-/
import proofs.«108611_j80152679678829_2_alg».proof.Proof.KI.Reg1RunC

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulators and the outputs -/

/-- Case A's pieces for the first accumulator cover it. -/
theorem scover1_A_0 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond1_0 i) (hc1 : ¬cond1_1 i)
    (x0 : Vec F S1024x1024 .bf16) (y : S1024x1024.Idx) :
    ∃ pc ∈ (kernelRun1_A c i arg1 harg1 arg2 harg2 arg3 harg3 arg4 harg4 arg5 harg5 hc0 hc1 x0).1, y ∈ pc.1.set :=
  View.cover_of_tiledL (kernelRun1_A c i arg1 harg1 arg2 harg2 arg3 harg3 arg4 harg4 arg5 harg5 hc0 hc1 x0).1 S1024x1024.size (by sl_kernel_rfl) y

/-- What case A leaves in the first accumulator: its pieces read back. -/
def sout1_A_0 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond1_0 i) (hc1 : ¬cond1_1 i)
    (x0 : Vec F S1024x1024 .bf16) : Vec F S1024x1024 .f32 :=
  VS1_0.read (Elt F) (VS1_0.writes (Elt F) VS1_0.junk (kernelRun1_A c i arg1 harg1 arg2 harg2 arg3 harg3 arg4 harg4 arg5 harg5 hc0 hc1 x0).1)

/-- Case A's pieces for the second accumulator cover it. -/
theorem scover1_A_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond1_0 i) (hc1 : ¬cond1_1 i)
    (x0 : Vec F S1024x1024 .bf16) (y : S1x1024.Idx) :
    ∃ pc ∈ (kernelRun1_A c i arg1 harg1 arg2 harg2 arg3 harg3 arg4 harg4 arg5 harg5 hc0 hc1 x0).2.1, y ∈ pc.1.set :=
  View.cover_of_tiledL (kernelRun1_A c i arg1 harg1 arg2 harg2 arg3 harg3 arg4 harg4 arg5 harg5 hc0 hc1 x0).2.1 S1x1024.size (by sl_kernel_rfl) y

/-- What case A leaves in the second accumulator: its pieces read back. -/
def sout1_A_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond1_0 i) (hc1 : ¬cond1_1 i)
    (x0 : Vec F S1024x1024 .bf16) : Vec F S1x1024 .f32 :=
  VS1_1.read (Elt F) (VS1_1.writes (Elt F) VS1_1.junk (kernelRun1_A c i arg1 harg1 arg2 harg2 arg3 harg3 arg4 harg4 arg5 harg5 hc0 hc1 x0).2.1)

/-- Case B's pieces for the first accumulator cover it. -/
theorem scover1_B_0 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : ¬cond1_1 i)
    (x0 : Vec F S1024x1024 .bf16) (xs0 : Vec F S1024x1024 .f32) (xs1 : Vec F S1x1024 .f32) (y : S1024x1024.Idx) :
    ∃ pc ∈ (kernelRun1_B c i arg1 harg1 arg2 harg2 arg3 harg3 arg4 harg4 arg5 harg5 hc0 hc1 x0 xs0 xs1).1, y ∈ pc.1.set :=
  View.cover_of_tiledL (kernelRun1_B c i arg1 harg1 arg2 harg2 arg3 harg3 arg4 harg4 arg5 harg5 hc0 hc1 x0 xs0 xs1).1 S1024x1024.size (by sl_kernel_rfl) y

/-- What case B leaves in the first accumulator: its pieces read back. -/
def sout1_B_0 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : ¬cond1_1 i)
    (x0 : Vec F S1024x1024 .bf16) (xs0 : Vec F S1024x1024 .f32) (xs1 : Vec F S1x1024 .f32) : Vec F S1024x1024 .f32 :=
  VS1_0.read (Elt F) (VS1_0.writes (Elt F) VS1_0.junk (kernelRun1_B c i arg1 harg1 arg2 harg2 arg3 harg3 arg4 harg4 arg5 harg5 hc0 hc1 x0 xs0 xs1).1)

/-- Case B's pieces for the second accumulator cover it. -/
theorem scover1_B_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : ¬cond1_1 i)
    (x0 : Vec F S1024x1024 .bf16) (xs0 : Vec F S1024x1024 .f32) (xs1 : Vec F S1x1024 .f32) (y : S1x1024.Idx) :
    ∃ pc ∈ (kernelRun1_B c i arg1 harg1 arg2 harg2 arg3 harg3 arg4 harg4 arg5 harg5 hc0 hc1 x0 xs0 xs1).2.1, y ∈ pc.1.set :=
  View.cover_of_tiledL (kernelRun1_B c i arg1 harg1 arg2 harg2 arg3 harg3 arg4 harg4 arg5 harg5 hc0 hc1 x0 xs0 xs1).2.1 S1x1024.size (by sl_kernel_rfl) y

/-- What case B leaves in the second accumulator: its pieces read back. -/
def sout1_B_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : ¬cond1_1 i)
    (x0 : Vec F S1024x1024 .bf16) (xs0 : Vec F S1024x1024 .f32) (xs1 : Vec F S1x1024 .f32) : Vec F S1x1024 .f32 :=
  VS1_1.read (Elt F) (VS1_1.writes (Elt F) VS1_1.junk (kernelRun1_B c i arg1 harg1 arg2 harg2 arg3 harg3 arg4 harg4 arg5 harg5 hc0 hc1 x0 xs0 xs1).2.1)

/-- Case C's pieces for the first output's staging buffer cover it. -/
theorem cover1_C_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) (y : S1024x1024.Idx) :
    ∃ pc ∈ (kernelRun1_C c i arg1 harg1 arg2 harg2 arg3 harg3 arg4 harg4 arg5 harg5 hc0 hc1 x0 xs0 xs1).1, y ∈ pc.1.set :=
  View.cover_of_tiledL (kernelRun1_C c i arg1 harg1 arg2 harg2 arg3 harg3 arg4 harg4 arg5 harg5 hc0 hc1 x0 xs0 xs1).1 S1024x1024.size (by sl_kernel_rfl) y

/-- What case C leaves in the first output's staging buffer: its pieces read back. -/
def out1_C_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) : Vec F S1024x1024 .f32 :=
  VO1_1.read (Elt F) (VO1_1.writes (Elt F) VO1_1.junk (kernelRun1_C c i arg1 harg1 arg2 harg2 arg3 harg3 arg4 harg4 arg5 harg5 hc0 hc1 x0 xs0 xs1).1)

/-- Case C's pieces for the second output's staging buffer cover it. -/
theorem cover1_C_2 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) (y : S1x1024.Idx) :
    ∃ pc ∈ (kernelRun1_C c i arg1 harg1 arg2 harg2 arg3 harg3 arg4 harg4 arg5 harg5 hc0 hc1 x0 xs0 xs1).2.1, y ∈ pc.1.set :=
  View.cover_of_tiledL (kernelRun1_C c i arg1 harg1 arg2 harg2 arg3 harg3 arg4 harg4 arg5 harg5 hc0 hc1 x0 xs0 xs1).2.1 S1x1024.size (by sl_kernel_rfl) y

/-- What case C leaves in the second output's staging buffer: its pieces read back. -/
def out1_C_2 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) : Vec F S1x1024 .f32 :=
  VO1_2.read (Elt F) (VO1_2.writes (Elt F) VO1_2.junk (kernelRun1_C c i arg1 harg1 arg2 harg2 arg3 harg3 arg4 harg4 arg5 harg5 hc0 hc1 x0 xs0 xs1).2.1)

/-- Case C's pieces for the first accumulator cover it. -/
theorem scover1_C_0 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) (y : S1024x1024.Idx) :
    ∃ pc ∈ (kernelRun1_C c i arg1 harg1 arg2 harg2 arg3 harg3 arg4 harg4 arg5 harg5 hc0 hc1 x0 xs0 xs1).2.2.1, y ∈ pc.1.set :=
  View.cover_of_tiledL (kernelRun1_C c i arg1 harg1 arg2 harg2 arg3 harg3 arg4 harg4 arg5 harg5 hc0 hc1 x0 xs0 xs1).2.2.1 S1024x1024.size (by sl_kernel_rfl) y

/-- What case C leaves in the first accumulator: its pieces read back. -/
def sout1_C_0 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) : Vec F S1024x1024 .f32 :=
  VS1_0.read (Elt F) (VS1_0.writes (Elt F) VS1_0.junk (kernelRun1_C c i arg1 harg1 arg2 harg2 arg3 harg3 arg4 harg4 arg5 harg5 hc0 hc1 x0 xs0 xs1).2.2.1)

/-- Case C's pieces for the second accumulator cover it. -/
theorem scover1_C_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) (y : S1x1024.Idx) :
    ∃ pc ∈ (kernelRun1_C c i arg1 harg1 arg2 harg2 arg3 harg3 arg4 harg4 arg5 harg5 hc0 hc1 x0 xs0 xs1).2.2.2.1, y ∈ pc.1.set :=
  View.cover_of_tiledL (kernelRun1_C c i arg1 harg1 arg2 harg2 arg3 harg3 arg4 harg4 arg5 harg5 hc0 hc1 x0 xs0 xs1).2.2.2.1 S1x1024.size (by sl_kernel_rfl) y

/-- What case C leaves in the second accumulator: its pieces read back. -/
def sout1_C_1 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) : Vec F S1x1024 .f32 :=
  VS1_1.read (Elt F) (VS1_1.writes (Elt F) VS1_1.junk (kernelRun1_C c i arg1 harg1 arg2 harg2 arg3 harg3 arg4 harg4 arg5 harg5 hc0 hc1 x0 xs0 xs1).2.2.2.1)

/-! ## What the buffers hold after each point -/

/-- What the two outputs' staging buffers and the two accumulators hold after the body at position `n` (a tuple: the
    outputs, then the accumulators): the case of the point, run at the point's memrefs and input block, over what
    the point before left in the accumulators. Before the last point the outputs' components are placeholders that
    nothing consults (the windows are idle there and not written back). -/
def outsAt1 (c : Dev nD) : (n : ℕ) → n < cfg1.N → Vec F S1024x1024 .f32 × Vec F S1x1024 .f32 × Vec F S1024x1024 .f32 × Vec F S1x1024 .f32
  | 0, hn => ((VO1_1.read (Elt F) (VO1_1.writes (Elt F) VO1_1.junk [])), (VO1_2.read (Elt F) (VO1_2.writes (Elt F) VO1_2.junk [])), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h1 : (n + 1) % 8 = 7 then
      (out1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 8 := lt_of_lt_of_eq hn (show cfg1.N = 8 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 8 := lt_of_lt_of_eq hn (show cfg1.N = 8 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 8 := lt_of_lt_of_eq hn (show cfg1.N = 8 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 8 := lt_of_lt_of_eq hn (show cfg1.N = 8 from N_1); (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2)
    else
      ((VO1_1.read (Elt F) (VO1_1.writes (Elt F) VO1_1.junk [])), (VO1_2.read (Elt F) (VO1_2.writes (Elt F) VO1_2.junk [])), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 8 := lt_of_lt_of_eq hn (show cfg1.N = 8 from N_1); (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => (fun h => by have hN : n + 1 < 8 := lt_of_lt_of_eq hn (show cfg1.N = 8 from N_1); (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2)

/-- `outsAt1` at the first point. -/
theorem outsAt1_A (c : Dev nD) (t : Fin cfg1.N) (h0 : t.val % 8 = 0) (h1 : ¬t.val % 8 = 7) :
    outsAt1 V c t.val t.isLt = ((VO1_1.read (Elt F) (VO1_1.writes (Elt F) VO1_1.junk [])), (VO1_2.read (Elt F) (VO1_2.writes (Elt F) VO1_2.junk [])), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t)) := by
  obtain ⟨n, hn⟩ := t
  cases n with
  | zero => exact rfl
  | succ n => exact (by exfalso; have hN : n + 1 < 8 := lt_of_lt_of_eq hn (show cfg1.N = 8 from N_1); (try dsimp only at h0); omega)

/-- `outsAt1` at a middle point: over what the point before left. -/
theorem outsAt1_B (c : Dev nD) (t : Fin cfg1.N) (h0 : ¬t.val % 8 = 0) (h1 : ¬t.val % 8 = 7) :
    outsAt1 V c t.val t.isLt = ((VO1_1.read (Elt F) (VO1_1.writes (Elt F) VO1_1.junk [])), (VO1_2.read (Elt F) (VO1_2.writes (Elt F) VO1_2.junk [])), sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt1` at the last point: over what the point before left. -/
theorem outsAt1_C (c : Dev nD) (t : Fin cfg1.N) (h0 : ¬t.val % 8 = 0) (h1 : t.val % 8 = 7) :
    outsAt1 V c t.val t.isLt = (out1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-- The invariant before position `n`: before the first point the accumulators at anything; afterwards each at what
    the point before left in it; always the untouched rest and the generator register at some state. -/
def PhiS1 (c : Dev nD) : (n : ℕ) → n ≤ cfg1.N → sProp 𝕄
  | 0, _ => iprop(rest1 c ∗ (∃ d, owns (c : Thread nD τ) scM1_0 fullShare d) ∗ (∃ d, owns (c : Thread nD τ) scM1_1 fullShare d) ∗ (∃ r, prngReg c r))
  | n + 1, hn => iprop(rest1 c ∗ owns (c : Thread nD τ) scM1_0 fullShare ((outsAt1 V c n hn).2.2.1) ∗ owns (c : Thread nD τ) scM1_1 fullShare ((outsAt1 V c n hn).2.2.2) ∗ (∃ r, prngReg c r))

theorem PhiS1_zero (c : Dev nD) (n : ℕ) (h : n ≤ cfg1.N) (hz : n = 0) :
    PhiS1 V c n h = iprop(rest1 c ∗ (∃ d, owns (c : Thread nD τ) scM1_0 fullShare d) ∗ (∃ d, owns (c : Thread nD τ) scM1_1 fullShare d) ∗ (∃ r, prngReg c r)) := by
  subst hz; rfl

theorem PhiS1_succ (c : Dev nD) (n : ℕ) (hn : n < cfg1.N) :
    PhiS1 V c (n + 1) hn = iprop(rest1 c ∗ owns (c : Thread nD τ) scM1_0 fullShare ((outsAt1 V c n hn).2.2.1) ∗ owns (c : Thread nD τ) scM1_1 fullShare ((outsAt1 V c n hn).2.2.2) ∗ (∃ r, prngReg c r)) := rfl

theorem PhiS1_pos (c : Dev nD) (n : ℕ) (h : n ≤ cfg1.N) (hz : n ≠ 0) :
    PhiS1 V c n h = iprop(rest1 c ∗ owns (c : Thread nD τ) scM1_0 fullShare ((outsAt1 V c (n - 1) (by omega)).2.2.1) ∗ owns (c : Thread nD τ) scM1_1 fullShare ((outsAt1 V c (n - 1) (by omega)).2.2.2) ∗ (∃ r, prngReg c r)) := by
  cases n with
  | zero => exact absurd rfl hz
  | succ n => rfl

/-! ## The pipeline's proof data -/

/-- The proof data of the pipeline on core `c`: the arrays as the pipeline finds them; after the body at point `t` the
    input's buffer at its block and the outputs' at `outsAt1`'s components; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the input's memref holds its block; the closed forms say which case the point is in; the
    invariant hands the body the accumulators at what the point before left (at anything at the first point) and
    takes them back at this point's contents; the outputs are handed back untouched before the last point and at the
    accumulators' contents at the last; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 8 = 0
  · by_cases h1 : t.val % 8 = 7
    · exfalso; omega
    · have hz : t.val = 0 := by omega
      rw [show (dat1 V c).leavesExact 0 t = owns (c : Thread nD τ) (ms1_0 t) fullShare ((dat1 V c).after 0 t) from by
          unfold Dat.leavesExact; rw [liveAt1_0 t], after1_0]
      rw [Dat.leavesExact_idle (dat1 V c) 1 t (idleAt1_1 t (fun h => h1 ((hcond1_1 t).mp h))) (noFlush1_1 t (fun h => h1 ((hcond1_1 t).mp h)))]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0 sout1_A_1; (try dsimp only)
      rw [PhiS1_castSucc V c t, PhiS1_zero V c _ _ hz]
      iintro ⟨⟨HR, HS0, HS1, Hg⟩, Ho, ⟨%d0, H0⟩, ⟨%d1, H1⟩, ⟨%d2, H2⟩⟩
      iapply ((kernelRun1_A c (grid1.coords t) _ _ _ _ _ _ _ _ _ _ ((hcond1_0 t).mpr h0) (fun h => h1 ((hcond1_1 t).mp h)) (iblk1 V c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover1_A_0 c _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _)
        iexact Hg
      isplitl [Ho]; · iexact Ho
      isplitl [H0]; · iexact H0
      isplitl [H1]; · iexists _; iexact H1
      iexists _; iexact H2
  · have hz : t.val ≠ 0 := by omega
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t ((hcond1_1 t).mpr h1)], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_1 out1_C_2 sout1_C_0 sout1_C_1; (try dsimp only)
      rw [PhiS1_castSucc V c t, PhiS1_pos V c _ _ hz]
      iintro ⟨⟨HR, HS0, HS1, Hg⟩, Ho, ⟨%d0, H0⟩, ⟨%d1, H1⟩, ⟨%d2, H2⟩⟩
      iapply ((kernelRun1_C c (grid1.coords t) _ _ _ _ _ _ _ _ _ _ (fun h => h0 ((hcond1_0 t).mp h)) ((hcond1_1 t).mpr h1) (iblk1 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _)
        iexact Hg
      isplitl [Ho]; · iexact Ho
      isplitl [H0]; · iexact H0
      isplitl [H1]
      · unfold owns; iexists _; isplitr
        swap; · iexact H1
        ipureintro; exact View.read_writes_of_cover _ _ _ _ _ (cover1_C_1 c _ _ _ _ _ _ _ _ _ _ _ _ _ _ _ _)
      unfold owns; iexists _; isplitr
      swap; · iexact H2
      ipureintro; exact View.read_writes_of_cover _ _ _ _ _ (cover1_C_2 c _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1 t (fun h => h1 ((hcond1_1 t).mp h))) (noFlush1_1 t (fun h => h1 ((hcond1_1 t).mp h)))]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨HR, HS0, HS1, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) (fun h => h1 ((hcond1_1 t).mp h)) (iblk1 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _)
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the pipeline is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_in c

/-- After the last point the invariant gives it back: the accumulators' named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl, PhiS1_pos V c _ _ ht]
  refine BIBase.Entails.trans ?_ (PhiA1_out c)
  iintro ⟨HR, HS0, HS1, Hg⟩
  isplitl [HR]; · iexact HR
  isplitl [HS0]; · iexists _; iexact HS0
  isplitl [HS1]; · iexists _; iexact HS1
  iexact Hg

end Cert.KernelIdeal.Reg1

end
-- ==== Proof.KI.Run.lean ====
import proofs.«108611_j80152679678829_2_alg».proof.Proof.KI.Reg0
import proofs.«108611_j80152679678829_2_alg».proof.Proof.KI.Reg2
import proofs.«108611_j80152679678829_2_alg».proof.Proof.KI.Reg1
import proofs.«108611_j80152679678829_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The whole run of the program: the buffers' contents at each boundary between two items of the entry function — a fold
  from the launch memory through the host stretches (each operation applied) and the three kernel regions (each region's
  arrays at what its write-backs leave, every other buffer untouched) —, the three regions as segments over the state
  "every unscoped buffer at the boundary's contents, the generator register at some state, nothing owed", and the run:
  every weakly fair execution ends, and the final memory holds every unscoped buffer at the last boundary's contents.
  The frame claim (arguments unchanged) and the value of the result are both read off that last valuation.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the question's reshape (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its two outputs at what the sixteen write-backs leave. -/
def W2 (c : Dev nD) : Valuation τ sig (Elt F) :=
  Pipeline.withArrays spec0 c (W1 m c) fun w => (Reg0.dat0 (V1 m) c).arrAt w cfg0.N
abbrev V2 : (c : Dev nD) → (b : Ref sig .tc) → Buf (Elt F) ((c : Thread nD τ).loc b) := fun c b => W2 m c b
/-- After region 1: its two outputs at what the last point's write-back leaves. -/
def W3 (c : Dev nD) : Valuation τ sig (Elt F) :=
  Pipeline.withArrays spec1 c (W2 m c) fun w => (Reg1.dat1 (V2 m) c).arrAt w cfg1.N
/-- After the Gram matrix's change of format (region 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After region 2: the scores at what the eight write-backs leave. -/
def W5 (c : Dev nD) : Valuation τ sig (Elt F) :=
  Pipeline.withArrays spec2 c (W4 m c) fun w => (Reg2.dat2 (V4 m) c).arrAt w cfg2.N
/-- After each of the eight host stretches that follow. -/
abbrev W6 : Dev nD → Valuation τ sig (Elt F) := fun c => StableHlo.after hostOps3 (W5 m c)
abbrev W7 : Dev nD → Valuation τ sig (Elt F) := fun c => StableHlo.after hostOps3_1 (W6 m c)
abbrev W8 : Dev nD → Valuation τ sig (Elt F) := fun c => StableHlo.after hostOps3_2 (W7 m c)
abbrev W9 : Dev nD → Valuation τ sig (Elt F) := fun c => StableHlo.after hostOps3_3 (W8 m c)
abbrev W10 : Dev nD → Valuation τ sig (Elt F) := fun c => StableHlo.after hostOps3_4 (W9 m c)
abbrev W11 : Dev nD → Valuation τ sig (Elt F) := fun c => StableHlo.after hostOps3_5 (W10 m c)
abbrev W12 : Dev nD → Valuation τ sig (Elt F) := fun c => StableHlo.after hostOps3_6 (W11 m c)
abbrev W13 : Dev nD → Valuation τ sig (Elt F) := fun c => StableHlo.after hostOps3_7 (W12 m c)

theorem W2_arr (c : Dev nD) (w : Fin cfg0.W) :
    W2 m c (Proc.devRef .tc (Pipeline.arrRef spec0 w)) = (Reg0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (Reg1.dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem W5_arr (c : Dev nD) (w : Fin cfg2.W) :
    W5 m c (Proc.devRef .tc (Pipeline.arrRef spec2 w)) = (Reg2.dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b

theorem hF0 (c : Dev nD) (w : Fin cfg0.W) : (Reg0.dat0 (V1 m) c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (Reg1.dat1 (V2 m) c).arrAt w cfg1.N = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
theorem hF2 (c : Dev nD) (w : Fin cfg2.W) : (Reg2.dat2 (V4 m) c).arrAt w cfg2.N = V5 m c (Pipeline.arrRef spec2 w) := (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat0 (V1 m) c
  | ⟨1, _⟩ => fun c => Reg1.dat1 (V2 m) c
  | ⟨2, _⟩ => fun c => Reg2.dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered at `W2`, left at `W3`. Its invariant carries the two accumulators between
    points; at the region's two ends it is the plain one (every scratch at some contents). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show (Pipeline.ΦA spec1 c : sProp 𝕄) ⊢ (pdats m 1 c).Φ 0 from Reg1.hin1 (V2 m) c)
    unfold Pipeline.ΦA
    show (_ : sProp 𝕄) ⊢ _
    iintro ⟨Hp, -, Hr⟩
    isplitl [Hr]; · iexact Hr
    iexact Hp
  hout c := by
    rw [Pipeline.ownSems0_none]
    refine BI.Entails.trans (show (pdats m 1 c).Φ (Fin.last _) ⊢ (Pipeline.ΦA spec1 c : sProp 𝕄) from Reg1.hout1 (V2 m) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered at `W4`, left at `W5`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the run -/

/-- The thirteen items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)),
    .host (hseg hostOps3_1 hostOps3_1_sub hostOps3_1_fresh (W6 m)),
    .host (hseg hostOps3_2 hostOps3_2_sub hostOps3_2_fresh (W7 m)),
    .host (hseg hostOps3_3 hostOps3_3_sub hostOps3_3_fresh (W8 m)),
    .host (hseg hostOps3_4 hostOps3_4_sub hostOps3_4_fresh (W9 m)),
    .host (hseg hostOps3_5 hostOps3_5_sub hostOps3_5_fresh (W10 m)),
    .host (hseg hostOps3_6 hostOps3_6_sub hostOps3_6_fresh (W11 m)),
    .host (hseg hostOps3_7 hostOps3_7_sub hostOps3_7_fresh (W12 m)) ]

variable (ρ : Dev nD → PrngReg)

set_option backward.isDefEq.respectTransparency.types false in
/-- THE RUN. From any memory with zero counters every weakly fair execution of the entry function on the TensorCores
    terminates, nothing faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W13 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W13 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-! ## What the last valuation holds at the arguments -/

open Idealize.ShloMosaic.StableHlo in
/-- A buffer that no host stretch after the third kernel writes holds at the end what it held when that kernel returned. -/
theorem W13_of (c : Dev nD) (r : Ref sig .tc) (h3 : r ∉ hostOps3_W) (h31 : r ∉ hostOps3_1_W) (h32 : r ∉ hostOps3_2_W) (h33 : r ∉ hostOps3_3_W)
    (h34 : r ∉ hostOps3_4_W) (h35 : r ∉ hostOps3_5_W) (h36 : r ∉ hostOps3_6_W) (h37 : r ∉ hostOps3_7_W) :
    W13 m c (Proc.devRef .tc r) = W5 m c (Proc.devRef .tc r) :=
  (after_of_writes_sub hostOps3_7 _ hostOps3_7_writes h37).trans <|
  (after_of_writes_sub hostOps3_6 _ hostOps3_6_writes h36).trans <|
  (after_of_writes_sub hostOps3_5 _ hostOps3_5_writes h35).trans <|
  (after_of_writes_sub hostOps3_4 _ hostOps3_4_writes h34).trans <|
  (after_of_writes_sub hostOps3_3 _ hostOps3_3_writes h33).trans <|
  (after_of_writes_sub hostOps3_2 _ hostOps3_2_writes h32).trans <|
  (after_of_writes_sub hostOps3_1 _ hostOps3_1_writes h31).trans <|
  (after_of_writes_sub hostOps3 _ hostOps3_writes h3)

open Idealize.ShloMosaic.StableHlo in
/-- The question reaches the third kernel's return as launched: no stretch writes it, no region stages it. -/
theorem W5_main_arg0 (c : Dev nD) : W5 m c (Proc.devRef .tc main_arg0) = m ((c : Thread nD τ).loc main_arg0) :=
  (W5_of_ne m c main_arg0 (by decide)).trans <|
  (after_of_writes_sub hostOps2 _ hostOps2_writes (by decide)).trans <|
  (W3_of_ne m c main_arg0 (by decide)).trans <|
  (W2_of_ne m c main_arg0 (by decide)).trans <|
  (after_of_writes_sub hostOps0 _ hostOps0_writes (by decide)).trans rfl

open Idealize.ShloMosaic.StableHlo in
/-- The mask likewise. -/
theorem W5_main_arg2 (c : Dev nD) : W5 m c (Proc.devRef .tc main_arg2) = m ((c : Thread nD τ).loc main_arg2) :=
  (W5_of_ne m c main_arg2 (by decide)).trans <|
  (after_of_writes_sub hostOps2 _ hostOps2_writes (by decide)).trans <|
  (W3_of_ne m c main_arg2 (by decide)).trans <|
  (W2_of_ne m c main_arg2 (by decide)).trans <|
  (after_of_writes_sub hostOps0 _ hostOps0_writes (by decide)).trans rfl

open Idealize.ShloMosaic.StableHlo in
/-- The documents: the first kernel stages them as an input window, which leaves the array as it was. -/
theorem W5_main_arg1 (c : Dev nD) : W5 m c (Proc.devRef .tc main_arg1) = m ((c : Thread nD τ).loc main_arg1) :=
  (W5_of_ne m c main_arg1 (by decide)).trans <|
  (after_of_writes_sub hostOps2 _ hostOps2_writes (by decide)).trans <|
  (W3_of_ne m c main_arg1 (by decide)).trans <|
  ((W2_arr m c 1).trans (((Reg0.dat0 (V1 m) c).arrAt_in 1 rfl _).trans (Reg0.A_eq0 (V1 m) c 1))).trans <|
  (after_of_writes_sub hostOps0 _ hostOps0_writes (by decide)).trans rfl

theorem W13_main_arg0 (c : Dev nD) : W13 m c (Proc.devRef .tc main_arg0) = m ((c : Thread nD τ).loc main_arg0) :=
  (W13_of m c main_arg0 (by decide) (by decide) (by decide) (by decide) (by decide) (by decide) (by decide) (by decide)).trans (W5_main_arg0 m c)
theorem W13_main_arg1 (c : Dev nD) : W13 m c (Proc.devRef .tc main_arg1) = m ((c : Thread nD τ).loc main_arg1) :=
  (W13_of m c main_arg1 (by decide) (by decide) (by decide) (by decide) (by decide) (by decide) (by decide) (by decide)).trans (W5_main_arg1 m c)
theorem W13_main_arg2 (c : Dev nD) : W13 m c (Proc.devRef .tc main_arg2) = m ((c : Thread nD τ).loc main_arg2) :=
  (W13_of m c main_arg2 (by decide) (by decide) (by decide) (by decide) (by decide) (by decide) (by decide) (by decide)).trans (W5_main_arg2 m c)

/-- THE FRAME: every weakly fair execution terminates and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c)⟩) (run_all m ρ)

end Cert.KernelIdeal.Run

end
-- ==== Proof.KI.TailDefs.lean ====
/-
  What the host operations after the third kernel compute, as functions of the arrays they read, stage by stage:
  the scores outside the mask replaced by −∞ (`masked`); when the mask selects nothing, all scores replaced by 0 (`safe`);
  the exponentials of the scores lowered by the largest of them (`expd`), divided by their sum (`weights`: the softmax);
  the documents' weighted sum, feature by feature (`wavg`); that vector scaled to unit length, its length guarded from
  below — or the question itself when the mask selects nothing (`tail`).
-/
import proofs.«108611_j80152679678829_2_alg».proof.Proof.Gen.KernelIdeal
import Idealize.ShloMosaic.PureOps.Ideal

noncomputable section

namespace Cert.KernelIdeal.Tail

open Cert.KernelIdeal Cert.KernelIdeal.Gen Idealize.ShloMosaic Idealize.ShloMosaic.TcCoe Idealize.SL.Sem

/-- The column of scores as a vector. -/
def flat (s4 : FVec Ideal S8192x1 .f32) : FVec Ideal S8192 .f32 :=
  fun i => shapeCast S8192 s4 shapeCasts_S8192x1_S8192 i

/-- Whether the mask selects any row. -/
def anySel (mask : (⟨S8192, .i1⟩ : BufTy).Contents (Elt Ideal)) : (⟨S_, .i1⟩ : BufTy).Contents (Elt Ideal) :=
  Host.reduce IntOp.ori mask (constantI S_ 1 0#1) reducesTo_S8192_S_d0 h_S_

/-- The scores, those outside the mask replaced by −∞. -/
def masked (mask : (⟨S8192, .i1⟩ : BufTy).Contents (Elt Ideal)) (s : FVec Ideal S8192 .f32) : FVec Ideal S8192 .f32 :=
  select mask s (broadcastInDim S8192 ![] bcast_S_S8192 (constant (F := Ideal) S_ .f32 0xFF800000#32))

/-- The masked scores, or all zeros when the mask selects nothing. -/
def safe (mask : (⟨S8192, .i1⟩ : BufTy).Contents (Elt Ideal)) (s : FVec Ideal S8192 .f32) : FVec Ideal S8192 .f32 :=
  select (broadcastInDim S8192 ![] bcast_S_S8192 (anySel mask)) (masked mask s)
    (broadcastInDim S8192 ![] bcast_S_S8192 (constant (F := Ideal) S_ .f32 0x00000000#32))

/-- The exponentials of the entries of `x`, each lowered by the largest of them (the largest taken with −∞). -/
def expd (x : FVec Ideal S8192 .f32) : FVec Ideal S8192 .f32 :=
  Host.exp (subf x (broadcastInDim S8192 ![0] bcast_S1_S8192_0 (broadcastInDim S1 ![] bcast_S_S1
    (maximumf (constant (F := Ideal) S_ .f32 0xFF800000#32)
      (Host.reduce FloatOps.maximumf x (constant (F := Ideal) S_ .f32 0xFF800000#32) reducesTo_S8192_S_d0 h_S_)))))

/-- The softmax weights: each exponential divided by the sum of all. -/
def weights (x : FVec Ideal S8192 .f32) : FVec Ideal S8192 .f32 :=
  Host.divf (expd x) (broadcastInDim S8192 ![0] bcast_S1_S8192_0 (broadcastInDim S1 ![] bcast_S_S1
    (Host.reduceAdd (expd x) (constant (F := Ideal) S_ .f32 0x00000000#32) reducesTo_S8192_S_d0 h_S_)))

/-- The weighted sum of the documents, feature by feature. -/
def wavg (d : FVec Ideal S8192x1024 .f32) (x : FVec Ideal S8192 .f32) : FVec Ideal S1024 .f32 :=
  Host.reduceAdd (mulf d (broadcastInDim S8192x1024 ![0, 1] bcast_S8192x1_S8192x1024_0_1
    (broadcastInDim S8192x1 ![0] bcast_S8192_S8192x1_0 (weights x)))) (constant (F := Ideal) S_ .f32 0x00000000#32) reducesTo_S8192x1024_S1024_d0 h_S_

/-- The length of `v`. -/
def len (v : FVec Ideal S1024 .f32) : FVec Ideal S_ .f32 :=
  Host.sqrt (Host.reduceAdd (mulf v v) (constant (F := Ideal) S_ .f32 0x00000000#32) reducesTo_S1024_S_d0 h_S_)

/-- From the column of scores to the result. -/
def tail (q : FVec Ideal S1024 .f32) (d : FVec Ideal S8192x1024 .f32) (mask : (⟨S8192, .i1⟩ : BufTy).Contents (Elt Ideal))
    (s4 : FVec Ideal S8192x1 .f32) : FVec Ideal S1024 .f32 :=
  select (broadcastInDim S1024 ![] bcast_S_S1024 (anySel mask))
    (Host.divf (wavg d (safe mask (flat s4))) (broadcastInDim S1024 ![] bcast_S_S1024
      (maximumf (len (wavg d (safe mask (flat s4)))) (constant (F := Ideal) S_ .f32 0x2B8CBCCC#32))))
    q

end Cert.KernelIdeal.Tail

end
-- ==== Proof.KI.Fold.lean ====
import proofs.«108611_j80152679678829_2_alg».proof.Proof.KI.Run
import proofs.«108611_j80152679678829_2_alg».proof.Proof.KI.TailDefs

/-!
  The result read through the eight host stretches after the third kernel, at the exact instance: each stretch's
  result as the stage function of what it reads, a buffer a stretch does not write carried across it, and the chain
  composed — the result is `Tail.tail` of the question, the documents, the mask and the column of scores as the third
  kernel's return finds them.
-/

set_option maxRecDepth 16384

noncomputable section

namespace Cert.KernelIdeal.Fold

open Cert.KernelIdeal Cert.KernelIdeal.Gen Cert.KernelIdeal.Run
open Idealize.ShloMosaic Idealize.ShloMosaic.TcCoe Idealize.ShloMosaic.Tactic
open Idealize.SL Idealize.SL.Sem
open Idealize.ShloMosaic.StableHlo

/-! ## One stretch at a time, from any contents `X` -/

section Stretch
variable (X : Valuation τ sig (Elt Ideal))

theorem flat_read : after hostOps3 X (Proc.devRef .tc main_v5) = Tail.flat (X (Proc.devRef .tc main_v4)) := by
  simp only [hostOps3]
  after_results_simp
  unfold Tail.flat
  rfl

theorem ninf_read :
    after hostOps3 X (Proc.devRef .tc main_v6) = broadcastInDim S8192 ![] bcast_S_S8192 (constant (F := Ideal) S_ .f32 0xFF800000#32) := by
  simp only [hostOps3]
  after_results_simp

theorem mask_step :
    after hostOps3_1 X (Proc.devRef .tc main_v7)
      = select (X (Proc.devRef .tc main_arg2)) (X (Proc.devRef .tc main_v5)) (X (Proc.devRef .tc main_v6)) := by
  simp only [hostOps3_1]
  after_results_simp
  rfl

theorem any_read :
    after hostOps3_2 X (Proc.devRef .tc main_v8) = Tail.anySel (X (Proc.devRef .tc main_arg2)) := by
  simp only [hostOps3_2]
  after_results_simp
  unfold Tail.anySel
  rfl

theorem zeros_read :
    after hostOps3_2 X (Proc.devRef .tc main_v9) = broadcastInDim S8192 ![] bcast_S_S8192 (constant (F := Ideal) S_ .f32 0x00000000#32) := by
  simp only [hostOps3_2]
  after_results_simp

theorem safe_step :
    after hostOps3_3 X (Proc.devRef .tc main_v10)
      = select (broadcastInDim S8192 ![] bcast_S_S8192 (X (Proc.devRef .tc main_v8))) (X (Proc.devRef .tc main_v7)) (X (Proc.devRef .tc main_v9)) := by
  simp only [hostOps3_3]
  after_results_simp
  rfl

theorem wavg_read :
    after hostOps3_4 X (Proc.devRef .tc main_v24) = Tail.wavg (X (Proc.devRef .tc main_arg1)) (X (Proc.devRef .tc main_v10)) := by
  simp only [hostOps3_4]
  after_results_simp
  unfold Tail.wavg Tail.weights Tail.expd
  rfl

theorem len_read :
    after hostOps3_5 X (Proc.devRef .tc main_v25) = Tail.len (X (Proc.devRef .tc main_v24)) := by
  simp only [hostOps3_5]
  after_results_simp
  unfold Tail.len
  rfl

theorem div_read :
    after hostOps3_6 X (Proc.devRef .tc main_v28)
      = Host.divf (X (Proc.devRef .tc main_v24)) (broadcastInDim S1024 ![] bcast_S_S1024
            (maximumf (X (Proc.devRef .tc main_v25)) (constant (F := Ideal) S_ .f32 0x2B8CBCCC#32))) := by
  simp only [hostOps3_6]
  after_results_simp

theorem pick_read :
    after hostOps3_7 X (Proc.devRef .tc main_v29)
      = select (broadcastInDim S1024 ![] bcast_S_S1024 (X (Proc.devRef .tc main_v8))) (X (Proc.devRef .tc main_v28)) (X (Proc.devRef .tc main_arg0)) := by
  simp only [hostOps3_7]
  after_results_simp
  rfl

end Stretch

/-! ## The chain -/

variable (m : (ℓ : Loc nD τ sig) → Buf (Elt Ideal) ℓ) (c : Dev nD)

theorem k6 (r : Ref sig .tc) (h : r ∉ hostOps3_W) : W6 m c (Proc.devRef .tc r) = W5 m c (Proc.devRef .tc r) := after_of_writes_sub hostOps3 _ hostOps3_writes h
theorem k7 (r : Ref sig .tc) (h : r ∉ hostOps3_1_W) : W7 m c (Proc.devRef .tc r) = W6 m c (Proc.devRef .tc r) := after_of_writes_sub hostOps3_1 _ hostOps3_1_writes h
theorem k8 (r : Ref sig .tc) (h : r ∉ hostOps3_2_W) : W8 m c (Proc.devRef .tc r) = W7 m c (Proc.devRef .tc r) := after_of_writes_sub hostOps3_2 _ hostOps3_2_writes h
theorem k9 (r : Ref sig .tc) (h : r ∉ hostOps3_3_W) : W9 m c (Proc.devRef .tc r) = W8 m c (Proc.devRef .tc r) := after_of_writes_sub hostOps3_3 _ hostOps3_3_writes h
theorem k10 (r : Ref sig .tc) (h : r ∉ hostOps3_4_W) : W10 m c (Proc.devRef .tc r) = W9 m c (Proc.devRef .tc r) := after_of_writes_sub hostOps3_4 _ hostOps3_4_writes h
theorem k11 (r : Ref sig .tc) (h : r ∉ hostOps3_5_W) : W11 m c (Proc.devRef .tc r) = W10 m c (Proc.devRef .tc r) := after_of_writes_sub hostOps3_5 _ hostOps3_5_writes h
theorem k12 (r : Ref sig .tc) (h : r ∉ hostOps3_6_W) : W12 m c (Proc.devRef .tc r) = W11 m c (Proc.devRef .tc r) := after_of_writes_sub hostOps3_6 _ hostOps3_6_writes h

/-- The result is the tail of what the third kernel's return finds in the question, the documents, the mask and the scores. -/
theorem W13_main_v29 :
    W13 m c (Proc.devRef .tc main_v29)
      = Tail.tail (W5 m c (Proc.devRef .tc main_arg0)) (W5 m c (Proc.devRef .tc main_arg1)) (W5 m c (Proc.devRef .tc main_arg2))
          (W5 m c (Proc.devRef .tc main_v4)) := by
  have e6_5 : W6 m c (Proc.devRef .tc main_v5) = Tail.flat (W5 m c (Proc.devRef .tc main_v4)) := flat_read _
  have e6_6 : W6 m c (Proc.devRef .tc main_v6) = broadcastInDim S8192 ![] bcast_S_S8192 (constant (F := Ideal) S_ .f32 0xFF800000#32) := ninf_read _
  have e6_a2 : W6 m c (Proc.devRef .tc main_arg2) = W5 m c (Proc.devRef .tc main_arg2) := k6 m c _ (by decide)
  have e7_7 : W7 m c (Proc.devRef .tc main_v7) = Tail.masked (W5 m c (Proc.devRef .tc main_arg2)) (Tail.flat (W5 m c (Proc.devRef .tc main_v4))) :=
    (mask_step _).trans (by rw [e6_5, e6_6, e6_a2]; rfl)
  have e7_a2 : W7 m c (Proc.devRef .tc main_arg2) = W5 m c (Proc.devRef .tc main_arg2) := (k7 m c _ (by decide)).trans e6_a2
  have e8_8 : W8 m c (Proc.devRef .tc main_v8) = Tail.anySel (W5 m c (Proc.devRef .tc main_arg2)) := (any_read _).trans (by rw [e7_a2])
  have e8_9 : W8 m c (Proc.devRef .tc main_v9) = broadcastInDim S8192 ![] bcast_S_S8192 (constant (F := Ideal) S_ .f32 0x00000000#32) := zeros_read _
  have e8_7 := (k8 m c main_v7 (by decide)).trans e7_7
  have e9_10 : W9 m c (Proc.devRef .tc main_v10) = Tail.safe (W5 m c (Proc.devRef .tc main_arg2)) (Tail.flat (W5 m c (Proc.devRef .tc main_v4))) :=
    (safe_step _).trans (by rw [e8_8, e8_9, e8_7]; rfl)
  have e9_a1 : W9 m c (Proc.devRef .tc main_arg1) = W5 m c (Proc.devRef .tc main_arg1) :=
    (k9 m c _ (by decide)).trans <| (k8 m c _ (by decide)).trans <| (k7 m c _ (by decide)).trans (k6 m c _ (by decide))
  have e9_8 := (k9 m c main_v8 (by decide)).trans e8_8
  have e10_24 : W10 m c (Proc.devRef .tc main_v24) = Tail.wavg (W5 m c (Proc.devRef .tc main_arg1)) (Tail.safe (W5 m c (Proc.devRef .tc main_arg2)) (Tail.flat (W5 m c (Proc.devRef .tc main_v4)))) :=
    (wavg_read _).trans (by rw [e9_a1, e9_10])
  have e10_8 := (k10 m c main_v8 (by decide)).trans e9_8
  have e11_25 : W11 m c (Proc.devRef .tc main_v25) = Tail.len (Tail.wavg (W5 m c (Proc.devRef .tc main_arg1)) (Tail.safe (W5 m c (Proc.devRef .tc main_arg2)) (Tail.flat (W5 m c (Proc.devRef .tc main_v4))))) := (len_read (W10 m c)).trans (by rw [e10_24])
  have e11_24 := (k11 m c main_v24 (by decide)).trans e10_24
  have e11_8 := (k11 m c main_v8 (by decide)).trans e10_8
  have e12_28 : W12 m c (Proc.devRef .tc main_v28) = Host.divf (Tail.wavg (W5 m c (Proc.devRef .tc main_arg1)) (Tail.safe (W5 m c (Proc.devRef .tc main_arg2)) (Tail.flat (W5 m c (Proc.devRef .tc main_v4))))) (broadcastInDim S1024 ![] bcast_S_S1024
            (maximumf (Tail.len (Tail.wavg (W5 m c (Proc.devRef .tc main_arg1)) (Tail.safe (W5 m c (Proc.devRef .tc main_arg2)) (Tail.flat (W5 m c (Proc.devRef .tc main_v4)))))) (constant (F := Ideal) S_ .f32 0x2B8CBCCC#32))) := (div_read (W11 m c)).trans (by rw [e11_24, e11_25])
  have e12_8 := (k12 m c main_v8 (by decide)).trans e11_8
  have e12_a0 : W12 m c (Proc.devRef .tc main_arg0) = W5 m c (Proc.devRef .tc main_arg0) :=
    (k12 m c _ (by decide)).trans <| (k11 m c _ (by decide)).trans <| (k10 m c _ (by decide)).trans <| (k9 m c _ (by decide)).trans <|
    (k8 m c _ (by decide)).trans <| (k7 m c _ (by decide)).trans (k6 m c _ (by decide))
  exact (pick_read _).trans (by rw [e12_8, e12_28, e12_a0]; rfl)

end Cert.KernelIdeal.Fold

end
-- ==== Proof.Spec.lean ====
/-
  The mathematics of the kernel and of the reference, entry by entry on the extended reals, over explicit
  coordinates: rows `i, j : Fin 8192` (documents), columns `k, l : Fin 1024` (features).

  * `comb q d i k = (q k + d i k) · ½`: the question averaged with document `i`.
  * `unit x i k = x i k / max (√(Σ_k' x i k'²)) ε`: row `i` of `x` scaled to unit length (ε guards a zero row).
  * `cn = unit (comb q d)`, `dn = unit d`.
  * `gram dn k l = Σ_j dn j k · dn j l` and `colsum dn k = Σ_j dn j k`: the Gram matrix and the column sums of `dn`.
  * `score`: the Gram-factored score of row `i`,
      `cn_i · t − Σ_l (Σ_k cn_i k · G k l) · dn_i l − (cn_i · dn_i)(1 − dn_i · dn_i)`.
  * `refScore`: the pairwise score of row `i`, `Σ_j (cn_i · dn_j)(1 − dn_i · dn_j)(1 − [i = j])`.
-/
import Idealize.ShloMosaic.PureOps.Ideal
import Idealize.ShloMosaic.Lib.ValueIdx

noncomputable section

namespace Cert.Spec

open Idealize.ShloMosaic

/-- The literal ½. -/
abbrev half : EReal := Ideal.ofBits .f32 0x3F000000#32
/-- The guard ε of the two row normalisations (the f32 nearest 1e-8). -/
abbrev epsC : EReal := Ideal.ofBits .f32 0x322BCC77#32
/-- The literal 1. -/
abbrev one : EReal := Ideal.ofBits .f32 0x3F800000#32

/-- The question averaged with document `i`, at feature `k`. -/
def comb (q : Fin 1024 → EReal) (d : Fin 8192 → Fin 1024 → EReal) (i : Fin 8192) (k : Fin 1024) : EReal :=
  (q k + d i k) * half

/-- Row `i` of `x` divided by its length, the length guarded below by ε. -/
def unit (x : Fin 8192 → Fin 1024 → EReal) (i : Fin 8192) (k : Fin 1024) : EReal :=
  Ideal.div (x i k) (max (Ideal.sqrt (∑ k' : Fin 1024, x i k' * x i k')) epsC)

/-- The normalised averaged rows. -/
def cn (q : Fin 1024 → EReal) (d : Fin 8192 → Fin 1024 → EReal) : Fin 8192 → Fin 1024 → EReal := unit (comb q d)

/-- The normalised documents. -/
def dn (d : Fin 8192 → Fin 1024 → EReal) : Fin 8192 → Fin 1024 → EReal := unit d

/-- The Gram matrix of the rows of `x`. -/
def gram (x : Fin 8192 → Fin 1024 → EReal) (k l : Fin 1024) : EReal := ∑ j : Fin 8192, x j k * x j l

/-- The column sums of `x`. -/
def colsum (x : Fin 8192 → Fin 1024 → EReal) (k : Fin 1024) : EReal := ∑ j : Fin 8192, x j k

/-- The Gram-factored score of row `i`: linear term, minus quadratic term, minus the diagonal's share. -/
def score (c x : Fin 8192 → Fin 1024 → EReal) (g : Fin 1024 → Fin 1024 → EReal) (tt : Fin 1024 → EReal) (i : Fin 8192) : EReal :=
  ((∑ k : Fin 1024, c i k * tt k) - (∑ l : Fin 1024, (∑ k : Fin 1024, c i k * g k l) * x i l))
    - (∑ k : Fin 1024, c i k * x i k) * (one - ∑ k : Fin 1024, x i k * x i k)

/-- The pairwise score of row `i`: every other row `j` contributes `(c_i · x_j)(1 − x_i · x_j)`. -/
def refScore (c x : Fin 8192 → Fin 1024 → EReal) (i : Fin 8192) : EReal :=
  ∑ j : Fin 8192, ((∑ k : Fin 1024, c i k * x j k) * (one - ∑ k : Fin 1024, x i k * x j k)) * (one - (if i = j then one else 0))

end Cert.Spec

end
-- ==== Proof.KI.Val0.lean ====
/-
  What region 0 leaves in its two result arrays, on the extended reals.

  The region walks the 8192 documents in 16 blocks of 512 rows.  At a block it averages each document row with the
  question (`(q + d) · ½`), and scales the averaged row and the document row each to unit length: a row `y` becomes
  `y k / max (√(Σ_k' y k'²)) ε`.  Every step but the sum of squares acts entry by entry; the sum runs along a row and
  is then laid back along that row (a vector of 512 sums read as a column of 512 rows and one entry, the column
  repeated across the 1024 features).  Changing the float format is the identity on extended reals.

  So an entry `(p, k)` of what a block's store holds depends on row `p` of the block alone, and row `p` of the block
  at point `t` is row `512 t + p` of the documents; the question's block is the question at every point.  Hence
  each point writes back its block of ONE function of the two argument arrays — `Cert.Spec.cn`, `Cert.Spec.dn` entry
  by entry —, the 16 blocks cover the 8192 rows (row `r` lies in block `r / 512`), and each result array ends
  holding that function.
-/
import proofs.«108611_j80152679678829_2_alg».proof.Proof.KI.Reg0
import proofs.«108611_j80152679678829_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val0

open Cert.KernelIdeal Cert.KernelIdeal.Gen
open Idealize.ShloMosaic Idealize.ShloMosaic.TcCoe Idealize.SL.Sem
open Idealize.ShloMosaic.Pipeline (Dat)
open Idealize.ShloMosaic.ValueIdx

/-! ## A vector of row sums laid back along the rows -/

/-- A vector of 512 entries read as a column of 512 rows and one entry: entry `(p, 0)` is the vector's entry `p`. -/
theorem column_of_vector_apply {α : Type} (x : S512.Idx → α) (h : S512.ShapeCasts S512x1) (p : Fin 512) (z : Fin 1) :
    shapeCast S512x1 x h (ix2 p z) = x (ix1 p) :=
  shapeCast_apply x h _ _ (by
    rw [Shape.rowMajor_val_one, Shape.rowMajor_val_two]
    show p.val = p.val * 1 + z.val
    omega)

/-- A column of 512 rows and one entry repeated across 1024 features: entry `(p, q)` is the column's entry `(p, 0)`. -/
theorem column_along_rows_apply {α : Type} (v : S512x1.Idx → α) (h : S512x1.Broadcasts S512x1024) (p : Fin 512) (q : Fin 1024) :
    broadcastTo S512x1024 v h (ix2 p q) = v (ix2 p (0 : Fin 1)) := by
  refine broadcastTo_apply v h (ix2 p q) (ix2 p (0 : Fin 1)) fun ax => ?_
  match ax with
  | ⟨0, _⟩ =>
    show p.val = if (512 : ℕ) = 1 then 0 else p.val
    rw [if_neg (by decide)]
  | ⟨1, _⟩ => rfl

/-- The sum along the features of a block of 512 rows, from a zero accumulator: entry `p` is the sum of row `p`. -/
theorem row_sum_apply (src : FVec Ideal S512x1024 .f32) (h : S512x1024.Reduces [1] S512) (hφ : FKind.Formats .f32)
    (hacc : (0x00000000#32 : BitVec 32) = 0x00000000#32) (p : Fin 512) :
    multiReduction .add [1] S512 src 0x00000000#32 h hφ hacc (ix1 p) = ∑ k : Fin 1024, src (ix2 p k) := by
  refine (Ideal.multiReduction_add_single src 0x00000000#32 h hφ hacc (ix1 p)).trans ?_
  show ∑ k : Fin 1024, src (h.lift (ix1 p) k) = ∑ k : Fin 1024, src (ix2 p k)
  refine Finset.sum_congr rfl fun k _ => congrArg src ?_
  funext a
  match a with
  | ⟨0, _⟩ => rfl
  | ⟨1, _⟩ => rfl

/-! ## The two payloads: a block scaled row by row to unit length -/

/-- A block of 512 rows scaled row by row to unit length, the length guarded below by ε, then narrowed: the
    operations both stores' payloads end with. -/
def normalise [Facts] (y : FVec Ideal S512x1024 .f32) : FVec Ideal S512x1024 .bf16 :=
  truncf .bf16 (divf y (broadcastTo S512x1024
    (maximumf (sqrt (shapeCast S512x1 (multiReduction .add [1] S512 (mulf y y) 0x00000000#32 Facts₀.reduces_S512x1024_S512 (.inl rfl) rfl) Facts₀.shapeCasts_S512_S512x1))
      (broadcast S512x1 (Scalar.ofBits .f32 0x322BCC77#32))) Facts₀.broadcasts_S512x1_S512x1024)) Facts₀.bitsLt_bf16_f32

/-- At an entry: the entry over the guarded length of its row. -/
theorem normalise_apply [Facts] (y : FVec Ideal S512x1024 .f32) (p : Fin 512) (q : Fin 1024) :
    normalise y (ix2 p q) = Ideal.div (y (ix2 p q)) (max (Ideal.sqrt (∑ k : Fin 1024, y (ix2 p k) * y (ix2 p k))) Cert.Spec.epsC) := by
  unfold normalise
  show Ideal.div (y (ix2 p q)) (broadcastTo S512x1024 _ _ (ix2 p q)) = _
  rw [column_along_rows_apply]
  show Ideal.div (y (ix2 p q)) (max (Ideal.sqrt (shapeCast S512x1 _ _ (ix2 p (0 : Fin 1)))) _) = _
  rw [column_of_vector_apply, row_sum_apply]
  rfl

/-- The documents' block `x1` averaged with the question's row `x0`: the question repeated down the 512 rows, added,
    halved. -/
def average [Facts] (x1 : Vec Ideal S512x1024 .f32) (x0 : Vec Ideal S1x1024 .f32) : FVec Ideal S512x1024 .f32 :=
  mulf (addf (broadcastTo S512x1024 (shapeCast S1x1024 x0 Facts₀.shapeCasts_S1x1024_S1x1024) Facts₀.broadcasts_S1x1024_S512x1024) x1)
    (broadcast S512x1024 (Scalar.ofBits .f32 0x3F000000#32))

/-- At an entry: the question's feature plus the document's, halved. -/
theorem average_apply [Facts] (x1 : Vec Ideal S512x1024 .f32) (x0 : Vec Ideal S1x1024 .f32) (p : Fin 512) (k : Fin 1024) :
    average x1 x0 (ix2 p k) = (x0 (ix2 (0 : Fin 1) k) + x1 (ix2 p k)) * Cert.Spec.half := by
  unfold average
  show (broadcastTo S512x1024 _ _ (ix2 p k) + x1 (ix2 p k)) * _ = _
  rw [broadcastTo_1b_ab_apply, shapeCast_self]
  rfl

/-- The first store's payload is the averaged block scaled to unit rows; -/
theorem payload_cn_eq (x1 : Vec Ideal S512x1024 .f32) (x0 : Vec Ideal S1x1024 .f32) : k0_pay1 x1 x0 = normalise (average x1 x0) := rfl

/-- the second's is the documents' block scaled to unit rows. -/
theorem payload_dn_eq (x1 : Vec Ideal S512x1024 .f32) : k0_pay2 x1 = normalise x1 := rfl

/-! ## The blocks of the argument arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices at point `t`, decided over the 16 points: the question's block never moves; the documents' and
    the two results' blocks are the `t`-th along the rows. -/
theorem block_indices : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `512 t + p` is one of the 8192 rows. -/
theorem row_lt (t : Fin cfg0.N) (p : Fin 512) : 512 * t.val + p.val < 8192 := by
  have hN : cfg0.N = 16 := N_0
  have := t.isLt
  omega

/-- The question's block at any point is the question. -/
theorem question_block_apply (c : Dev nD) (t : Fin cfg0.N) (k : Fin 1024) :
    (Reg0.iblk0 V c 0 t : Vec Ideal S1x1024 .f32) (ix2 (0 : Fin 1) k) = (V c main_v0 : S1x1024.Idx → EReal) (ix2 (0 : Fin 1) k) := by
  obtain ⟨e0, e1, -⟩ := block_indices t
  unfold Reg0.iblk0
  rw [View.read_apply]
  show V c main_v0 _ = V c main_v0 _
  congr 1
  funext a
  apply Fin.ext
  match a with
  | ⟨0, _⟩ => show win0_0.index t 0 * 1 + 1 * 0 = 0; rw [e0]
  | ⟨1, _⟩ => show win0_0.index t 1 * 1024 + 1 * k.val = k.val; rw [e1]; omega

/-- Row `p` of the documents' block at point `t` is row `512 t + p` of the documents. -/
theorem documents_block_apply (c : Dev nD) (t : Fin cfg0.N) (p : Fin 512) (q : Fin 1024) (i : Fin 8192) (hi : i.val = 512 * t.val + p.val) :
    (Reg0.iblk0 V c 1 t : Vec Ideal S512x1024 .f32) (ix2 p q) = (V c main_arg1 : S8192x1024.Idx → EReal) (ix2 i q) := by
  obtain ⟨-, -, e0, e1, -⟩ := block_indices t
  unfold Reg0.iblk0
  rw [View.read_apply]
  show V c main_arg1 _ = V c main_arg1 _
  congr 1
  funext a
  apply Fin.ext
  match a with
  | ⟨0, _⟩ => show win0_1.index t 0 * 512 + 1 * p.val = i.val; rw [e0, hi]; omega
  | ⟨1, _⟩ => show win0_1.index t 1 * 1024 + 1 * q.val = q.val; rw [e1]; omega

/-- Entry `(p, q)` of the first result's block at point `t` sits at `(512 t + p, q)` of its array; -/
theorem cn_block_emb (t : Fin cfg0.N) (p : Fin 512) (q : Fin 1024) (i : Fin 8192) (hi : i.val = 512 * t.val + p.val) :
    ((cfg0.win 2).blk t).view.emb (ix2 p q) = (ix2 i q : S8192x1024.Idx) := by
  obtain ⟨-, -, -, -, e0, e1, -, -⟩ := block_indices t
  funext a; apply Fin.ext
  match a with
  | ⟨0, _⟩ => show win0_2.index t 0 * 512 + 1 * p.val = i.val; rw [e0, hi]; omega
  | ⟨1, _⟩ => show win0_2.index t 1 * 1024 + 1 * q.val = q.val; rw [e1]; omega

/-- and so does the second result's. -/
theorem dn_block_emb (t : Fin cfg0.N) (p : Fin 512) (q : Fin 1024) (i : Fin 8192) (hi : i.val = 512 * t.val + p.val) :
    ((cfg0.win 3).blk t).view.emb (ix2 p q) = (ix2 i q : S8192x1024.Idx) := by
  obtain ⟨-, -, -, -, -, -, e0, e1⟩ := block_indices t
  funext a; apply Fin.ext
  match a with
  | ⟨0, _⟩ => show win0_3.index t 0 * 512 + 1 * p.val = i.val; rw [e0, hi]; omega
  | ⟨1, _⟩ => show win0_3.index t 1 * 1024 + 1 * q.val = q.val; rw [e1]; omega

/-! ## What each point writes back -/

/-- The normalised averaged rows as one array: a function of the question and the documents as the region finds them. -/
def cnArray (c : Dev nD) : S8192x1024.Idx → EReal := fun j =>
  Cert.Spec.cn (fun k => (V c main_v0 : S1x1024.Idx → EReal) (ix2 (0 : Fin 1) k)) (fun i k => (V c main_arg1 : S8192x1024.Idx → EReal) (ix2 i k)) (j 0) (j 1)

/-- The normalised documents as one array. -/
def dnArray (c : Dev nD) : S8192x1024.Idx → EReal := fun j =>
  Cert.Spec.dn (fun i k => (V c main_arg1 : S8192x1024.Idx → EReal) (ix2 i k)) (j 0) (j 1)

/-- Point `t` writes back block `t` of the normalised averaged rows. -/
theorem cn_written (c : Dev nD) (t : Fin cfg0.N) :
    (Reg0.dat0 V c).flushed 2 t = ((cfg0.win 2).blk t).view.read (Elt Ideal) (cnArray V c) := by
  show (cfg0.win 2).cut (grid0.coords t) ((Reg0.dat0 V c).after 2 t) = _
  rw [Reg0.after0_2]
  unfold Reg0.out0_2
  rw [View.canon_unit_zero zero_offsets]
  simp only [View.ld_unit_zero (S := S512x1024) zero_offsets, View.ld_unit_zero (S := S1x1024) zero_offsets]
  rw [payload_cn_eq]
  funext j
  obtain ⟨p, q, rfl⟩ : ∃ (p : Fin 512) (q : Fin 1024), j = ix2 p q := ⟨j 0, j 1, eq_ix2 j⟩
  show normalise (average (Reg0.iblk0 V c 1 t) (Reg0.iblk0 V c 0 t)) (ix2 p q) = cnArray V c (((cfg0.win 2).blk t).view.emb (ix2 p q))
  rw [cn_block_emb t p q ⟨512 * t.val + p.val, row_lt t p⟩ rfl, normalise_apply]
  simp only [average_apply, question_block_apply V c t, documents_block_apply V c t _ _ ⟨512 * t.val + p.val, row_lt t p⟩ rfl]
  rfl

/-- Point `t` writes back block `t` of the normalised documents. -/
theorem dn_written (c : Dev nD) (t : Fin cfg0.N) :
    (Reg0.dat0 V c).flushed 3 t = ((cfg0.win 3).blk t).view.read (Elt Ideal) (dnArray V c) := by
  show (cfg0.win 3).cut (grid0.coords t) ((Reg0.dat0 V c).after 3 t) = _
  rw [Reg0.after0_3]
  unfold Reg0.out0_3
  rw [View.canon_unit_zero zero_offsets]
  simp only [View.ld_unit_zero (S := S512x1024) zero_offsets]
  rw [payload_dn_eq]
  funext j
  obtain ⟨p, q, rfl⟩ : ∃ (p : Fin 512) (q : Fin 1024), j = ix2 p q := ⟨j 0, j 1, eq_ix2 j⟩
  show normalise (Reg0.iblk0 V c 1 t) (ix2 p q) = dnArray V c (((cfg0.win 3).blk t).view.emb (ix2 p q))
  rw [dn_block_emb t p q ⟨512 * t.val + p.val, row_lt t p⟩ rfl, normalise_apply]
  simp only [documents_block_apply V c t _ _ ⟨512 * t.val + p.val, row_lt t p⟩ rfl]
  rfl

/-! ## The 16 blocks cover the 8192 rows -/

/-- An index of the array is in point `t`'s block iff each coordinate is in the block's range on its axis. -/
theorem mem_cn_block (t : Fin cfg0.N) (i : S8192x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v1_0).slice (win0_2.rect t)).set ↔ _
  rw [View.set_slice_whole, Rect.mem_set_unit]
  exact Iff.rfl

theorem mem_dn_block (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v1_1).slice (win0_3.rect t)).set ↔ _
  rw [View.set_slice_whole, Rect.mem_set_unit]
  exact Iff.rfl

/-- Row `r` lies in the block of point `r / 512`, which is written back. -/
theorem cn_blocks_cover (i : S8192x1024.Idx) : ∃ t : Fin cfg0.N, (cfg0.win 2).flush t = true ∧ i ∈ ((cfg0.win 2).blk t).view.set := by
  have hN : cfg0.N = 16 := N_0
  have hi0 : (i 0).val < 8192 := (i 0).isLt
  have hi1 : (i 1).val < 1024 := (i 1).isLt
  refine ⟨⟨(i 0).val / 512, by omega⟩, flush0_2 _, ?_⟩
  rw [mem_cn_block]
  obtain ⟨-, -, -, -, e0, e1, -, -⟩ := block_indices ⟨(i 0).val / 512, by omega⟩
  intro a
  match a with
  | ⟨0, _⟩ =>
    show win0_2.index _ (0 : Fin 2) * 512 ≤ (i 0).val ∧ (i 0).val < win0_2.index _ (0 : Fin 2) * 512 + 512
    rw [e0]
    show (i 0).val / 512 * 512 ≤ (i 0).val ∧ (i 0).val < (i 0).val / 512 * 512 + 512
    omega
  | ⟨1, _⟩ =>
    show win0_2.index _ (1 : Fin 2) * 1024 ≤ (i 1).val ∧ (i 1).val < win0_2.index _ (1 : Fin 2) * 1024 + 1024
    rw [e1]
    omega

theorem dn_blocks_cover (i : S8192x1024.Idx) : ∃ t : Fin cfg0.N, (cfg0.win 3).flush t = true ∧ i ∈ ((cfg0.win 3).blk t).view.set := by
  have hN : cfg0.N = 16 := N_0
  have hi0 : (i 0).val < 8192 := (i 0).isLt
  have hi1 : (i 1).val < 1024 := (i 1).isLt
  refine ⟨⟨(i 0).val / 512, by omega⟩, flush0_3 _, ?_⟩
  rw [mem_dn_block]
  obtain ⟨-, -, -, -, -, -, e0, e1⟩ := block_indices ⟨(i 0).val / 512, by omega⟩
  intro a
  match a with
  | ⟨0, _⟩ =>
    show win0_3.index _ (0 : Fin 2) * 512 ≤ (i 0).val ∧ (i 0).val < win0_3.index _ (0 : Fin 2) * 512 + 512
    rw [e0]
    show (i 0).val / 512 * 512 ≤ (i 0).val ∧ (i 0).val < (i 0).val / 512 * 512 + 512
    omega
  | ⟨1, _⟩ =>
    show win0_3.index _ (1 : Fin 2) * 1024 ≤ (i 1).val ∧ (i 1).val < win0_3.index _ (1 : Fin 2) * 1024 + 1024
    rw [e1]
    omega

/-! ## The two arrays after all 16 points -/

/-- The first result array ends holding the normalised averaged rows; -/
theorem cn_array (c : Dev nD) : (Reg0.dat0 V c).arrAt 2 cfg0.N = cnArray V c :=
  (Reg0.dat0 V c).arrAt_eq_of_cover 2 (cnArray V c) (fun t _ => cn_written V c t) cn_blocks_cover

/-- the second, the normalised documents. -/
theorem dn_array (c : Dev nD) : (Reg0.dat0 V c).arrAt 3 cfg0.N = dnArray V c :=
  (Reg0.dat0 V c).arrAt_eq_of_cover 3 (dnArray V c) (fun t _ => dn_written V c t) dn_blocks_cover

/-- Entry `(i, k)` of the first result array after the region. -/
theorem cn_at (c : Dev nD) (i : Fin 8192) (k : Fin 1024) :
    ((Reg0.dat0 (F := Ideal) V c).arrAt 2 cfg0.N : S8192x1024.Idx → EReal) (ix2 i k)
      = Cert.Spec.cn (fun k => (V c main_v0 : S1x1024.Idx → EReal) (ix2 (0 : Fin 1) k)) (fun i k => (V c main_arg1 : S8192x1024.Idx → EReal) (ix2 i k)) i k := by
  rw [cn_array]; rfl

/-- Entry `(i, k)` of the second result array after the region. -/
theorem dn_at (c : Dev nD) (i : Fin 8192) (k : Fin 1024) :
    ((Reg0.dat0 (F := Ideal) V c).arrAt 3 cfg0.N : S8192x1024.Idx → EReal) (ix2 i k)
      = Cert.Spec.dn (fun i k => (V c main_arg1 : S8192x1024.Idx → EReal) (ix2 i k)) i k := by
  rw [dn_array]; rfl

end Cert.KernelIdeal.Val0

end
-- ==== Proof.KI.Pay1.lean ====
/-
  Region 1 — the Gram matrix and the column sums of the normalised documents — at one grid point, entry by entry on
  the extended reals, and its eight blocks of 1024 rows put together.

  At the first point the two accumulators are filled with zeros.  At every point the block `x` of 1024 rows
  (1024 features each) is multiplied with itself, contracting the ROW axis of both factors: entry `(k, l)` of the
  product is `Σ_r x r k · x r l`; it is added to the first accumulator.  The block's column sums, `Σ_r x r k`, read
  as one row of 1024 entries, are added to the second.  Widening the float format is the identity on extended
  reals.

  Adding block after block, from zero, the sums over the 1024 rows of each of the eight blocks gives the sum over
  all 8192 rows: the rows are split into the eight blocks `1024 t + r`, and addition on the extended reals is
  associative and commutative.
-/
import proofs.«108611_j80152679678829_2_alg».proof.Proof.Gen.KernelIdeal.Skeleton
import proofs.«108611_j80152679678829_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val1

open Cert.KernelIdeal Cert.KernelIdeal.Gen
open Idealize.ShloMosaic Idealize.SL.Sem
open Idealize.ShloMosaic.ValueIdx

/-! ## The zero fills of the first point -/

/-- The first accumulator's fill is zero everywhere; -/
theorem pay1_apply (k l : Fin 1024) : k1_pay1 (F := Ideal) (ix2 k l) = 0 := by
  unfold k1_pay1
  rw [shapeCast_self]
  exact Ideal.ofBits_zero_f32

/-- and so is the second's. -/
theorem pay2_apply (k : Fin 1024) : k1_pay2 (F := Ideal) (ix2 (0 : Fin 1) k) = 0 := by
  unfold k1_pay2
  rw [shapeCast_self]
  exact Ideal.ofBits_zero_f32

/-! ## A block times itself, contracting the rows -/

/-- The product's dimension numbers: the row axis of both factors is contracted, the feature axes remain. -/
abbrev gramDims : DotDims S1024x1024 S1024x1024 S1024x1024 := dot_S1024x1024_S1024x1024_S1024x1024_0_0_1_1_n_n

theorem gram_lhs_0 (i : S1024x1024.Idx) (q : gramDims.contr.Idx) : (gramDims.lhsIdx i q 0).val = (q ⟨0, by decide⟩).val :=
  gramDims.lhsIdx_val_of_single rfl i q

theorem gram_lhs_1 (i : S1024x1024.Idx) (q : gramDims.contr.Idx) : (gramDims.lhsIdx i q 1).val = (i 0).val := by
  unfold DotDims.lhsIdx
  rw [dif_neg (show ¬(1 : Fin S1024x1024.rank) ∈ gramDims.lhsBatch by decide), dif_pos (show (1 : Fin S1024x1024.rank) ∈ gramDims.lhsNonContracting by decide)]
  rfl

theorem gram_rhs_0 (i : S1024x1024.Idx) (q : gramDims.contr.Idx) : (gramDims.rhsIdx i q 0).val = (q ⟨0, by decide⟩).val :=
  gramDims.rhsIdx_val_of_single rfl i q

theorem gram_rhs_1 (i : S1024x1024.Idx) (q : gramDims.contr.Idx) : (gramDims.rhsIdx i q 1).val = (i 1).val := by
  unfold DotDims.rhsIdx
  rw [dif_neg (show ¬(1 : Fin S1024x1024.rank) ∈ gramDims.rhsBatch by decide), dif_pos (show (1 : Fin S1024x1024.rank) ∈ gramDims.rhsNonContracting by decide)]
  rfl

/-- Entry `(k, l)` of a block times itself over the rows, into a zero accumulator: `Σ_r x r k · x r l`. -/
theorem gram_apply (x : FVec Ideal S1024x1024 .bf16) (k l : Fin 1024) :
    matmul gramDims none x x (constant S1024x1024 .f32 0x00000000#32) (ix2 k l) = ∑ r : Fin 1024, x (ix2 r k) * x (ix2 r l) := by
  show FloatOps.matmul gramDims none x x (constant S1024x1024 .f32 0x00000000#32) (ix2 k l) = _
  rw [Ideal.matmul_constant_zero_apply, ← Equiv.sum_comp (contrEquiv1 gramDims 1024 rfl rfl).symm]
  refine Finset.sum_congr rfl fun r _ => ?_
  have hr := contrEquiv1_symm_val gramDims 1024 rfl rfl r
  have el : gramDims.lhsIdx (ix2 k l) ((contrEquiv1 gramDims 1024 rfl rfl).symm r) = ix2 r k := funext fun a => Fin.ext (by
    match a with
    | ⟨0, _⟩ => exact (gram_lhs_0 _ _).trans hr
    | ⟨1, _⟩ => exact gram_lhs_1 _ _)
  have er : gramDims.rhsIdx (ix2 k l) ((contrEquiv1 gramDims 1024 rfl rfl).symm r) = ix2 r l := funext fun a => Fin.ext (by
    match a with
    | ⟨0, _⟩ => exact (gram_rhs_0 _ _).trans hr
    | ⟨1, _⟩ => exact gram_rhs_1 _ _)
  rw [el, er]

/-- What a point stores into the first accumulator: what it held plus the block's product with itself. -/
theorem pay4_apply (v3 : Vec Ideal S1024x1024 .bf16) (v5 : Vec Ideal S1024x1024 .f32) (k l : Fin 1024) :
    k1_pay4 v3 v5 (ix2 k l) = v5 (ix2 k l) + ∑ r : Fin 1024, v3 (ix2 r k) * v3 (ix2 r l) := by
  unfold k1_pay4 k1_pay3
  simp only [shapeCast_self]
  show v5 (ix2 k l) + matmul (F := Ideal) gramDims none (v3 : FVec Ideal S1024x1024 .bf16) (v3 : FVec Ideal S1024x1024 .bf16) (constant (F := Ideal) S1024x1024 .f32 0x00000000#32) (ix2 k l) = _
  rw [gram_apply]

/-! ## A block's column sums, as one row -/

/-- The sum along the rows of a block of 1024 rows, from a zero accumulator: entry `k` is the sum of column `k`. -/
theorem column_sum_apply (src : FVec Ideal S1024x1024 .f32) (h : S1024x1024.Reduces [0] S1024) (hφ : FKind.Formats .f32)
    (hacc : (0x00000000#32 : BitVec 32) = 0x00000000#32) (k : Fin 1024) :
    multiReduction .add [0] S1024 src 0x00000000#32 h hφ hacc (ix1 k) = ∑ r : Fin 1024, src (ix2 r k) := by
  refine (Ideal.multiReduction_add_single src 0x00000000#32 h hφ hacc (ix1 k)).trans ?_
  show ∑ r : Fin 1024, src (h.lift (ix1 k) r) = ∑ r : Fin 1024, src (ix2 r k)
  refine Finset.sum_congr rfl fun r _ => congrArg src ?_
  funext a
  match a with
  | ⟨0, _⟩ => rfl
  | ⟨1, _⟩ => rfl

/-- What a point stores into the second accumulator: what it held plus the block's column sums. -/
theorem pay5_apply (v3 : Vec Ideal S1024x1024 .bf16) (v11 : Vec Ideal S1x1024 .f32) (k : Fin 1024) :
    k1_pay5 v3 v11 (ix2 (0 : Fin 1) k) = v11 (ix2 (0 : Fin 1) k) + ∑ r : Fin 1024, v3 (ix2 r k) := by
  unfold k1_pay5 k1_pay3
  simp only [shapeCast_self]
  show v11 (ix2 (0 : Fin 1) k) + shapeCast S1x1024 _ _ (ix2 (0 : Fin 1) k) = _
  rw [shapeCast_a_1a_apply, column_sum_apply]
  rfl

/-! ## Eight blocks of 1024 rows make the 8192 rows -/

/-- Row `r` of block `t`. -/
def rowOf (t : Fin 8) (r : Fin 1024) : Fin 8192 := ⟨1024 * t.val + r.val, by omega⟩

/-- The running total after `n` blocks: from zero, each block adds the sum over its 1024 rows. -/
def acc (f : Fin 8192 → EReal) : ℕ → EReal
  | 0 => 0
  | n + 1 => acc f n + (if h : n < 8 then ∑ r : Fin 1024, f (rowOf ⟨n, h⟩ r) else 0)

theorem acc_zero (f : Fin 8192 → EReal) : acc f 0 = 0 := rfl

theorem acc_succ (f : Fin 8192 → EReal) (n : ℕ) (h : n < 8) : acc f (n + 1) = acc f n + ∑ r : Fin 1024, f (rowOf ⟨n, h⟩ r) := by
  show acc f n + (if h : n < 8 then ∑ r : Fin 1024, f (rowOf ⟨n, h⟩ r) else 0) = _
  rw [dif_pos h]

/-- The running total is the sum of the blocks' sums so far. -/
theorem acc_eq_sum_range (f : Fin 8192 → EReal) : ∀ n : ℕ,
    acc f n = ∑ t ∈ Finset.range n, (if h : t < 8 then ∑ r : Fin 1024, f (rowOf ⟨t, h⟩ r) else 0)
  | 0 => by rw [Finset.sum_range_zero]; rfl
  | n + 1 => by rw [Finset.sum_range_succ, ← acc_eq_sum_range f n]; rfl

/-- A sum over the 8192 rows, block by block. -/
theorem sum_rows (f : Fin 8192 → EReal) : ∑ j : Fin 8192, f j = ∑ t : Fin 8, ∑ r : Fin 1024, f (rowOf t r) := by
  rw [← Equiv.sum_comp (finProdFinEquiv (m := 8) (n := 1024)) f, Fintype.sum_prod_type]
  refine Finset.sum_congr rfl fun t _ => Finset.sum_congr rfl fun r _ => congrArg f (Fin.ext ?_)
  show r.val + 1024 * t.val = 1024 * t.val + r.val
  omega

/-- After the eight blocks the running total is the sum over all rows. -/
theorem acc_eight (f : Fin 8192 → EReal) : acc f 8 = ∑ j : Fin 8192, f j := by
  rw [acc_eq_sum_range, sum_rows,
    ← Fin.sum_univ_eq_sum_range (fun t => if h : t < 8 then ∑ r : Fin 1024, f (rowOf ⟨t, h⟩ r) else 0) 8]
  refine Finset.sum_congr rfl fun t _ => ?_
  rw [dif_pos t.isLt]

end Cert.KernelIdeal.Val1

end
-- ==== Proof.KI.Val1.lean ====
/-
  The values the second pipeline (the Gram accumulation) leaves in its two output arrays, on the extended reals.

  The pipeline walks the 8192 rows of the normalised documents `x` in eight blocks of 1024. At every point the first
  accumulator gains the block's Gram matrix, `Σ_r x (1024·t + r) k · x (1024·t + r) l`, and the second the block's
  column sums, `Σ_r x (1024·t + r) k`; both start from zero at the first point, and the last point copies them into
  the two output blocks, each of which is its whole array. Addition on the extended reals is associative and
  commutative, so the eight partial sums added in the grid's order are the sums over all 8192 rows:
  `G k l = Σ_j x j k · x j l` and `t k = Σ_j x j k` — no finiteness is needed.

  In order: what each case of the body leaves in each buffer, as the payload of the block and of what the buffer
  held (read off the pieces the body's run found); the input block as rows of the array; the accumulators and the
  outputs point by point; the one write-back of each output and its array after the pipeline (for any float
  instance); then, on the extended reals, the accumulators after each point by induction on the point, and the two
  arrays.
-/
import proofs.«108611_j80152679678829_2_alg».proof.Proof.KI.Reg1
import proofs.«108611_j80152679678829_2_alg».proof.Proof.KI.Pay1
import proofs.«108611_j80152679678829_2_alg».proof.Proof.Spec
import Idealize.ShloMosaic.Lib.Pipeline.Value
import Idealize.ShloMosaic.Lib.Tactic
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Val1

open Cert.KernelIdeal Cert.KernelIdeal.Gen Cert.KernelIdeal.Reg1
open Idealize.ShloMosaic.ValueIdx

/-! ## What each case leaves, as payloads -/

section Pieces
variable {F : FTy → Type} [FloatOps F]

theorem hz00 : (![0, 0] : Fin 2 → Nat) = fun _ => 0 := funext fun a => by fin_cases a <;> rfl
/-- At the first point the first accumulator ends at the zero block plus the block's Gram matrix, -/
theorem soutA0_eq (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond1_0 i) (hc1 : ¬cond1_1 i)
    (x0 : Vec F S1024x1024 .bf16) :
    sout1_A_0 c i arg1 harg1 arg2 harg2 arg3 harg3 arg4 harg4 arg5 harg5 hc0 hc1 x0 = k1_pay4 x0 k1_pay1 := by
  unfold sout1_A_0
  rw [View.read_writes_eq_canon _ _ _ (scover1_A_0 c i arg1 harg1 arg2 harg2 arg3 harg3 arg4 harg4 arg5 harg5 hc0 hc1 x0)]
  unfold kernelRun1_A
  dsimp only
  try sl_unfold_words
  rw [View.canon_cons_unit_zero (S := S1024x1024) hz00, View.readCov_unit_zero (S := S1024x1024) _ hz00]
  simp only [View.readAt_eq_ld, harg1.read_unread, View.ld_unit_zero (S := S1024x1024) hz00]
/-- and the second at the zero row plus the block's column sums. -/
theorem soutA1_eq (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond1_0 i) (hc1 : ¬cond1_1 i)
    (x0 : Vec F S1024x1024 .bf16) :
    sout1_A_1 c i arg1 harg1 arg2 harg2 arg3 harg3 arg4 harg4 arg5 harg5 hc0 hc1 x0 = k1_pay5 x0 k1_pay2 := by
  unfold sout1_A_1
  rw [View.read_writes_eq_canon _ _ _ (scover1_A_1 c i arg1 harg1 arg2 harg2 arg3 harg3 arg4 harg4 arg5 harg5 hc0 hc1 x0)]
  unfold kernelRun1_A
  dsimp only
  try sl_unfold_words
  rw [View.canon_cons_unit_zero (S := S1x1024) hz00, View.readCov_unit_zero (S := S1x1024) _ hz00]
  simp only [View.readAt_eq_ld, harg1.read_unread, View.ld_unit_zero (S := S1024x1024) hz00]
/-- At a middle point each accumulator ends at what it held plus the block's share. -/
theorem soutB0_eq (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : ¬cond1_1 i)
    (x0 : Vec F S1024x1024 .bf16) (xs0 : Vec F S1024x1024 .f32) (xs1 : Vec F S1x1024 .f32) :
    sout1_B_0 c i arg1 harg1 arg2 harg2 arg3 harg3 arg4 harg4 arg5 harg5 hc0 hc1 x0 xs0 xs1 = k1_pay4 x0 xs0 := by
  unfold sout1_B_0
  rw [View.read_writes_eq_canon _ _ _ (scover1_B_0 c i arg1 harg1 arg2 harg2 arg3 harg3 arg4 harg4 arg5 harg5 hc0 hc1 x0 xs0 xs1)]
  unfold kernelRun1_B
  dsimp only
  try sl_unfold_words
  rw [View.canon_unit_zero hz00]
  simp only [View.readAt_eq_ld, harg1.read_unread, harg4.read_unread, View.ld_unit_zero (S := S1024x1024) hz00]

theorem soutB1_eq (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : ¬cond1_1 i)
    (x0 : Vec F S1024x1024 .bf16) (xs0 : Vec F S1024x1024 .f32) (xs1 : Vec F S1x1024 .f32) :
    sout1_B_1 c i arg1 harg1 arg2 harg2 arg3 harg3 arg4 harg4 arg5 harg5 hc0 hc1 x0 xs0 xs1 = k1_pay5 x0 xs1 := by
  unfold sout1_B_1
  rw [View.read_writes_eq_canon _ _ _ (scover1_B_1 c i arg1 harg1 arg2 harg2 arg3 harg3 arg4 harg4 arg5 harg5 hc0 hc1 x0 xs0 xs1)]
  unfold kernelRun1_B
  dsimp only
  try sl_unfold_words
  rw [View.canon_unit_zero hz00]
  simp only [View.readAt_eq_ld, harg1.read_unread, harg5.read_unread, View.ld_unit_zero (S := S1024x1024) hz00, View.ld_unit_zero (S := S1x1024) hz00]
/-- At the last point the same, -/
theorem soutC0_eq (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) :
    sout1_C_0 c i arg1 harg1 arg2 harg2 arg3 harg3 arg4 harg4 arg5 harg5 hc0 hc1 x0 xs0 xs1 = k1_pay4 x0 xs0 := by
  unfold sout1_C_0
  rw [View.read_writes_eq_canon _ _ _ (scover1_C_0 c i arg1 harg1 arg2 harg2 arg3 harg3 arg4 harg4 arg5 harg5 hc0 hc1 x0 xs0 xs1)]
  unfold kernelRun1_C
  dsimp only
  try sl_unfold_words
  rw [View.canon_unit_zero hz00]
  simp only [View.readAt_eq_ld, harg1.read_unread, harg4.read_unread, View.ld_unit_zero (S := S1024x1024) hz00]

theorem soutC1_eq (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) :
    sout1_C_1 c i arg1 harg1 arg2 harg2 arg3 harg3 arg4 harg4 arg5 harg5 hc0 hc1 x0 xs0 xs1 = k1_pay5 x0 xs1 := by
  unfold sout1_C_1
  rw [View.read_writes_eq_canon _ _ _ (scover1_C_1 c i arg1 harg1 arg2 harg2 arg3 harg3 arg4 harg4 arg5 harg5 hc0 hc1 x0 xs0 xs1)]
  unfold kernelRun1_C
  dsimp only
  try sl_unfold_words
  rw [View.canon_unit_zero hz00]
  simp only [View.readAt_eq_ld, harg1.read_unread, harg5.read_unread, View.ld_unit_zero (S := S1024x1024) hz00, View.ld_unit_zero (S := S1x1024) hz00]
/-- and each output block receives its accumulator's new contents. -/
theorem outC1_eq (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) :
    out1_C_1 c i arg1 harg1 arg2 harg2 arg3 harg3 arg4 harg4 arg5 harg5 hc0 hc1 x0 xs0 xs1 = k1_pay4 x0 xs0 := by
  unfold out1_C_1
  rw [View.read_writes_eq_canon _ _ _ (cover1_C_1 c i arg1 harg1 arg2 harg2 arg3 harg3 arg4 harg4 arg5 harg5 hc0 hc1 x0 xs0 xs1)]
  unfold kernelRun1_C
  dsimp only
  try sl_unfold_words
  rw [View.canon_unit_zero hz00, View.readCov_unit_zero (S := S1024x1024) _ hz00]
  simp only [View.readAt_eq_ld, harg1.read_unread, harg4.read_unread, View.ld_unit_zero (S := S1024x1024) hz00]

theorem outC2_eq (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : ¬cond1_0 i) (hc1 : cond1_1 i)
    (x0 : Vec F S1024x1024 .bf16) (xs0 : Vec F S1024x1024 .f32) (xs1 : Vec F S1x1024 .f32) :
    out1_C_2 c i arg1 harg1 arg2 harg2 arg3 harg3 arg4 harg4 arg5 harg5 hc0 hc1 x0 xs0 xs1 = k1_pay5 x0 xs1 := by
  unfold out1_C_2
  rw [View.read_writes_eq_canon _ _ _ (cover1_C_2 c i arg1 harg1 arg2 harg2 arg3 harg3 arg4 harg4 arg5 harg5 hc0 hc1 x0 xs0 xs1)]
  unfold kernelRun1_C
  dsimp only
  try sl_unfold_words
  rw [View.canon_unit_zero hz00, View.readCov_unit_zero (S := S1x1024) _ hz00]
  simp only [View.readAt_eq_ld, harg1.read_unread, harg5.read_unread, View.ld_unit_zero (S := S1024x1024) hz00, View.ld_unit_zero (S := S1x1024) hz00]

end Pieces

/-! ## From the pieces to the arrays, for any float instance -/

section Blocks
variable {F : FTy → Type} [FloatOps F]
variable (V : (c : Dev nD) → (b : Ref sig .tc) → Buf (Elt F) ((c : Thread nD τ).loc b))

/-- The input block at point `t` is rows `1024·t … 1024·t + 1023` of the staged array. -/
theorem iblk1_apply (c : Dev nD) (t : Fin cfg1.N) (x : S1024x1024.Idx) (k : S8192x1024.Idx)
    (hk0 : (k 0).val = 1024 * t.val + (x 0).val) (hk1 : (k 1).val = (x 1).val) :
    (iblk1 V c 0 t : Vec F S1024x1024 .bf16) x = (V c main_v1_1 : S8192x1024.Idx → Elt F .bf16) k := by
  have hi : win1_0.index t 0 = t.val ∧ win1_0.index t 1 = 0 :=
    (by decide +kernel : ∀ t : Fin grid1.N, win1_0.index t 0 = t.val ∧ win1_0.index t 1 = 0) t
  unfold iblk1
  rw [View.read_apply]
  show V c main_v1_1 _ = V c main_v1_1 _
  congr 1
  funext a
  apply Fin.ext
  match a with
  | ⟨0, _⟩ => show win1_0.index t 0 * 1024 + 1 * (x 0).val = (k 0).val; rw [hi.1, hk0]; omega
  | ⟨1, _⟩ => show win1_0.index t 1 * 1024 + 1 * (x 1).val = (k 1).val; rw [hi.2, hk1]; omega

/-! ### The accumulators, point by point -/

/-- After the first point the first accumulator holds the zero block plus the block's Gram matrix, -/
theorem acc0_zero (c : Dev nD) (t : Fin cfg1.N) (h0 : t.val % 8 = 0) :
    (outsAt1 V c t.val t.isLt).2.2.1 = k1_pay4 (iblk1 V c 0 t) k1_pay1 := by
  have hN : cfg1.N = 8 := N_1
  have h1 : ¬t.val % 8 = 7 := by omega
  rw [outsAt1_A V c t h0 h1]
  dsimp only
  exact soutA0_eq c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t)

/-- and the second the zero row plus the block's column sums. -/
theorem acc1_zero (c : Dev nD) (t : Fin cfg1.N) (h0 : t.val % 8 = 0) :
    (outsAt1 V c t.val t.isLt).2.2.2 = k1_pay5 (iblk1 V c 0 t) k1_pay2 := by
  have hN : cfg1.N = 8 := N_1
  have h1 : ¬t.val % 8 = 7 := by omega
  rw [outsAt1_A V c t h0 h1]
  dsimp only
  exact soutA1_eq c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t)

/-- After a later point the first accumulator holds what the point before left plus the block's Gram matrix, -/
theorem acc0_step (c : Dev nD) (t : Fin cfg1.N) (p : ℕ) (hp : p + 1 = t.val) (hpl : p < cfg1.N) :
    (outsAt1 V c t.val t.isLt).2.2.1 = k1_pay4 (iblk1 V c 0 t) (outsAt1 V c p hpl).2.2.1 := by
  have hN : cfg1.N = 8 := N_1
  have h0 : ¬t.val % 8 = 0 := by have := t.isLt; omega
  obtain rfl : p = t.val - 1 := by omega
  by_cases h1 : t.val % 8 = 7
  · rw [outsAt1_C V c t h0 h1]
    dsimp only
    exact soutC0_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2
  · rw [outsAt1_B V c t h0 h1]
    dsimp only
    exact soutB0_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2

/-- and the second what the point before left plus the block's column sums. -/
theorem acc1_step (c : Dev nD) (t : Fin cfg1.N) (p : ℕ) (hp : p + 1 = t.val) (hpl : p < cfg1.N) :
    (outsAt1 V c t.val t.isLt).2.2.2 = k1_pay5 (iblk1 V c 0 t) (outsAt1 V c p hpl).2.2.2 := by
  have hN : cfg1.N = 8 := N_1
  have h0 : ¬t.val % 8 = 0 := by have := t.isLt; omega
  obtain rfl : p = t.val - 1 := by omega
  by_cases h1 : t.val % 8 = 7
  · rw [outsAt1_C V c t h0 h1]
    dsimp only
    exact soutC1_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2
  · rw [outsAt1_B V c t h0 h1]
    dsimp only
    exact soutB1_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2

/-! ### The outputs after the last point -/

/-- After the last point the first output's staging buffer holds the first accumulator's new contents, -/
theorem out1_last (c : Dev nD) (t : Fin cfg1.N) (h1 : t.val % 8 = 7) (p : ℕ) (hp : p + 1 = t.val) (hpl : p < cfg1.N) :
    (outsAt1 V c t.val t.isLt).1 = k1_pay4 (iblk1 V c 0 t) (outsAt1 V c p hpl).2.2.1 := by
  have hN : cfg1.N = 8 := N_1
  have h0 : ¬t.val % 8 = 0 := by omega
  obtain rfl : p = t.val - 1 := by omega
  rw [outsAt1_C V c t h0 h1]
  dsimp only
  exact outC1_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2

/-- and the second output's the second accumulator's. -/
theorem out2_last (c : Dev nD) (t : Fin cfg1.N) (h1 : t.val % 8 = 7) (p : ℕ) (hp : p + 1 = t.val) (hpl : p < cfg1.N) :
    (outsAt1 V c t.val t.isLt).2.1 = k1_pay5 (iblk1 V c 0 t) (outsAt1 V c p hpl).2.2.2 := by
  have hN : cfg1.N = 8 := N_1
  have h0 : ¬t.val % 8 = 0 := by omega
  obtain rfl : p = t.val - 1 := by omega
  rw [outsAt1_C V c t h0 h1]
  dsimp only
  exact outC2_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2

/-- What the first output's staging buffer holds after the last point, as contents of its array. -/
abbrev res1 (c : Dev nD) : Buf (Elt F) ((c : Thread nD τ).loc main_v2_0) := (outsAt1 V c t1_7.val t1_7.isLt).1
/-- The same of the second output. -/
abbrev res2 (c : Dev nD) : Buf (Elt F) ((c : Thread nD τ).loc main_v2_1) := (outsAt1 V c t1_7.val t1_7.isLt).2.1

/-- The one write-back of output 1, at the last point, writes `res1`: the block is the whole array. -/
theorem flushed1_1_eq (c : Dev nD) (t : Fin cfg1.N) (hf : (cfg1.win 1).flush t = true) :
    (dat1 V c).flushed 1 t = ((cfg1.win 1).blk t).view.read (Elt F) (res1 V c) := by
  have hN : cfg1.N = 8 := N_1
  have h7 : t.val = 7 := by have := (flush1_1 t).mp hf; have := t.isLt; omega
  obtain rfl : t = t1_7 := Fin.ext h7
  show (cfg1.win 1).cut (grid1.coords t1_7) ((dat1 V c).after 1 t1_7) = _
  rw [after1_1]
  have hz' : (fun a => win1_1.index t1_7 a * main_v2_0.ty.shape.size a) = fun _ => 0 := funext fun a => by fin_cases a <;> decide +kernel
  exact (Memref.read_access_unit_zero (Elt F) main_v2_0 hz' (fun a => by rw [congrFun hz' a]; simp) (res1 V c)).symm

/-- So the array of output 1 ends holding `res1`. -/
theorem final1_1 (c : Dev nD) : (dat1 V c).arrAt 1 cfg1.N = res1 V c :=
  (dat1 V c).arrAt_eq_of_cover 1 (res1 V c) (flushed1_1_eq V c) fun i =>
    ⟨t1_7, (flush1_1 t1_7).mpr rfl, by
      show i ∈ ((View.whole main_v2_0).slice (win1_1.rect t1_7)).set
      rw [View.set_slice_whole, Rect.mem_set_unit]
      intro a
      have h0 : (i 0 : Nat) < 1024 := (i 0).isLt
      have h1 : (i 1 : Nat) < 1024 := (i 1).isLt
      match a with
      | ⟨0, _⟩ => show win1_1.index t1_7 0 * win1_1.size 0 ≤ (i 0 : Nat) ∧ (i 0 : Nat) < win1_1.index t1_7 0 * win1_1.size 0 + win1_1.xsize (grid1.coords t1_7) 0
                  rw [show win1_1.index t1_7 0 * win1_1.size 0 = 0 from by decide +kernel, show win1_1.xsize (grid1.coords t1_7) 0 = 1024 from by decide +kernel]; omega
      | ⟨1, _⟩ => show win1_1.index t1_7 1 * win1_1.size 1 ≤ (i 1 : Nat) ∧ (i 1 : Nat) < win1_1.index t1_7 1 * win1_1.size 1 + win1_1.xsize (grid1.coords t1_7) 1
                  rw [show win1_1.index t1_7 1 * win1_1.size 1 = 0 from by decide +kernel, show win1_1.xsize (grid1.coords t1_7) 1 = 1024 from by decide +kernel]; omega⟩

/-- The one write-back of output 2, at the last point, writes `res2`: the block is the whole array. -/
theorem flushed1_2_eq (c : Dev nD) (t : Fin cfg1.N) (hf : (cfg1.win 2).flush t = true) :
    (dat1 V c).flushed 2 t = ((cfg1.win 2).blk t).view.read (Elt F) (res2 V c) := by
  have hN : cfg1.N = 8 := N_1
  have h7 : t.val = 7 := by have := (flush1_2 t).mp hf; have := t.isLt; omega
  obtain rfl : t = t1_7 := Fin.ext h7
  show (cfg1.win 2).cut (grid1.coords t1_7) ((dat1 V c).after 2 t1_7) = _
  rw [after1_2]
  have hz' : (fun a => win1_2.index t1_7 a * main_v2_1.ty.shape.size a) = fun _ => 0 := funext fun a => by fin_cases a <;> decide +kernel
  exact (Memref.read_access_unit_zero (Elt F) main_v2_1 hz' (fun a => by rw [congrFun hz' a]; simp) (res2 V c)).symm

/-- So the array of output 2 ends holding `res2`. -/
theorem final1_2 (c : Dev nD) : (dat1 V c).arrAt 2 cfg1.N = res2 V c :=
  (dat1 V c).arrAt_eq_of_cover 2 (res2 V c) (flushed1_2_eq V c) fun i =>
    ⟨t1_7, (flush1_2 t1_7).mpr rfl, by
      show i ∈ ((View.whole main_v2_1).slice (win1_2.rect t1_7)).set
      rw [View.set_slice_whole, Rect.mem_set_unit]
      intro a
      have h0 : (i 0 : Nat) < 1 := (i 0).isLt
      have h1 : (i 1 : Nat) < 1024 := (i 1).isLt
      match a with
      | ⟨0, _⟩ => show win1_2.index t1_7 0 * win1_2.size 0 ≤ (i 0 : Nat) ∧ (i 0 : Nat) < win1_2.index t1_7 0 * win1_2.size 0 + win1_2.xsize (grid1.coords t1_7) 0
                  rw [show win1_2.index t1_7 0 * win1_2.size 0 = 0 from by decide +kernel, show win1_2.xsize (grid1.coords t1_7) 0 = 1 from by decide +kernel]; omega
      | ⟨1, _⟩ => show win1_2.index t1_7 1 * win1_2.size 1 ≤ (i 1 : Nat) ∧ (i 1 : Nat) < win1_2.index t1_7 1 * win1_2.size 1 + win1_2.xsize (grid1.coords t1_7) 1
                  rw [show win1_2.index t1_7 1 * win1_2.size 1 = 0 from by decide +kernel, show win1_2.xsize (grid1.coords t1_7) 1 = 1024 from by decide +kernel]; omega⟩

end Blocks

/-! ## The values, on the extended reals -/

section Values
variable (V : (c : Dev nD) → (b : Ref sig .tc) → Buf (Elt Ideal) ((c : Thread nD τ).loc b))

/-- The staged array (the normalised documents) by row and column. -/
abbrev rows (c : Dev nD) : Fin 8192 → Fin 1024 → EReal := fun j k => V c main_v1_1 (ix2 j k)

/-- Entry `(r, k)` of the block at point `t` is entry `(1024·t + r, k)` of the array. -/
theorem blk_at (c : Dev nD) (t : Fin cfg1.N) (tt : Fin 8) (ht : tt.val = t.val) (r k : Fin 1024) :
    (iblk1 V c 0 t : Vec Ideal S1024x1024 .bf16) (ix2 r k) = rows V c (rowOf tt r) k :=
  iblk1_apply V c t (ix2 r k) (ix2 (rowOf tt r) k) (by show 1024 * tt.val + r.val = 1024 * t.val + r.val; rw [ht]) rfl

/-- After point `n` the first accumulator holds, at `(k, l)`, the sum of `x j k · x j l` over the rows `j` of the first
    `n + 1` blocks: by induction on the point, each step adding one block's 1024 rows. -/
theorem acc0_val (c : Dev nD) : ∀ (n : ℕ) (h : n < cfg1.N) (k l : Fin 1024),
    (outsAt1 V c n h).2.2.1 (ix2 k l) = acc (fun j => rows V c j k * rows V c j l) (n + 1)
  | 0, h, k, l => by
    have e := acc0_zero V c ⟨0, h⟩ rfl
    dsimp only at e
    rw [e]
    refine (pay4_apply _ _ k l).trans ?_
    rw [pay1_apply, acc_succ _ 0 (by decide), acc_zero]
    refine congrArg (fun s => (0 : EReal) + s) (Finset.sum_congr rfl fun r _ => ?_)
    rw [blk_at V c ⟨0, h⟩ ⟨0, by decide⟩ rfl r k, blk_at V c ⟨0, h⟩ ⟨0, by decide⟩ rfl r l]
  | n + 1, h, k, l => by
    have hN : cfg1.N = 8 := N_1
    have e := acc0_step V c ⟨n + 1, h⟩ n rfl (Nat.lt_of_succ_lt h)
    dsimp only at e
    rw [e]
    refine (pay4_apply _ _ k l).trans ?_
    rw [acc0_val c n (Nat.lt_of_succ_lt h) k l, acc_succ _ (n + 1) (by omega)]
    refine congrArg (fun s => acc (fun j => rows V c j k * rows V c j l) (n + 1) + s) (Finset.sum_congr rfl fun r _ => ?_)
    rw [blk_at V c ⟨n + 1, h⟩ ⟨n + 1, by omega⟩ rfl r k, blk_at V c ⟨n + 1, h⟩ ⟨n + 1, by omega⟩ rfl r l]

/-- After point `n` the second accumulator holds, at column `k`, the sum of `x j k` over the rows of the first
    `n + 1` blocks. -/
theorem acc1_val (c : Dev nD) : ∀ (n : ℕ) (h : n < cfg1.N) (k : Fin 1024),
    (outsAt1 V c n h).2.2.2 (ix2 (0 : Fin 1) k) = acc (fun j => rows V c j k) (n + 1)
  | 0, h, k => by
    have e := acc1_zero V c ⟨0, h⟩ rfl
    dsimp only at e
    rw [e]
    refine (pay5_apply _ _ k).trans ?_
    rw [pay2_apply, acc_succ _ 0 (by decide), acc_zero]
    refine congrArg (fun s => (0 : EReal) + s) (Finset.sum_congr rfl fun r _ => ?_)
    rw [blk_at V c ⟨0, h⟩ ⟨0, by decide⟩ rfl r k]
  | n + 1, h, k => by
    have hN : cfg1.N = 8 := N_1
    have e := acc1_step V c ⟨n + 1, h⟩ n rfl (Nat.lt_of_succ_lt h)
    dsimp only at e
    rw [e]
    refine (pay5_apply _ _ k).trans ?_
    rw [acc1_val c n (Nat.lt_of_succ_lt h) k, acc_succ _ (n + 1) (by omega)]
    refine congrArg (fun s => acc (fun j => rows V c j k) (n + 1) + s) (Finset.sum_congr rfl fun r _ => ?_)
    rw [blk_at V c ⟨n + 1, h⟩ ⟨n + 1, by omega⟩ rfl r k]

/-- The first output array ends holding the Gram matrix of the staged array: the last point copies the first
    accumulator, which by then has summed all eight blocks, that is all 8192 rows. -/
theorem gram_at (c : Dev nD) (k l : Fin 1024) :
    ((Reg1.dat1 (F := Ideal) V c).arrAt 1 cfg1.N) (ix2 k l) = Cert.Spec.gram (fun j k => V c main_v1_1 (ix2 j k)) k l := by
  have h6 : 6 < cfg1.N := by rw [show cfg1.N = 8 from N_1]; decide
  rw [final1_1 V c]
  show (outsAt1 V c t1_7.val t1_7.isLt).1 (ix2 k l) = _
  rw [out1_last V c t1_7 rfl 6 rfl h6]
  refine (pay4_apply _ _ k l).trans ?_
  rw [acc0_val V c 6 h6 k l]
  show _ = ∑ j : Fin 8192, rows V c j k * rows V c j l
  rw [← acc_eight, acc_succ _ 7 (by decide)]
  refine congrArg (fun s => acc (fun j => rows V c j k * rows V c j l) 7 + s) (Finset.sum_congr rfl fun r _ => ?_)
  rw [blk_at V c t1_7 ⟨7, by decide⟩ rfl r k, blk_at V c t1_7 ⟨7, by decide⟩ rfl r l]

/-- The second output array ends holding the column sums of the staged array. -/
theorem colsum_at (c : Dev nD) (k : Fin 1024) :
    ((Reg1.dat1 (F := Ideal) V c).arrAt 2 cfg1.N) (ix2 (0 : Fin 1) k) = Cert.Spec.colsum (fun j k => V c main_v1_1 (ix2 j k)) k := by
  have h6 : 6 < cfg1.N := by rw [show cfg1.N = 8 from N_1]; decide
  rw [final1_2 V c]
  show (outsAt1 V c t1_7.val t1_7.isLt).2.1 (ix2 (0 : Fin 1) k) = _
  rw [out2_last V c t1_7 rfl 6 rfl h6]
  refine (pay5_apply _ _ k).trans ?_
  rw [acc1_val V c 6 h6 k]
  show _ = ∑ j : Fin 8192, rows V c j k
  rw [← acc_eight, acc_succ _ 7 (by decide)]
  refine congrArg (fun s => acc (fun j => rows V c j k) 7 + s) (Finset.sum_congr rfl fun r _ => ?_)
  rw [blk_at V c t1_7 ⟨7, by decide⟩ rfl r k]

end Values

end Cert.KernelIdeal.Val1
end
-- ==== Proof.LibColumn.lean ====
/-
  A vector read as a column. For a vector x of length a, the cast of x to shape [a, 1] and the broadcast of x
  along axis 0 into shape [a, 1] are the same array: entry (r, 0) of either is x(r). Stated for any element
  type and any length.
-/
import Idealize.ShloMosaic.Lib.Pipeline.Value
import Idealize.ShloMosaic.Lib.ValueIdx

namespace Cert.LibColumn

open Idealize.ShloMosaic Idealize.ShloMosaic.ValueIdx

variable {α : Type}

/-- Entry (r, 0) of the cast of a length-a vector to shape [a, 1] is the vector's entry r. -/
theorem shapeCast_col_apply {a : ℕ} (x : (⟨1, ![a]⟩ : Shape).Idx → α)
    (h : (⟨1, ![a]⟩ : Shape).ShapeCasts ⟨2, ![a, 1]⟩) (j : (⟨2, ![a, 1]⟩ : Shape).Idx) :
    shapeCast ⟨2, ![a, 1]⟩ x h j = x (ix1 (j 0)) := by
  have h1 : (j 1).val = 0 := by
    have := (j 1).isLt
    simp only [Matrix.cons_val_one, Matrix.cons_val_zero] at this
    omega
  refine shapeCast_apply x h j (ix1 (j 0)) ?_
  rw [Shape.rowMajor_val_one, Shape.rowMajor_val_two, h1]
  simp
  rfl

/-- Entry (r, 0) of the broadcast of a length-a vector along axis 0 into shape [a, 1] is the vector's entry r. -/
theorem broadcastInDim_col_apply {a : ℕ} (x : (⟨1, ![a]⟩ : Shape).Idx → α)
    (hb : (⟨1, ![a]⟩ : Shape).BroadcastsInDim ⟨2, ![a, 1]⟩ ![0]) (j : (⟨2, ![a, 1]⟩ : Shape).Idx) :
    broadcastInDim ⟨2, ![a, 1]⟩ ![0] hb x j = x (ix1 (j 0)) := by
  refine broadcastInDim_apply ![0] hb x j (ix1 (j 0)) ?_
  intro d
  match d with
  | ⟨0, _⟩ =>
    show (j 0).val = if a = 1 then 0 else (j 0).val
    split_ifs with ha
    · have := (j 0).isLt
      simp only [Matrix.cons_val_zero] at this
      omega
    · rfl

/-- The cast to a column and the broadcast to a column are one array. -/
theorem shapeCast_col_eq_broadcastInDim {a : ℕ} (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x h = broadcastInDim ⟨2, ![a, 1]⟩ ![0] hb x :=
  funext fun j => (shapeCast_col_apply x h j).trans (broadcastInDim_col_apply x hb j).symm

end Cert.LibColumn
-- ==== Proof.KI.Pay2.lean ====
/-
  The score kernel's arithmetic read at one row, on the extended reals.

  The body's one stored value is, row by row of its 1024-row blocks, the Gram-factored score
  `a · t − Σ_l (Σ_k a_k G_kl) b_l − (a · b)(1 − b · b)` of the row `a` of averaged features, the row `b` of the
  document, the Gram matrix `G` and the column sums `t`: four lane sums (one of them over the product of the block
  with the Gram matrix), each cast to a column, combined pointwise.
-/
import proofs.«108611_j80152679678829_2_alg».proof.Proof.Gen.KernelIdeal.Skeleton
import proofs.«108611_j80152679678829_2_alg».proof.Proof.Spec
import proofs.«108611_j80152679678829_2_alg».proof.Proof.LibColumn
import Idealize.ShloMosaic.Lib.ValueLayout
import Idealize.ShloMosaic.PureOps.Ideal.Laws

noncomputable section

namespace Cert.KernelIdeal.Val2

open Cert.KernelIdeal Cert.KernelIdeal.Gen
open Idealize.ShloMosaic Idealize.ShloMosaic.ValueIdx

/-! ## The score of one row, from the row of averaged features, the row of the document, the Gram matrix and the
    column sums -/

/-- The Gram-factored score of a row: `a · t − Σ_l (Σ_k a_k G_kl) b_l − (a · b)(1 − b · b)`. -/
def rowScore (a b : Fin 1024 → EReal) (g : Fin 1024 → Fin 1024 → EReal) (tt : Fin 1024 → EReal) : EReal :=
  ((∑ k : Fin 1024, a k * tt k) - (∑ l : Fin 1024, (∑ k : Fin 1024, a k * g k l) * b l))
    - (∑ k : Fin 1024, a k * b k) * (Cert.Spec.one - ∑ k : Fin 1024, b k * b k)

/-- The specification's score of row `i` is the row score of rows `i`. -/
theorem score_eq_rowScore (c x : Fin 8192 → Fin 1024 → EReal) (g : Fin 1024 → Fin 1024 → EReal) (tt : Fin 1024 → EReal) (i : Fin 8192) :
    Cert.Spec.score c x g tt i = rowScore (c i) (x i) g tt := rfl

/-! ## The body's operations at an index -/

/-- A lane sum of a 1024 × 1024 block at row `r` is the sum of the row. -/
theorem rowsum_apply (src : FVec Ideal S1024x1024 .f32) (hφ : FKind.Formats .f32)
    (hacc : (0x00000000#32 : BitVec 32) = 0x00000000#32) (r : Fin 1024) :
    multiReduction .add [1] S1024 src 0x00000000#32 reduces_S1024x1024_S1024_2 hφ hacc (ix1 r)
      = ∑ k : Fin 1024, src (ix2 r k) := by
  refine (Ideal.multiReduction_add_single src 0x00000000#32 reduces_S1024x1024_S1024_2 hφ hacc (ix1 r)).trans ?_
  refine Finset.sum_congr rfl fun k _ => congrArg src ?_
  funext a
  apply Fin.ext
  match a with
  | ⟨0, _⟩ => rfl
  | ⟨1, _⟩ => rfl

/-- The same sum, cast to a column, read at `(r, 0)`. -/
theorem col_rowsum_apply (src : FVec Ideal S1024x1024 .f32) (hφ : FKind.Formats .f32)
    (hacc : (0x00000000#32 : BitVec 32) = 0x00000000#32) (r : Fin 1024) :
    shapeCast S1024x1 (multiReduction .add [1] S1024 src 0x00000000#32 reduces_S1024x1024_S1024_2 hφ hacc) shapeCasts_S1024_S1024x1
        (ix2 r (0 : Fin 1))
      = ∑ k : Fin 1024, src (ix2 r k) :=
  (Cert.LibColumn.shapeCast_col_apply _ shapeCasts_S1024_S1024x1 (ix2 r (0 : Fin 1))).trans (rowsum_apply src hφ hacc r)

theorem lhs_0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lhs_1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem rhs_0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem rhs_1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product of two 1024 × 1024 blocks, contracted over the left block's columns and the right block's rows, at
    `(r, l)`: `Σ_k A(r, k) · B(k, l)`. -/
theorem mm_apply (A B : FVec Ideal S1024x1024 .bf16) (r l : Fin 1024) :
    matmul dot_S1024x1024_S1024x1024_S1024x1024_1_0_0_1_n_n none A B (constant S1024x1024 .f32 0x00000000#32) (ix2 r l)
      = ∑ k : Fin 1024, A (ix2 r k) * B (ix2 k l) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r l) ((contrEquiv1 dot_S1024x1024_S1024x1024_S1024x1024_1_0_0_1_n_n 1024 rfl rfl).symm k) = ix2 r k :=
    funext fun a => Fin.ext (by
      match a with
      | ⟨0, _⟩ => exact lhs_0 _ _
      | ⟨1, _⟩ => exact (lhs_1 _ _).trans hk)
  have er : dot_S1024x1024_S1024x1024_S1024x1024_1_0_0_1_n_n.rhsIdx (ix2 r l) ((contrEquiv1 dot_S1024x1024_S1024x1024_S1024x1024_1_0_0_1_n_n 1024 rfl rfl).symm k) = ix2 k l :=
    funext fun a => Fin.ext (by
      match a with
      | ⟨0, _⟩ => exact (rhs_0 _ _).trans hk
      | ⟨1, _⟩ => exact rhs_1 _ _)
  rw [el, er]

/-- THE PAYLOAD AT ROW `r`: the row score of row `r` of the first two blocks, the third block and the one row of the
    fourth. -/
theorem pay_apply (x0 x1 x2 : FVec Ideal S1024x1024 .bf16) (x3 : FVec Ideal S1x1024 .f32) (r : Fin 1024) :
    k2_pay1 (F := Ideal) x0 x1 x2 x3 (ix2 r (0 : Fin 1))
      = rowScore (fun k => x0 (ix2 r k)) (fun k => x1 (ix2 r k)) (fun k l => x2 (ix2 k l)) (fun k => x3 (ix2 (0 : Fin 1) k)) := by
  unfold k2_pay1 rowScore
  simp only [shapeCast_self]
  show (shapeCast S1024x1 _ shapeCasts_S1024_S1024x1 (ix2 r (0 : Fin 1)) - shapeCast S1024x1 _ shapeCasts_S1024_S1024x1 (ix2 r (0 : Fin 1)))
      - shapeCast S1024x1 _ shapeCasts_S1024_S1024x1 (ix2 r (0 : Fin 1)) * (Cert.Spec.one - shapeCast S1024x1 _ shapeCasts_S1024_S1024x1 (ix2 r (0 : Fin 1))) = _
  rw [col_rowsum_apply, col_rowsum_apply, col_rowsum_apply, col_rowsum_apply]
  refine congrArg₂ (· - ·) (congrArg₂ (· - ·) ?_ ?_) (congrArg₂ (· * ·) ?_ (congrArg (Cert.Spec.one - ·) ?_))
  · exact Finset.sum_congr rfl fun k _ => congrArg (x0 (ix2 r k) * ·) (broadcastTo_1b_ab_apply x3 broadcasts_S1x1024_S1024x1024 r k)
  · exact Finset.sum_congr rfl fun l _ => congrArg (· * x1 (ix2 r l)) (mm_apply x0 x2 r l)
  · rfl
  · rfl

end Cert.KernelIdeal.Val2

end
-- ==== Proof.KI.Val2.lean ====
/-
  The value of the third pipeline (the score kernel) on the extended reals: after its 8 grid points the score array
  holds, at row `i`, the Gram-factored score of rows `i` of the two normalised arrays, the Gram matrix and the
  column sums as the region finds them.

  Point `t` covers rows `1024 t … 1024 t + 1023`: what it writes back is the body's payload of the four input
  blocks, read row by row (the payload at a row is the row score of that row of the blocks); the blocks of the two
  row-tiled arrays at point `t` are their rows `1024 t + p`, the blocks of the Gram matrix and of the column sums
  are the arrays whole. So every point writes its block of ONE function of the row, and the 8 blocks cover the array.
-/
import proofs.«108611_j80152679678829_2_alg».proof.Proof.KI.Reg2
import proofs.«108611_j80152679678829_2_alg».proof.Proof.KI.Pay2
import Idealize.ShloMosaic.Lib.Pipeline.Value

noncomputable section

namespace Cert.KernelIdeal.Val2

open Cert.KernelIdeal Cert.KernelIdeal.Gen
open Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The grid has 8 points. -/
theorem hN : cfg2.N = 8 := N_2

/-- The index maps over the grid: the two row-tiled inputs and the output are at block `(t, 0)` at point `t`, the
    Gram matrix and the column sums at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-! ## The four arrays by coordinates -/

/-- The normalised averaged rows, the normalised documents, the Gram matrix and the column sums, as the region finds them. -/
abbrev cnA (c : Dev nD) : Fin 8192 → Fin 1024 → EReal := fun i k => (V c main_v1_0 : S8192x1024.Idx → EReal) (ix2 i k)
abbrev dnA (c : Dev nD) : Fin 8192 → Fin 1024 → EReal := fun i k => (V c main_v1_1 : S8192x1024.Idx → EReal) (ix2 i k)
abbrev gA (c : Dev nD) : Fin 1024 → Fin 1024 → EReal := fun k l => (V c main_v3 : S1024x1024.Idx → EReal) (ix2 k l)
abbrev tA (c : Dev nD) : Fin 1024 → EReal := fun k => (V c main_v2_1 : S1x1024.Idx → EReal) (ix2 (0 : Fin 1) k)

/-! ## The input blocks at a point -/

/-- Row `p` of the first window's block at point `t` is row `1024 t + p` of the averaged rows. -/
theorem blk0_apply (c : Dev nD) (t : Fin cfg2.N) (p k : Fin 1024) (R : Fin 8192) (hR : R.val = t.val * 1024 + p.val) :
    (Reg2.iblk2 V c 0 t : S1024x1024.Idx → EReal) (ix2 p k) = cnA V c R k := by
  obtain ⟨e0, e1, -⟩ := idx_facts t
  show (V c main_v1_0 : S8192x1024.Idx → EReal) (((cfg2.win 0).blk t).view.emb (ix2 p k : S1024x1024.Idx)) = _
  refine congrArg _ (funext fun a => Fin.ext ?_)
  match a with
  | ⟨0, _⟩ => show win2_0.index t (0 : Fin 2) * 1024 + 1 * p.val = R.val; omega
  | ⟨1, _⟩ => show win2_0.index t (1 : Fin 2) * 1024 + 1 * k.val = k.val; omega

/-- Row `p` of the second window's block at point `t` is row `1024 t + p` of the documents. -/
theorem blk1_apply (c : Dev nD) (t : Fin cfg2.N) (p k : Fin 1024) (R : Fin 8192) (hR : R.val = t.val * 1024 + p.val) :
    (Reg2.iblk2 V c 1 t : S1024x1024.Idx → EReal) (ix2 p k) = dnA V c R k := by
  obtain ⟨-, -, e2, e3, -⟩ := idx_facts t
  show (V c main_v1_1 : S8192x1024.Idx → EReal) (((cfg2.win 1).blk t).view.emb (ix2 p k : S1024x1024.Idx)) = _
  refine congrArg _ (funext fun a => Fin.ext ?_)
  match a with
  | ⟨0, _⟩ => show win2_1.index t (0 : Fin 2) * 1024 + 1 * p.val = R.val; omega
  | ⟨1, _⟩ => show win2_1.index t (1 : Fin 2) * 1024 + 1 * k.val = k.val; omega

/-- The third window's block at any point is the Gram matrix whole. -/
theorem blk2_apply (c : Dev nD) (t : Fin cfg2.N) (k l : Fin 1024) :
    (Reg2.iblk2 V c 2 t : S1024x1024.Idx → EReal) (ix2 k l) = gA V c k l := by
  obtain ⟨-, -, -, -, e4, e5, -⟩ := idx_facts t
  show (V c main_v3 : S1024x1024.Idx → EReal) (((cfg2.win 2).blk t).view.emb (ix2 k l : S1024x1024.Idx)) = _
  refine congrArg _ (funext fun a => Fin.ext ?_)
  match a with
  | ⟨0, _⟩ => show win2_2.index t (0 : Fin 2) * 1024 + 1 * k.val = k.val; omega
  | ⟨1, _⟩ => show win2_2.index t (1 : Fin 2) * 1024 + 1 * l.val = l.val; omega

/-- The fourth window's block at any point is the row of column sums whole. -/
theorem blk3_apply (c : Dev nD) (t : Fin cfg2.N) (k : Fin 1024) :
    (Reg2.iblk2 V c 3 t : S1x1024.Idx → EReal) (ix2 (0 : Fin 1) k) = tA V c k := by
  obtain ⟨-, -, -, -, -, -, e6, e7, -⟩ := idx_facts t
  show (V c main_v2_1 : S1x1024.Idx → EReal) (((cfg2.win 3).blk t).view.emb (ix2 (0 : Fin 1) k : S1x1024.Idx)) = _
  refine congrArg _ (funext fun a => Fin.ext ?_)
  match a with
  | ⟨0, _⟩ => show win2_3.index t (0 : Fin 2) * 1 + 1 * 0 = 0; omega
  | ⟨1, _⟩ => show win2_3.index t (1 : Fin 2) * 1024 + 1 * k.val = k.val; omega

/-! ## What the score array ends holding -/

/-- The score array after the region, as one function of the region-entry arrays: at `(i, 0)` the score of row `i`. -/
def G (c : Dev nD) : S8192x1.Idx → EReal := fun j =>
  Cert.Spec.score (cnA V c) (dnA V c) (gA V c) (tA V c) ⟨(j 0).val, idx2_lt0 j⟩

theorem G_apply (c : Dev nD) (j : S8192x1.Idx) (R : Fin 8192) (hR : (j 0).val = R.val) :
    G V c j = rowScore (cnA V c R) (dnA V c R) (gA V c) (tA V c) := by
  have e : (⟨(j 0).val, idx2_lt0 j⟩ : Fin 8192) = R := Fin.ext hR
  unfold G
  rw [e, score_eq_rowScore]

theorem rowScore_congr {a a' b b' : Fin 1024 → EReal} {g g' : Fin 1024 → Fin 1024 → EReal} {tt tt' : Fin 1024 → EReal}
    (ha : a = a') (hb : b = b') (hg : g = g') (ht : tt = tt') : rowScore a b g tt = rowScore a' b' g' tt' := by
  subst ha hb hg ht; rfl

/-- Row `p` of what point `t` computes is the final score of row `1024 t + p`. -/
theorem pay_at (c : Dev nD) (t : Fin cfg2.N) (p : Fin 1024) :
    k2_pay1 (F := Ideal) (Reg2.iblk2 V c 0 t) (Reg2.iblk2 V c 1 t) (Reg2.iblk2 V c 2 t) (Reg2.iblk2 V c 3 t) (ix2 p (0 : Fin 1))
      = G V c (((cfg2.win 4).blk t).view.emb (ix2 p (0 : Fin 1) : S1024x1.Idx)) := by
  have ht : t.val < 8 := Nat.lt_of_lt_of_eq t.isLt hN
  obtain ⟨-, -, -, -, -, -, -, -, e8, e9⟩ := idx_facts t
  have hR : ((((cfg2.win 4).blk t).view.emb (ix2 p (0 : Fin 1) : S1024x1.Idx) : S8192x1.Idx) 0).val
      = (⟨t.val * 1024 + p.val, by omega⟩ : Fin 8192).val := by
    show win2_4.index t (0 : Fin 2) * 1024 + 1 * p.val = t.val * 1024 + p.val
    omega
  refine (pay_apply (Reg2.iblk2 V c 0 t) (Reg2.iblk2 V c 1 t) (Reg2.iblk2 V c 2 t) (Reg2.iblk2 V c 3 t) p).trans ?_
  refine (rowScore_congr ?_ ?_ ?_ ?_).trans (G_apply V c _ ⟨t.val * 1024 + p.val, by omega⟩ hR).symm
  · exact funext fun k => blk0_apply V c t p k _ rfl
  · exact funext fun k => blk1_apply V c t p k _ rfl
  · exact funext fun k => funext fun l => blk2_apply V c t k l
  · exact funext fun k => blk3_apply V c t k

/-- WHAT POINT `t` WRITES BACK is block `t` of `G`. -/
theorem flushed_eq (c : Dev nD) (t : Fin cfg2.N) :
    (Reg2.dat2 V c).flushed 4 t = ((cfg2.win 4).blk t).view.read (Elt Ideal) (G V c) := by
  show (cfg2.win 4).cut (grid2.coords t) ((Reg2.dat2 V c).after 4 t) = _
  rw [Reg2.after2_4]
  unfold Reg2.out2_4
  rw [View.canon_unit_zero hz]
  simp only [View.ld_unit_zero (S := S1024x1024) hz, View.ld_unit_zero (S := S1x1024) hz]
  funext y
  have hy0 : (y 0).val < 1024 := (y 0).isLt
  have hy1 : (y 1).val < 1 := (y 1).isLt
  have ey : (y : S1024x1.Idx) = ix2 (⟨(y 0).val, hy0⟩ : Fin 1024) (0 : Fin 1) := funext fun a => Fin.ext (by
    match a with
    | ⟨0, _⟩ => rfl
    | ⟨1, _⟩ => show (y 1).val = 0; omega)
  show k2_pay1 (F := Ideal) (Reg2.iblk2 V c 0 t) (Reg2.iblk2 V c 1 t) (Reg2.iblk2 V c 2 t) (Reg2.iblk2 V c 3 t) y
      = G V c (((cfg2.win 4).blk t).view.emb y)
  exact (congrArg (k2_pay1 (F := Ideal) (Reg2.iblk2 V c 0 t) (Reg2.iblk2 V c 1 t) (Reg2.iblk2 V c 2 t) (Reg2.iblk2 V c 3 t)) ey).trans
    ((pay_at V c t ⟨(y 0).val, hy0⟩).trans
      (congrArg (fun z : S1024x1.Idx => G V c (((cfg2.win 4).blk t).view.emb z)) ey).symm)

/-- An index of the score array is in point `t`'s block iff each coordinate is in the block's range on its axis. -/
theorem mem_blk (t : Fin cfg2.N) (i : S8192x1.Idx) :
    i ∈ ((cfg2.win 4).blk t).view.set ↔ ∀ a : Fin 2, win2_4.index t a * S1024x1.size a ≤ (i a).val ∧ (i a).val < win2_4.index t a * S1024x1.size a + S1024x1.size a := by
  show i ∈ ((View.whole main_v4).slice (win2_4.rect t)).set ↔ _
  rw [View.set_slice_whole, Rect.mem_set_unit]
  exact Iff.rfl

/-- Row `r` is covered by point `r / 1024`. -/
theorem cover (i : S8192x1.Idx) : ∃ t : Fin cfg2.N, (cfg2.win 4).flush t = true ∧ i ∈ ((cfg2.win 4).blk t).view.set := by
  have hi0 : (i 0).val < 8192 := (i 0).isLt
  have hi1 : (i 1).val < 1 := (i 1).isLt
  have ht : (i 0).val / 1024 < cfg2.N := by rw [hN]; omega
  obtain ⟨-, -, -, -, -, -, -, -, e8, e9⟩ := idx_facts ⟨(i 0).val / 1024, ht⟩
  refine ⟨⟨(i 0).val / 1024, ht⟩, flush2_4 _, ?_⟩
  rw [mem_blk]
  intro a
  match a with
  | ⟨0, _⟩ =>
    show win2_4.index ⟨(i 0).val / 1024, ht⟩ (0 : Fin 2) * 1024 ≤ (i 0).val ∧ (i 0).val < win2_4.index ⟨(i 0).val / 1024, ht⟩ (0 : Fin 2) * 1024 + 1024
    rw [e8]
    show (i 0).val / 1024 * 1024 ≤ (i 0).val ∧ (i 0).val < (i 0).val / 1024 * 1024 + 1024
    omega
  | ⟨1, _⟩ =>
    show win2_4.index ⟨(i 0).val / 1024, ht⟩ (1 : Fin 2) * 1 ≤ (i 1).val ∧ (i 1).val < win2_4.index ⟨(i 0).val / 1024, ht⟩ (1 : Fin 2) * 1 + 1
    rw [e9]
    omega

/-- THE SCORE ARRAY after the region is `G`. -/
theorem final (c : Dev nD) : (Reg2.dat2 V c).arrAt 4 cfg2.N = G V c :=
  (Reg2.dat2 V c).arrAt_eq_of_cover 4 (G V c) (fun t _ => flushed_eq V c t) cover

/-- THE VALUE: after the region the score array holds at `(i, 0)` the Gram-factored score of row `i`. -/
theorem score_at (c : Dev nD) (i : Fin 8192) :
    ((Reg2.dat2 (F := Ideal) V c).arrAt 4 cfg2.N : S8192x1.Idx → EReal) (ix2 i (0 : Fin 1))
      = Cert.Spec.score (fun i k => (V c main_v1_0 : S8192x1024.Idx → EReal) (ix2 i k))
          (fun i k => (V c main_v1_1 : S8192x1024.Idx → EReal) (ix2 i k))
          (fun k l => (V c main_v3 : S1024x1024.Idx → EReal) (ix2 k l))
          (fun k => (V c main_v2_1 : S1x1024.Idx → EReal) (ix2 (0 : Fin 1) k)) i := by
  rw [final]
  rfl

end Cert.KernelIdeal.Val2

end
-- ==== Proof.LibStats.lean ====
/-
  Sums over blocks of rows, the two formulas for a population variance, and which extended reals are finite.

  A batch statistic over `m * n` rows may be accumulated block by block (`m` blocks of `n` rows) or in one pass:
  in a commutative monoid the two sums agree.  The population variance of finitely many REAL numbers is
  both the mean of the squared deviations and the mean of the squares minus the squared mean, and it is never
  negative, so clamping the second form at zero changes nothing.  On the extended reals these identities need the
  numbers to be finite (a product distributes over a sum only away from the infinities), so the last part collects
  the closure properties of "finite" under the arithmetic the two programs use.
-/
import Idealize.ShloMosaic.PureOps.Ideal

noncomputable section

namespace Cert.LibStats

open Idealize.ShloMosaic

/-! ## Sums block by block -/

/-- A sum over `m * n` consecutive indices, taken as `m` blocks of `n`: row `n * b + r` is row `r` of block `b`. -/
theorem sum_blocks {M : Type*} [AddCommMonoid M] (m n : ℕ) (g : Fin (m * n) → M)
    (h : ∀ (b : Fin m) (r : Fin n), n * (b : ℕ) + (r : ℕ) < m * n) :
    ∑ b : Fin m, ∑ r : Fin n, g ⟨n * (b : ℕ) + (r : ℕ), h b r⟩ = ∑ i, g i := by
  rw [← Fintype.sum_prod_type' (f := fun (b : Fin m) (r : Fin n) => g ⟨n * (b : ℕ) + (r : ℕ), h b r⟩)]
  refine Fintype.sum_equiv finProdFinEquiv _ _ (fun p => ?_)
  refine congrArg g (Fin.ext ?_)
  simp [finProdFinEquiv, Nat.add_comm]

/-! ## Coercions -/

/-- The coercion of reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two variance formulas, over the reals -/

/-- Mean of squares minus squared mean is the mean of squared deviations. -/
theorem var_forms {ι : Type*} [Fintype ι] (p : ι → ℝ) (N : ℝ) (hN : (Fintype.card ι : ℝ) = N) (hN0 : N ≠ 0) :
    (∑ i, p i * p i) / N - (∑ i, p i) / N * ((∑ i, p i) / N)
      = (∑ i, (p i - (∑ i, p i) / N) * (p i - (∑ i, p i) / N)) / N := by
  have h1 : ∑ i, (p i - (∑ i, p i) / N) * (p i - (∑ i, p i) / N)
      = (∑ i, p i * p i) - 2 * ((∑ i, p i) / N) * (∑ i, p i) + N * (((∑ i, p i) / N) * ((∑ i, p i) / N)) := by
    have : ∀ i, (p i - (∑ i, p i) / N) * (p i - (∑ i, p i) / N)
        = p i * p i - 2 * ((∑ i, p i) / N) * p i + ((∑ i, p i) / N) * ((∑ i, p i) / N) := fun i => by ring
    simp only [this, Finset.sum_add_distrib, Finset.sum_sub_distrib, ← Finset.mul_sum, Finset.sum_const, Finset.card_univ,
      nsmul_eq_mul, hN]
    ring
  rw [h1]
  field_simp
  ring

/-- The mean of squared deviations is not negative. -/
theorem var_nonneg {ι : Type*} [Fintype ι] (p : ι → ℝ) (μ N : ℝ) (hN : 0 < N) :
    0 ≤ (∑ i, (p i - μ) * (p i - μ)) / N :=
  div_nonneg (Finset.sum_nonneg fun i _ => mul_self_nonneg _) hN.le

/-- Clamping "mean of squares minus squared mean" at zero leaves the mean of squared deviations. -/
theorem var_clamped {ι : Type*} [Fintype ι] (p : ι → ℝ) (N : ℝ) (hN : (Fintype.card ι : ℝ) = N) (hN0 : 0 < N) :
    max ((∑ i, p i * p i) / N - (∑ i, p i) / N * ((∑ i, p i) / N)) 0
      = (∑ i, (p i - (∑ i, p i) / N) * (p i - (∑ i, p i) / N)) / N := by
  rw [var_forms p N hN hN0.ne']
  exact max_eq_left (var_nonneg p _ N hN0)

/-! ## Finite extended reals -/

/-- An extended real that is a real number. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} : IsFin x → IsFin y → IsFin (x + y)
  | ⟨a, ha⟩, ⟨b, hb⟩ => ⟨a + b, by rw [ha, hb, EReal.coe_add]⟩
theorem IsFin.sub {x y : EReal} : IsFin x → IsFin y → IsFin (x - y)
  | ⟨a, ha⟩, ⟨b, hb⟩ => ⟨a - b, by rw [ha, hb, EReal.coe_sub]⟩
theorem IsFin.mul {x y : EReal} : IsFin x → IsFin y → IsFin (x * y)
  | ⟨a, ha⟩, ⟨b, hb⟩ => ⟨a * b, by rw [ha, hb, EReal.coe_mul]⟩
theorem IsFin.max {x y : EReal} : IsFin x → IsFin y → IsFin (max x y)
  | ⟨a, ha⟩, ⟨b, hb⟩ => ⟨Max.max a b, by rw [ha, hb]; exact (EReal.coe_strictMono.monotone.map_max).symm⟩
theorem IsFin.sum {ι : Type*} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))

/-- A quotient by a nonzero real is the real quotient. -/
theorem div_coe_coe (a b : ℝ) (hb : b ≠ 0) : Ideal.div (a : EReal) (b : EReal) = ((a / b : ℝ) : EReal) := by
  rw [Ideal.div_coe hb, ← EReal.coe_mul, mul_one_div]

theorem IsFin.div {x y : EReal} : IsFin x → IsFin y → y ≠ 0 → IsFin (Ideal.div x y)
  | ⟨a, ha⟩, ⟨b, hb⟩, h0 => ⟨a / b, by
      subst ha hb
      exact div_coe_coe a b (by rintro rfl; exact h0 rfl)⟩

/-- The square root of a nonnegative real. -/
theorem sqrt_coe (r : ℝ) (hr : 0 ≤ r) : Ideal.sqrt (r : EReal) = ((Real.sqrt r : ℝ) : EReal) := by
  show (if r < 0 then (⊥ : EReal) else (Real.sqrt r : EReal)) = _
  rw [if_neg (not_lt.mpr hr)]

/-- The reciprocal square root of a positive real. -/
theorem rsqrt_coe (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-! ## The variance formulas on finite extended reals -/

theorem coe_max (a b : ℝ) : ((Max.max a b : ℝ) : EReal) = Max.max (a : EReal) (b : EReal) :=
  EReal.coe_strictMono.monotone.map_max

/-- Finitely many finite extended reals are the coercions of reals. -/
theorem exists_real {ι : Type*} (x : ι → EReal) (hx : ∀ i, IsFin (x i)) : ∃ p : ι → ℝ, x = fun i => (p i : EReal) :=
  ⟨fun i => (hx i).choose, funext fun i => (hx i).choose_spec⟩

/-- For finite entries, "mean of squares minus squared mean, clamped at zero" is the mean of squared deviations. -/
theorem var_clamped_ereal {ι : Type*} [Fintype ι] (x : ι → EReal) (hx : ∀ i, IsFin (x i)) (N : ℝ)
    (hN : (Fintype.card ι : ℝ) = N) (hN0 : 0 < N) :
    Max.max (Ideal.div (∑ i, x i * x i) (N : EReal)
        - Ideal.div (∑ i, x i) (N : EReal) * Ideal.div (∑ i, x i) (N : EReal)) 0
      = Ideal.div (∑ i, (x i - Ideal.div (∑ i, x i) (N : EReal)) * (x i - Ideal.div (∑ i, x i) (N : EReal))) (N : EReal) := by
  obtain ⟨p, rfl⟩ := exists_real x hx
  simp only [← EReal.coe_mul, ← coe_sum, div_coe_coe _ _ hN0.ne', ← EReal.coe_sub]
  rw [← EReal.coe_zero, ← coe_max, var_clamped p N hN hN0]

/-! ## Signs -/

/-- A nonnegative real, as an extended real. -/
def IsNonneg (x : EReal) : Prop := ∃ r : ℝ, 0 ≤ r ∧ x = (r : EReal)
/-- A positive real, as an extended real. -/
def IsPos (x : EReal) : Prop := ∃ r : ℝ, 0 < r ∧ x = (r : EReal)

theorem IsNonneg.isFin {x : EReal} : IsNonneg x → IsFin x | ⟨r, _, h⟩ => ⟨r, h⟩
theorem IsPos.isFin {x : EReal} : IsPos x → IsFin x | ⟨r, _, h⟩ => ⟨r, h⟩
theorem IsPos.isNonneg {x : EReal} : IsPos x → IsNonneg x | ⟨r, h0, h⟩ => ⟨r, h0.le, h⟩
theorem IsPos.ne_zero {x : EReal} : IsPos x → x ≠ 0
  | ⟨r, h0, h⟩ => by rw [h]; exact_mod_cast h0.ne'
theorem IsNonneg.zero : IsNonneg 0 := ⟨0, le_rfl, rfl⟩
theorem IsFin.mul_self_nonneg {x : EReal} : IsFin x → IsNonneg (x * x)
  | ⟨a, ha⟩ => ⟨a * a, _root_.mul_self_nonneg a, by rw [ha, EReal.coe_mul]⟩
theorem IsNonneg.add {x y : EReal} : IsNonneg x → IsNonneg y → IsNonneg (x + y)
  | ⟨a, ha0, ha⟩, ⟨b, hb0, hb⟩ => ⟨a + b, add_nonneg ha0 hb0, by rw [ha, hb, EReal.coe_add]⟩
theorem IsNonneg.add_pos {x y : EReal} : IsNonneg x → IsPos y → IsPos (x + y)
  | ⟨a, ha0, ha⟩, ⟨b, hb0, hb⟩ => ⟨a + b, add_pos_of_nonneg_of_pos ha0 hb0, by rw [ha, hb, EReal.coe_add]⟩
theorem IsNonneg.sum {ι : Type*} (s : Finset ι) (f : ι → EReal) (h : ∀ i ∈ s, IsNonneg (f i)) : IsNonneg (∑ i ∈ s, f i) := by
  classical
  induction s using Finset.induction_on with
  | empty => simpa using IsNonneg.zero
  | insert a s ha ih =>
    rw [Finset.sum_insert ha]
    exact (h a (Finset.mem_insert_self a s)).add (ih fun i hi => h i (Finset.mem_insert_of_mem hi))
theorem IsNonneg.sqrt {x : EReal} : IsNonneg x → IsNonneg (Ideal.sqrt x)
  | ⟨a, ha0, ha⟩ => ⟨Real.sqrt a, Real.sqrt_nonneg a, by rw [ha, sqrt_coe a ha0]⟩
theorem IsNonneg.max_pos {x y : EReal} : IsNonneg x → IsPos y → IsPos (Max.max x y)
  | ⟨a, _, ha⟩, ⟨b, hb0, hb⟩ => ⟨Max.max a b, lt_max_of_lt_right hb0, by rw [ha, hb, coe_max]⟩
theorem IsFin.max_zero_nonneg {x : EReal} : IsFin x → IsNonneg (Max.max x 0)
  | ⟨a, ha⟩ => ⟨Max.max a 0, le_max_right a 0, by rw [ha, ← EReal.coe_zero, coe_max]⟩
theorem IsPos.rsqrt {x : EReal} : IsPos x → IsFin (Ideal.rsqrt x)
  | ⟨a, ha0, ha⟩ => ⟨(Real.sqrt a)⁻¹, by rw [ha, rsqrt_coe a ha0]⟩
theorem IsNonneg.div_pos {x y : EReal} : IsNonneg x → IsPos y → IsNonneg (Ideal.div x y)
  | ⟨a, ha0, ha⟩, ⟨b, hb0, hb⟩ => ⟨a / b, div_nonneg ha0 hb0.le, by rw [ha, hb, div_coe_coe a b hb0.ne']⟩
theorem IsFin.div_pos {x y : EReal} (hx : IsFin x) (hy : IsPos y) : IsFin (Ideal.div x y) :=
  hx.div hy.isFin hy.ne_zero

/-- Multiplying by the reciprocal of a nonzero divisor is dividing by it. -/
theorem mul_one_div (x y : EReal) (hy : y ≠ 0) : x * Ideal.div 1 y = Ideal.div x y := by
  rw [Ideal.div, Ideal.div, if_neg hy, if_neg hy, one_mul]

end Cert.LibStats

end
-- ==== Proof.Algebra.lean ====
/-
  The algebra joining the two sides, and which of the quantities are real numbers.

  For rows `c_i, x_j` of real numbers, the pairwise score of row `i`,
    `Σ_j (c_i · x_j)(1 − x_i · x_j)(1 − [i = j])`,
  is the sum over every `j` minus the term at `j = i`; and the sum over every `j` factors through the column sums
  `t = Σ_j x_j` and the Gram matrix `G = Σ_j x_j x_jᵀ`:
    `Σ_j (c_i · x_j) = c_i · t`,   `Σ_j (c_i · x_j)(x_i · x_j) = Σ_l (Σ_k c_ik G_kl) x_il`.
  On the extended reals a product distributes over a sum only away from the infinities, so the identity is stated for
  finite entries, and the second part shows that the normalised rows are finite whenever the inputs are: the length of a
  row is guarded below by a positive real ε, so the division is by a positive real.
-/
import Mathlib.Algebra.BigOperators.Ring.Finset
import Mathlib.Algebra.BigOperators.Fin
import Mathlib.Tactic.Ring
import Mathlib.Tactic.NormNum
import Mathlib.Tactic.Positivity
import Idealize.ShloMosaic.PureOps.Ideal
import proofs.«108611_j80152679678829_2_alg».proof.Proof.Spec
import proofs.«108611_j80152679678829_2_alg».proof.Proof.LibStats

noncomputable section

namespace Cert.Algebra

open Idealize.ShloMosaic Cert.Spec

/-- An extended real that is a real number. -/
abbrev IsFin (x : EReal) : Prop := Cert.LibStats.IsFin x

/-! ## The three literals -/

/-- The literal 1 is the number one. -/
theorem one_eq : one = 1 := by
  have h : one = (((8388608 : ℝ) * (2 ^ 23)⁻¹ : ℝ) : EReal) := by
    simp [Ideal.ofBits, Ideal.ieee]
  rw [h, ← EReal.coe_one]
  congr 1
  norm_num

/-- The guard ε is a positive real, 11258999 · 2⁻⁵⁰. -/
theorem epsC_pos : Cert.LibStats.IsPos epsC := by
  refine ⟨11258999 * (2 ^ 50)⁻¹, by positivity, ?_⟩
  simp [Ideal.ofBits, Ideal.ieee]

theorem epsC_fin : IsFin epsC := epsC_pos.isFin

/-- The literal ½ is a real. -/
theorem half_fin : IsFin half := by
  refine ⟨8388608 * (2 ^ 24)⁻¹, ?_⟩
  simp [Ideal.ofBits, Ideal.ieee]

/-! ## The identity over the reals -/

section Real

variable {ι κ : Type*} [Fintype ι] [DecidableEq ι] [Fintype κ]

/-- The pairwise score of row `i` equals the Gram-factored score, for real entries. -/
theorem pairwise_eq_factored (c x : ι → κ → ℝ) (i : ι) :
    ∑ j, ((∑ k, c i k * x j k) * (1 - ∑ k, x i k * x j k)) * (1 - (if i = j then 1 else 0))
      = ((∑ k, c i k * (∑ j, x j k)) - (∑ l, (∑ k, c i k * (∑ j, x j k * x j l)) * x i l))
        - (∑ k, c i k * x i k) * (1 - ∑ k, x i k * x i k) := by
  -- the linear term: exchange the two sums
  have h1 : ∑ j, ∑ k, c i k * x j k = ∑ k, c i k * ∑ j, x j k := by
    rw [Finset.sum_comm]
    exact Finset.sum_congr rfl fun k _ => (Finset.mul_sum _ _ _).symm
  -- the quadratic term: a product of two sums is a double sum; bring the sum over rows innermost
  have h2 : ∑ j, (∑ k, c i k * x j k) * (∑ l, x i l * x j l)
      = ∑ l, (∑ k, c i k * ∑ j, x j k * x j l) * x i l := by
    calc ∑ j, (∑ k, c i k * x j k) * (∑ l, x i l * x j l)
        = ∑ j, ∑ l, ∑ k, c i k * x j k * x j l * x i l := by
          refine Finset.sum_congr rfl fun j _ => ?_
          rw [Finset.sum_mul_sum, Finset.sum_comm]
          exact Finset.sum_congr rfl fun l _ => Finset.sum_congr rfl fun k _ => by ring
      _ = ∑ l, ∑ j, ∑ k, c i k * x j k * x j l * x i l := Finset.sum_comm
      _ = ∑ l, (∑ k, c i k * ∑ j, x j k * x j l) * x i l := by
          refine Finset.sum_congr rfl fun l _ => ?_
          rw [Finset.sum_comm, Finset.sum_mul]
          refine Finset.sum_congr rfl fun k _ => ?_
          rw [Finset.mul_sum, Finset.sum_mul]
          exact Finset.sum_congr rfl fun j _ => by ring
  -- the factor 1 − [i = j] removes exactly the term at j = i
  have h3 : ∀ f : ι → ℝ, ∑ j, f j * (1 - (if i = j then 1 else 0)) = (∑ j, f j) - f i := fun f => by
    simp only [mul_sub, mul_one, Finset.sum_sub_distrib, mul_ite, mul_zero, Finset.sum_ite_eq, Finset.mem_univ, if_true]
  rw [h3]
  simp only [mul_sub, mul_one, Finset.sum_sub_distrib]
  rw [h1, h2]

end Real

/-! ## The identity on finite extended reals -/

/-- A choice between two reals, coerced. -/
theorem coe_ite (p : Prop) [Decidable p] (a b : ℝ) :
    (if p then (a : EReal) else (b : EReal)) = ((if p then a else b : ℝ) : EReal) := by
  split_ifs <;> rfl

/-- The pairwise score is the Gram-factored score of the Gram matrix and the column sums, for finite entries. -/
theorem refScore_eq_score (c x : Fin 8192 → Fin 1024 → EReal) (hc : ∀ i k, IsFin (c i k)) (hx : ∀ i k, IsFin (x i k))
    (i : Fin 8192) : refScore c x i = score c x (gram x) (colsum x) i := by
  choose c' hc' using hc
  choose x' hx' using hx
  obtain rfl : c = fun i k => (c' i k : EReal) := funext fun i => funext fun k => hc' i k
  obtain rfl : x = fun i k => (x' i k : EReal) := funext fun i => funext fun k => hx' i k
  unfold refScore score gram colsum
  rw [one_eq]
  simp only [← EReal.coe_one, ← EReal.coe_zero, coe_ite, ← EReal.coe_mul, ← Cert.LibStats.coe_sum, ← EReal.coe_sub]
  exact congrArg _ (pairwise_eq_factored c' x' i)

/-! ## Finiteness of the normalised rows -/

/-- A row of reals scaled to unit length is a row of reals: the guarded length is a positive real. -/
theorem unit_fin (x : Fin 8192 → Fin 1024 → EReal) (hx : ∀ i k, IsFin (x i k)) : ∀ i k, IsFin (unit x i k) := by
  intro i k
  unfold unit
  refine Cert.LibStats.IsFin.div_pos (hx i k) ?_
  refine Cert.LibStats.IsNonneg.max_pos (Cert.LibStats.IsNonneg.sqrt ?_) epsC_pos
  exact Cert.LibStats.IsNonneg.sum _ _ fun k' _ => (hx i k').mul_self_nonneg

/-- The question averaged with a document is finite. -/
theorem comb_fin (q : Fin 1024 → EReal) (d : Fin 8192 → Fin 1024 → EReal) (hq : ∀ k, IsFin (q k))
    (hd : ∀ i k, IsFin (d i k)) : ∀ i k, IsFin (comb q d i k) := fun i k =>
  Cert.LibStats.IsFin.mul (Cert.LibStats.IsFin.add (hq k) (hd i k)) half_fin

theorem cn_fin (q : Fin 1024 → EReal) (d : Fin 8192 → Fin 1024 → EReal) (hq : ∀ k, IsFin (q k))
    (hd : ∀ i k, IsFin (d i k)) : ∀ i k, IsFin (cn q d i k) :=
  unit_fin _ (comb_fin q d hq hd)

theorem dn_fin (d : Fin 8192 → Fin 1024 → EReal) (hd : ∀ i k, IsFin (d i k)) : ∀ i k, IsFin (dn d i k) :=
  unit_fin d hd

end Cert.Algebra

end
-- ==== Proof.KI.Scores.lean ====
import proofs.«108611_j80152679678829_2_alg».proof.Proof.KI.Run
import proofs.«108611_j80152679678829_2_alg».proof.Proof.KI.Val0
import proofs.«108611_j80152679678829_2_alg».proof.Proof.KI.Val1
import proofs.«108611_j80152679678829_2_alg».proof.Proof.KI.Val2
import proofs.«108611_j80152679678829_2_alg».proof.Proof.Algebra
import Idealize.ShloMosaic.Lib.ValueLayout

/-!
  The column of scores the third kernel returns, entry by entry, as a function of the launch memory: the third kernel's
  row score of the first kernel's normalised rows, of the second kernel's Gram matrix and column sums of them — which,
  the inputs being finite, is the pairwise score of the reference.
-/

set_option maxRecDepth 16384

noncomputable section

namespace Cert.KernelIdeal.Scores

open Cert.KernelIdeal Cert.KernelIdeal.Gen Cert.KernelIdeal.Run
open Idealize.ShloMosaic Idealize.ShloMosaic.TcCoe Idealize.ShloMosaic.ValueIdx
open Idealize.SL Idealize.SL.Sem
open Idealize.ShloMosaic.StableHlo

variable (m : (ℓ : Loc nD τ sig) → Buf (Elt Ideal) ℓ) (c : Dev nD)

/-- The question, feature by feature. -/
abbrev qOf : Fin 1024 → EReal := fun k => m ((c : Thread nD τ).loc main_arg0) (ix1 k)
/-- The documents, row by row. -/
abbrev dOf : Fin 8192 → Fin 1024 → EReal := fun i k => m ((c : Thread nD τ).loc main_arg1) (ix2 i k)

/-! ## What the first kernel finds and leaves -/

theorem V1_main_v0 (k : Fin 1024) : Run.V1 m c main_v0 (ix2 (0 : Fin 1) k) = qOf m c k := by
  have e : (Run.V1 m c main_v0 : S1x1024.Idx → EReal) = fun i => shapeCast S1x1024 (m ((c : Thread nD τ).loc main_arg0)) shapeCasts_S1024_S1x1024 i := by
    show after hostOps0 (W0 m c) (Proc.devRef .tc main_v0) = _
    simp only [hostOps0]
    after_results_simp
    rfl
  rw [e]
  exact shapeCast_a_1a_apply _ _ _ _

theorem V1_main_arg1 : Run.V1 m c main_arg1 = m ((c : Thread nD τ).loc main_arg1) :=
  (after_of_writes_sub (r := main_arg1) hostOps0 _ hostOps0_writes (by decide)).trans rfl

/-- The normalised averaged rows, as the first kernel leaves them. -/
theorem V2_cn (i : Fin 8192) (k : Fin 1024) : Run.V2 m c main_v1_0 (ix2 i k) = Cert.Spec.cn (qOf m c) (dOf m c) i k := by
  have e : Run.V2 m c main_v1_0 = (Reg0.dat0 (Run.V1 m) c).arrAt 2 cfg0.N := W2_arr m c 2
  rw [e]
  refine (Val0.cn_at (Run.V1 m) c i k).trans ?_
  exact congrArg₂ (fun a b => Cert.Spec.cn a b i k) (funext fun k' => V1_main_v0 m c k') (by funext i' k'; rw [V1_main_arg1])

/-- The normalised documents, as the first kernel leaves them. -/
theorem V2_dn (i : Fin 8192) (k : Fin 1024) : Run.V2 m c main_v1_1 (ix2 i k) = Cert.Spec.dn (dOf m c) i k := by
  have e : Run.V2 m c main_v1_1 = (Reg0.dat0 (Run.V1 m) c).arrAt 3 cfg0.N := W2_arr m c 3
  rw [e]
  refine (Val0.dn_at (Run.V1 m) c i k).trans ?_
  exact congrArg (fun b => Cert.Spec.dn b i k) (by funext i' k'; rw [V1_main_arg1])

/-! ## What the second kernel leaves -/

theorem V3_gram (k l : Fin 1024) : Run.V3 m c main_v2_0 (ix2 k l) = Cert.Spec.gram (Cert.Spec.dn (dOf m c)) k l := by
  have e : Run.V3 m c main_v2_0 = (Reg1.dat1 (Run.V2 m) c).arrAt 1 cfg1.N := W3_arr m c 1
  rw [e]
  refine (Val1.gram_at (Run.V2 m) c k l).trans ?_
  exact congrArg (fun b => Cert.Spec.gram b k l) (by funext j k'; exact V2_dn m c j k')

theorem V3_colsum (k : Fin 1024) : Run.V3 m c main_v2_1 (ix2 (0 : Fin 1) k) = Cert.Spec.colsum (Cert.Spec.dn (dOf m c)) k := by
  have e : Run.V3 m c main_v2_1 = (Reg1.dat1 (Run.V2 m) c).arrAt 2 cfg1.N := W3_arr m c 2
  rw [e]
  refine (Val1.colsum_at (Run.V2 m) c k).trans ?_
  exact congrArg (fun b => Cert.Spec.colsum b k) (by funext j k'; exact V2_dn m c j k')

/-- The second kernel stages the normalised documents as an input window, which leaves them as they were. -/
theorem V3_dn : Run.V3 m c main_v1_1 = Run.V2 m c main_v1_1 :=
  (W3_arr m c 0).trans (((Reg1.dat1 (Run.V2 m) c).arrAt_in 0 rfl _).trans (Reg1.A_eq1 (Run.V2 m) c 0))

theorem V3_cn : Run.V3 m c main_v1_0 = Run.V2 m c main_v1_0 := W3_of_ne m c main_v1_0 (by decide)

/-! ## What the third kernel finds -/

theorem V4_cn : Run.V4 m c main_v1_0 = Run.V2 m c main_v1_0 :=
  (after_of_writes_sub hostOps2 _ hostOps2_writes (by decide)).trans (V3_cn m c)
theorem V4_dn : Run.V4 m c main_v1_1 = Run.V2 m c main_v1_1 :=
  (after_of_writes_sub hostOps2 _ hostOps2_writes (by decide)).trans (V3_dn m c)
theorem V4_colsum : Run.V4 m c main_v2_1 = Run.V3 m c main_v2_1 :=
  after_of_writes_sub hostOps2 _ hostOps2_writes (by decide)
/-- The Gram matrix after its change of format: the same extended reals. -/
theorem V4_gram (k l : Fin 1024) : Run.V4 m c main_v3 (ix2 k l) = Run.V3 m c main_v2_0 (ix2 k l) := by
  show after hostOps2 (W3 m c) (Proc.devRef .tc main_v3) (ix2 k l) = _
  simp only [hostOps2]
  after_results_simp
  rfl

/-! ## The scores -/

/-- The score depends on its four arrays only through their values. -/
theorem score_congr {a a' x x' : Fin 8192 → Fin 1024 → EReal} {g g' : Fin 1024 → Fin 1024 → EReal} {t t' : Fin 1024 → EReal}
    (ha : a = a') (hx : x = x') (hg : g = g') (ht : t = t') (i : Fin 8192) :
    Cert.Spec.score a x g t i = Cert.Spec.score a' x' g' t' i := by
  subst ha hx hg ht; rfl

/-- Entry `i` of the column of scores the third kernel leaves is the Gram-factored score of row `i`. -/
theorem scores_at (i : Fin 8192) :
    W5 m c (Proc.devRef .tc main_v4) (ix2 i (0 : Fin 1))
      = Cert.Spec.score (Cert.Spec.cn (qOf m c) (dOf m c)) (Cert.Spec.dn (dOf m c)) (Cert.Spec.gram (Cert.Spec.dn (dOf m c)))
          (Cert.Spec.colsum (Cert.Spec.dn (dOf m c))) i := by
  have e : W5 m c (Proc.devRef .tc main_v4) = (Reg2.dat2 (Run.V4 m) c).arrAt 4 cfg2.N := W5_arr m c 4
  rw [e]
  refine (Val2.score_at (Run.V4 m) c i).trans ?_
  exact score_congr (by funext i' k'; rw [V4_cn]; exact V2_cn m c i' k') (by funext i' k'; rw [V4_dn]; exact V2_dn m c i' k')
    (by funext k' l'; rw [V4_gram]; exact V3_gram m c k' l') (by funext k'; rw [V4_colsum]; exact V3_colsum m c k') i

/-- With finite inputs it is the reference's pairwise score. -/
theorem scores_eq_ref (hq : ∀ k, Cert.Algebra.IsFin (qOf m c k)) (hd : ∀ i k, Cert.Algebra.IsFin (dOf m c i k)) (i : Fin 8192) :
    W5 m c (Proc.devRef .tc main_v4) (ix2 i (0 : Fin 1))
      = Cert.Spec.refScore (Cert.Spec.cn (qOf m c) (dOf m c)) (Cert.Spec.dn (dOf m c)) i :=
  (scores_at m c i).trans
    (Cert.Algebra.refScore_eq_score _ _ (Cert.Algebra.cn_fin _ _ hq hd) (Cert.Algebra.dn_fin _ hd) i).symm

end Cert.KernelIdeal.Scores

end
-- ==== Proof.RefTail.lean ====
/-
  The second half of what the reference computes, from the scores on: the scores outside the mask are replaced by −∞;
  the softmax of the result (each entry lowered by the largest before the exponential, then divided by the sum) weights
  the documents; the weighted sum is scaled to unit length, its length guarded below; and when the mask selects nothing
  the question itself is returned.  The softmax chain is stated as a function of the vector it is applied to.
-/
import proofs.«108611_j80152679678829_2_alg».proof.Proof.Gen.ReferenceIdeal
import proofs.«108611_j80152679678829_2_alg».proof.Proof.Spec
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

/-- The scores, those outside the mask replaced by −∞. -/
def masked (mask : (⟨S8192, .i1⟩ : BufTy).Contents (Elt Ideal)) (s : FVec Ideal S8192 .f32) : FVec Ideal S8192 .f32 :=
  select mask s (broadcastInDim S8192 ![] bcast_S_S8192 (constant (F := Ideal) S_ .f32 0xFF800000#32))

/-- The exponentials of the entries of `x`, each lowered by the largest of them (the largest taken with −∞). -/
def expd (x : FVec Ideal S8192 .f32) : FVec Ideal S8192 .f32 :=
  Host.exp (subf x (broadcastInDim S8192 ![0] bcast_S1_S8192_0 (broadcastInDim S1 ![] bcast_S_S1
    (maximumf (constant (F := Ideal) S_ .f32 0xFF800000#32)
      (Host.reduce FloatOps.maximumf x (constant (F := Ideal) S_ .f32 0xFF800000#32) reducesTo_S8192_S_d0 h_S_)))))

/-- The softmax weights of `x`: each exponential divided by the sum of all. -/
def weights (x : FVec Ideal S8192 .f32) : FVec Ideal S8192 .f32 :=
  Host.divf (expd x) (broadcastInDim S8192 ![0] bcast_S1_S8192_0 (broadcastInDim S1 ![] bcast_S_S1
    (Host.reduceAdd (expd x) (constant (F := Ideal) S_ .f32 0x00000000#32) reducesTo_S8192_S_d0 h_S_)))

/-- The sum of the documents weighted by the softmax of `x`, feature by feature. -/
def wavg (d : FVec Ideal S8192x1024 .f32) (x : FVec Ideal S8192 .f32) : FVec Ideal S1024 .f32 :=
  Host.reduceAdd (mulf d (broadcastInDim S8192x1024 ![0, 1] bcast_S8192x1_S8192x1024_0_1
    (broadcastInDim S8192x1 ![0] bcast_S8192_S8192x1_0 (weights x)))) (constant (F := Ideal) S_ .f32 0x00000000#32) reducesTo_S8192x1024_S1024_d0 h_S_

/-- From the scores to the result: the weighted sum scaled to unit length (its length guarded below), or the question itself
    when the mask selects nothing. -/
def tail (q : FVec Ideal S1024 .f32) (d : FVec Ideal S8192x1024 .f32) (mask : (⟨S8192, .i1⟩ : BufTy).Contents (Elt Ideal))
    (s : FVec Ideal S8192 .f32) : FVec Ideal S1024 .f32 :=
  select (broadcastInDim S1024 ![] bcast_S_S1024 (Host.reduce IntOp.ori mask (constantI S_ 1 0#1) reducesTo_S8192_S_d0 h_S_))
    (Host.divf (wavg d (masked mask s)) (broadcastInDim S1024 ![0] bcast_S1_S1024_0
      (maximumf (Host.sqrt (broadcastInDim S1 ![] bcast_S_S1
          (Host.reduceAdd (mulf (wavg d (masked mask s)) (wavg d (masked mask s))) (constant (F := Ideal) S_ .f32 0x00000000#32) reducesTo_S1024_S_d0 h_S_)))
        (broadcastInDim S1 ![] bcast_S_S1 (constant (F := Ideal) S_ .f32 0x2B8CBCCC#32)))))
    q

end Cert.RefSide

end
-- ==== Proof.KI.TailBridge.lean ====
/-
  The host operations after the third kernel compute what the reference computes from the scores on.

  The two chains differ in three places only.  The kernel reads the scores as a column and flattens it; the reference
  has them as a vector: the same entries.  The kernel replaces the masked scores by zeros when the mask selects no row,
  and in that case both programs return the question itself, so the replacement never reaches the result; when the mask
  selects some row it is the identity.  The last scaling to unit length divides by the guarded length, which the kernel
  computes as a scalar and the reference as a vector of one entry: the same extended real at every feature.
  Everything between — the softmax weights and the weighted sum of the documents — is the same composition of the same
  operations on both sides.
-/
import proofs.«108611_j80152679678829_2_alg».proof.Proof.KI.TailDefs
import proofs.«108611_j80152679678829_2_alg».proof.Proof.RefTail
import Idealize.ShloMosaic.Lib.ValueIdx
import Idealize.ShloMosaic.Lib.Pipeline.Value

noncomputable section

namespace Cert.KernelIdeal.TailBridge

open Idealize.ShloMosaic Idealize.SL.Sem

/-! ## Shapes with one index -/

instance subsingleton_rank0 : Subsingleton (⟨0, ![]⟩ : Shape).Idx := ⟨fun a b => funext fun d => d.elim0⟩

instance subsingleton_one : Subsingleton (⟨1, ![1]⟩ : Shape).Idx :=
  ⟨fun a b => funext fun d => match d with | ⟨0, _⟩ => Subsingleton.elim (α := Fin 1) _ _⟩

/-- A broadcast of an array with one index has that one entry everywhere. -/
theorem broadcast_single {α : Type} {s t : Shape} [Subsingleton s.Idx] (dims : Fin s.rank → Fin t.rank)
    (h : s.BroadcastsInDim t dims) (x : s.Idx → α) (j : t.Idx) (k : s.Idx) : broadcastInDim t dims h x j = x k := by
  unfold broadcastInDim
  exact congrArg x (Subsingleton.elim _ _)

/-- A choice on the bit 0 is the second branch, on the bit 1 the first. -/
theorem select_zero {α : Type} (a b : α) : Scalar.select 0#1 a b = b := if_neg (by decide)
theorem select_one {α : Type} (a b : α) : Scalar.select 1#1 a b = a := if_pos rfl

/-! ## The column of scores, flattened -/

/-- The flattened column has the column's entries. -/
theorem flat_apply (s4 : FVec Ideal Cert.KernelIdeal.S8192x1 .f32) (i : Fin 8192) :
    Cert.KernelIdeal.Tail.flat s4 (ValueIdx.ix1 i) = s4 (ValueIdx.ix2 i 0) := by
  unfold Cert.KernelIdeal.Tail.flat
  refine shapeCast_apply _ _ _ _ ?_
  rw [Shape.rowMajor_val_two, Shape.rowMajor_val_one]
  simp

/-! ## The mask selects some row, or none -/

/-- When the mask selects some row the masked scores are kept as they are. -/
theorem safe_of_some (mask : (⟨Cert.KernelIdeal.S8192, .i1⟩ : BufTy).Contents (Elt Ideal))
    (s : FVec Ideal Cert.KernelIdeal.S8192 .f32) (hb : Cert.KernelIdeal.Tail.anySel mask ValueIdx.ix0 = 1#1) :
    Cert.KernelIdeal.Tail.safe mask s = Cert.KernelIdeal.Tail.masked mask s := by
  funext i
  unfold Cert.KernelIdeal.Tail.safe
  show Scalar.select (broadcastInDim _ _ _ (Cert.KernelIdeal.Tail.anySel mask) i) _ _ = _
  rw [broadcast_single _ _ _ i ValueIdx.ix0, hb]
  rfl

/-! ## The shared chain -/

/-- Masking the scores is the same operation in the two programs. -/
theorem masked_eq (mask : (⟨Cert.KernelIdeal.S8192, .i1⟩ : BufTy).Contents (Elt Ideal))
    (s : FVec Ideal Cert.KernelIdeal.S8192 .f32) : Cert.KernelIdeal.Tail.masked mask s = Cert.RefSide.masked mask s := rfl

/-- The softmax-weighted sum of the documents is the same composition in the two programs. -/
theorem wavg_eq (d : FVec Ideal Cert.KernelIdeal.S8192x1024 .f32) (x : FVec Ideal Cert.KernelIdeal.S8192 .f32) :
    Cert.KernelIdeal.Tail.wavg d x = Cert.RefSide.wavg d x := rfl

/-! ## The two scalings to unit length -/

/-- Entry `j` of `w` over the length of `w` guarded from below. -/
def scaled (w : FVec Ideal Cert.KernelIdeal.S1024 .f32) (j : Cert.KernelIdeal.S1024.Idx) : EReal :=
  Ideal.div (w j) (max (Ideal.sqrt (Host.reduceAdd (mulf w w) (constant (F := Ideal) Cert.KernelIdeal.S_ .f32 0x00000000#32)
    Cert.KernelIdeal.Facts₀.reducesTo_S1024_S_d0 Cert.KernelIdeal.Facts₀.h_S_ ValueIdx.ix0)) (Ideal.ofBits .f32 0x2B8CBCCC#32))

/-- The kernel's scaling divides by a scalar spread over the features. -/
theorem scaleK_apply (w : FVec Ideal Cert.KernelIdeal.S1024 .f32) (j : Cert.KernelIdeal.S1024.Idx) :
    Host.divf w (broadcastInDim Cert.KernelIdeal.S1024 ![] Cert.KernelIdeal.Facts₀.bcast_S_S1024
      (maximumf (Cert.KernelIdeal.Tail.len w) (constant (F := Ideal) Cert.KernelIdeal.S_ .f32 0x2B8CBCCC#32))) j
      = scaled w j := by
  show Ideal.div (w j) (broadcastInDim _ _ _ _ j) = _
  rw [broadcast_single _ _ _ j ValueIdx.ix0]
  rfl

/-- The reference's scaling divides by a vector of one entry spread over the features. -/
theorem scaleR_apply (w : FVec Ideal Cert.ReferenceIdeal.S1024 .f32) (j : Cert.ReferenceIdeal.S1024.Idx) :
    Host.divf w (broadcastInDim Cert.ReferenceIdeal.S1024 ![0] Cert.ReferenceIdeal.Facts₀.bcast_S1_S1024_0
      (maximumf (Host.sqrt (broadcastInDim Cert.ReferenceIdeal.S1 ![] Cert.ReferenceIdeal.Facts₀.bcast_S_S1
          (Host.reduceAdd (mulf w w) (constant (F := Ideal) Cert.ReferenceIdeal.S_ .f32 0x00000000#32)
            Cert.ReferenceIdeal.Facts₀.reducesTo_S1024_S_d0 Cert.ReferenceIdeal.Facts₀.h_S_)))
        (broadcastInDim Cert.ReferenceIdeal.S1 ![] Cert.ReferenceIdeal.Facts₀.bcast_S_S1
          (constant (F := Ideal) Cert.ReferenceIdeal.S_ .f32 0x2B8CBCCC#32)))) j
      = scaled w j := by
  show Ideal.div (w j) (broadcastInDim _ _ _ _ j) = _
  rw [broadcast_single _ _ _ j (ValueIdx.ix1 (0 : Fin 1))]
  show Ideal.div (w j) (max (Ideal.sqrt (broadcastInDim _ _ _ _ (ValueIdx.ix1 (0 : Fin 1))))
    (broadcastInDim _ _ _ _ (ValueIdx.ix1 (0 : Fin 1)))) = _
  rw [broadcast_single _ _ _ _ ValueIdx.ix0, broadcast_single _ _ _ _ ValueIdx.ix0]
  rfl

/-! ## The two tails -/

/-- From scores that agree entry by entry, the kernel's host tail and the reference's give the same result. -/
theorem tail_eq (q : FVec Ideal Cert.KernelIdeal.S1024 .f32) (d : FVec Ideal Cert.KernelIdeal.S8192x1024 .f32)
    (mask : (⟨Cert.KernelIdeal.S8192, .i1⟩ : BufTy).Contents (Elt Ideal))
    (s4 : FVec Ideal Cert.KernelIdeal.S8192x1 .f32) (sR : FVec Ideal Cert.ReferenceIdeal.S8192 .f32)
    (h : ∀ i : Fin 8192, s4 (ValueIdx.ix2 i 0) = sR (ValueIdx.ix1 i)) :
    Cert.KernelIdeal.Tail.tail q d mask s4 = Cert.RefSide.tail q d mask sR := by
  have hflat : Cert.KernelIdeal.Tail.flat s4 = sR := funext fun j => by
    obtain ⟨i, rfl⟩ : ∃ i : Fin 8192, j = ValueIdx.ix1 i := ⟨j 0, ValueIdx.eq_ix1 j⟩
    rw [flat_apply]
    exact h i
  funext j
  unfold Cert.KernelIdeal.Tail.tail Cert.RefSide.tail
  show Scalar.select (broadcastInDim _ _ _ (Cert.KernelIdeal.Tail.anySel mask) j) _ (q j)
    = Scalar.select (broadcastInDim _ _ _ (Cert.KernelIdeal.Tail.anySel mask) j) _ (q j)
  rw [broadcast_single _ _ _ j ValueIdx.ix0]
  rcases BitVec.eq_zero_or_eq_one (Cert.KernelIdeal.Tail.anySel mask ValueIdx.ix0) with hb | hb
  · rw [hb, select_zero, select_zero]
  · rw [hb, select_one, select_one, safe_of_some mask _ hb, hflat, masked_eq, wavg_eq, scaleK_apply, scaleR_apply]

end Cert.KernelIdeal.TailBridge

end
-- ==== Proof.KI.Finite.lean ====
/-
  From the precondition to finiteness: every entry of the question and of the documents is a real number.

  The precondition says that `|x| < +∞` holds at every entry of the two float arguments, as the conjunction of two
  reductions by `and` that both come out 1.  A reduction by `and` into a single result is 1 only if every element is 1;
  an element is the comparison `max x (−x) < +∞` on the extended reals, which fails at both infinities, so `x` is real.
-/
import proofs.«108611_j80152679678829_2_alg».proof.Defs
import proofs.«108611_j80152679678829_2_alg».proof.Proof.Algebra
import Idealize.ShloMosaic.Lib.ReduceAll
import Idealize.ShloMosaic.Lib.ValueIdx

noncomputable section

namespace Cert.KernelIdeal.Finite

open Idealize.ShloMosaic Idealize.SL.Sem

/-- The f32 word `0x7F800000` is `+∞`. -/
theorem inf_eq : Ideal.ofBits .f32 0x7F800000#32 = (⊤ : EReal) := by
  simp [Ideal.ofBits, Ideal.ieee]

/-- An extended real whose absolute value compares below `+∞` is a real number. -/
theorem isFin_of_abs_lt (x : EReal)
    (h : Ideal.cmp .olt (max x (-x)) (Ideal.ofBits .f32 0x7F800000#32) = 1#1) : Cert.Algebra.IsFin x := by
  rw [inf_eq] at h
  have h' : max x (-x) < ⊤ := by
    by_contra hn
    simp [Ideal.cmp, hn] at h
  induction x using EReal.rec with
  | bot => simp at h'
  | top => simp at h'
  | coe r => exact ⟨r, rfl⟩

/-- The result of a reduction over every axis has one index. -/
instance : Subsingleton Cert.Pre_finite_inputs.S_.Idx := ⟨fun a b => funext fun d => d.elim0⟩

/-- Under the precondition every entry of the question and every entry of the documents is a real number. -/
theorem of_pre (m : (ℓ : Loc Cert.KernelIdeal.nD Cert.KernelIdeal.τ Cert.KernelIdeal.sig) → Buf (Elt Ideal) ℓ)
    [Cert.Pre_finite_inputs.Facts] (h : Cert.Pre_KernelIdeal m) (c : Dev Cert.KernelIdeal.nD) :
    (∀ k : Fin 1024, Cert.Algebra.IsFin
        (m ((c.tc : Thread _ _).loc Cert.KernelIdeal.main_arg0) (ValueIdx.ix1 k)))
      ∧ (∀ (i : Fin 8192) (k : Fin 1024), Cert.Algebra.IsFin
        (m ((c.tc : Thread _ _).loc Cert.KernelIdeal.main_arg1) (ValueIdx.ix2 i k))) := by
  have h0 := congrFun (h c) ValueIdx.ix0
  dsimp only [Cert.Pre_finite_inputs.fn, andi] at h0
  obtain ⟨hq, hd⟩ := IntOp.andi_eq_one.1 h0
  refine ⟨fun k => ?_, fun i k => ?_⟩
  · exact isFin_of_abs_lt _ (Host.reduce_andi_all _ _ _ _ _ hq (ValueIdx.ix1 k))
  · exact isFin_of_abs_lt _ (Host.reduce_andi_all _ _ _ _ _ hd (ValueIdx.ix2 i k))

end Cert.KernelIdeal.Finite

end
-- ==== Proof.LibHostRead.lean ====
/-
  Host operations on matrices read at one index of their result, over the extended reals.

  A host product of an R × K matrix by a K × C matrix is, at (p, q), the K-term sum of the products of row p of the
  first by column q of the second.  A host sum along the second axis of an R × C matrix is, at row r, the initial
  value plus the C-term sum of that row; along the first axis, at column c, the initial value plus the R-term sum of
  that column.  Spreading a scalar, a vector along the columns of every row, or a vector along the rows of every
  column, repeats the entry it came from.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.LibHostRead

open Idealize.ShloMosaic Idealize.ShloMosaic.ValueIdx

/-! ## A matrix product -/

section Dot
variable {R K C : ℕ}

/-- On the first operand's row axis the operand index is the result's row. -/
theorem lhsIdx_row (D : DotDims ⟨2, ![R, K]⟩ ⟨2, ![K, C]⟩ ⟨2, ![R, C]⟩) (hlb : D.lhsBatch = [])
    (hln : D.lhsNonContracting = [0]) (j : (⟨2, ![R, C]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![R, C]⟩ : Shape).rank) (hb : b < (⟨2, ![R, C]⟩ : Shape).rank), a = b →
      (j ⟨a, ha⟩).val = (j ⟨b, hb⟩).val := fun a b ha hb h => by subst h; rfl
  exact key _ _ _ _ (by simp [hlb, hln])

/-- On the second operand's column axis the operand index is the result's column. -/
theorem rhsIdx_col (D : DotDims ⟨2, ![R, K]⟩ ⟨2, ![K, C]⟩ ⟨2, ![R, C]⟩) (hlb : D.lhsBatch = []) (hrb : D.rhsBatch = [])
    (hln : D.lhsNonContracting = [0]) (hrn : D.rhsNonContracting = [1]) (j : (⟨2, ![R, C]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![R, C]⟩ : Shape).rank) (hb : b < (⟨2, ![R, C]⟩ : Shape).rank), a = b →
      (j ⟨a, ha⟩).val = (j ⟨b, hb⟩).val := fun a b ha hb h => by subst h; rfl
  exact key _ _ _ _ (by simp [hlb, hln, hrn])

/-- A host rows-by-columns product at (p, q): the sum over the shared axis of the products. -/
theorem dotGeneral_ix2 {φ₁ φ₂ : FTy} (D : DotDims ⟨2, ![R, K]⟩ ⟨2, ![K, C]⟩ ⟨2, ![R, C]⟩)
    (hlc : D.lhsContracting = [1]) (hrc : D.rhsContracting = [0]) (hlb : D.lhsBatch = []) (hrb : D.rhsBatch = [])
    (hln : D.lhsNonContracting = [0]) (hrn : D.rhsNonContracting = [1])
    (prec : Option ContractPrecision) (lhs : FVec Ideal ⟨2, ![R, K]⟩ φ₁) (rhs : FVec Ideal ⟨2, ![K, C]⟩ φ₂)
    (p : Fin R) (q : Fin C) :
    Host.dotGeneral D prec lhs rhs (ix2 p q) = ∑ k : Fin K, lhs (ix2 p k) * rhs (ix2 k q) := by
  have hr : D.contr.rank = 1 := by rw [D.rank_contr, hlc]; rfl
  have hs : D.contr.size ⟨0, by omega⟩ = K := by
    have e := D.size_contr 0 (by rw [hlc]; exact Nat.one_pos)
    rw [e]
    simp [hlc]
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_col D hlb hrb hln hrn _ _)
  rw [el, er]

end Dot

/-! ## Host sums along one axis of a matrix -/

section Sums
variable {R C : ℕ} {φ : FTy}

/-- The host sum along the second axis, at row r. -/
theorem reduceAdd_lanes_ix1 (x : FVec Ideal ⟨2, ![R, C]⟩ φ) (init : EReal)
    (h : (⟨2, ![R, C]⟩ : Shape).ReducesTo [1] ⟨1, ![R]⟩)
    (hr : (⟨2, ![R, C]⟩ : Shape).Reduces [1] ⟨1, ![R]⟩) (r : Fin R) :
    Ideal.hostReduceAdd h x init (ix1 r) = init + ∑ k : Fin C, x (ix2 r k) := by
  rw [Ideal.hostReduceAdd_single h hr]
  refine congrArg (_ + ·) (Finset.sum_congr rfl fun k _ => congrArg x (funext fun a => Fin.ext ?_))
  match a with
  | ⟨0, _⟩ => rfl
  | ⟨1, _⟩ => rfl

/-- The host sum along the first axis, at column c. -/
theorem reduceAdd_rows_ix1 (x : FVec Ideal ⟨2, ![R, C]⟩ φ) (init : EReal)
    (h : (⟨2, ![R, C]⟩ : Shape).ReducesTo [0] ⟨1, ![C]⟩)
    (hr : (⟨2, ![R, C]⟩ : Shape).Reduces [0] ⟨1, ![C]⟩) (c : Fin C) :
    Ideal.hostReduceAdd h x init (ix1 c) = init + ∑ r : Fin R, x (ix2 r c) := by
  rw [Ideal.hostReduceAdd_single h hr]
  refine congrArg (_ + ·) (Finset.sum_congr rfl fun k _ => congrArg x (funext fun a => Fin.ext ?_))
  match a with
  | ⟨0, _⟩ => rfl
  | ⟨1, _⟩ => rfl

end Sums

/-! ## Spreading along an axis -/

section Spread
variable {α : Type} {R C : ℕ}

/-- A vector of C entries laid along the columns of every one of R rows: entry (p, q) is entry q. -/
theorem spread_cols_ix2 (v : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (q : Fin C) :
    broadcastInDim ⟨2, ![R, C]⟩ ![0, 1] h2 (broadcastInDim ⟨2, ![1, C]⟩ ![1] h1 v) (ix2 p q) = v (ix1 q) := by
  rw [broadcastInDim_apply _ h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if C = 1 then 0 else q.val
      split
      · have := q.isLt; omega
      · rfl)]
  exact broadcastInDim_apply _ h1 v (ix2 (0 : Fin 1) q) (ix1 q) (fun a => by
    match a with
    | ⟨0, _⟩ =>
      show q.val = if C = 1 then 0 else q.val
      split
      · have := q.isLt; omega
      · rfl)

/-- A vector of R entries laid along the rows of every one of C columns: entry (p, q) is entry p. -/
theorem spread_rows_ix2 (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (q : Fin C) :
    broadcastInDim ⟨2, ![R, C]⟩ ![0, 1] h2 (broadcastInDim ⟨2, ![R, 1]⟩ ![0] h1 v) (ix2 p q) = v (ix1 p) := by
  rw [broadcastInDim_apply _ h2 _ (ix2 p q) (ix2 p (0 : Fin 1)) (fun a => by
    match a with
    | ⟨0, _⟩ =>
      show p.val = if R = 1 then 0 else p.val
      split
      · have := p.isLt; omega
      · rfl
    | ⟨1, _⟩ => show (0 : ℕ) = if (1 : ℕ) = 1 then 0 else q.val; rw [if_pos rfl])]
  exact broadcastInDim_apply _ h1 v (ix2 p (0 : Fin 1)) (ix1 p) (fun a => by
    match a with
    | ⟨0, _⟩ =>
      show p.val = if R = 1 then 0 else p.val
      split
      · have := p.isLt; omega
      · rfl)

/-- A one-column matrix spread over C columns: entry (p, q) is the column's entry p. -/
theorem spread_col_ix2 (w : (⟨2, ![R, 1]⟩ : Shape).Idx → α)
    (h2 : (⟨2, ![R, 1]⟩ : Shape).BroadcastsInDim ⟨2, ![R, C]⟩ ![0, 1]) (p : Fin R) (q : Fin C) :
    broadcastInDim ⟨2, ![R, C]⟩ ![0, 1] h2 w (ix2 p q) = w (ix2 p (0 : Fin 1)) :=
  broadcastInDim_apply _ h2 _ (ix2 p q) (ix2 p (0 : Fin 1)) (fun a => by
    match a with
    | ⟨0, _⟩ =>
      show p.val = if R = 1 then 0 else p.val
      split
      · have := p.isLt; omega
      · rfl
    | ⟨1, _⟩ => show (0 : ℕ) = if (1 : ℕ) = 1 then 0 else q.val; rw [if_pos rfl])

/-- A vector as a one-row matrix: entry (0, q) is entry q. -/
theorem row_ix2 (v : (⟨1, ![C]⟩ : Shape).Idx → α)
    (h1 : (⟨1, ![C]⟩ : Shape).BroadcastsInDim ⟨2, ![1, C]⟩ ![1]) (u : Fin 1) (q : Fin C) :
    broadcastInDim ⟨2, ![1, C]⟩ ![1] h1 v (ix2 u q) = v (ix1 q) :=
  broadcastInDim_apply _ h1 v (ix2 u q) (ix1 q) (fun a => by
    match a with
    | ⟨0, _⟩ =>
      show q.val = if C = 1 then 0 else q.val
      split
      · have := q.isLt; omega
      · rfl)

/-- A one-row matrix spread over R rows: entry (p, q) is the row's entry q. -/
theorem spread_row_ix2 (w : (⟨2, ![1, C]⟩ : Shape).Idx → α)
    (h2 : (⟨2, ![1, C]⟩ : Shape).BroadcastsInDim ⟨2, ![R, C]⟩ ![0, 1]) (p : Fin R) (q : Fin C) :
    broadcastInDim ⟨2, ![R, C]⟩ ![0, 1] h2 w (ix2 p q) = w (ix2 (0 : Fin 1) q) :=
  broadcastInDim_apply _ h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if C = 1 then 0 else q.val
      split
      · have := q.isLt; omega
      · rfl)

/-- A vector as a one-column matrix: entry (p, 0) is entry p. -/
theorem column_ix2 (v : (⟨1, ![R]⟩ : Shape).Idx → α)
    (h1 : (⟨1, ![R]⟩ : Shape).BroadcastsInDim ⟨2, ![R, 1]⟩ ![0]) (p : Fin R) (u : Fin 1) :
    broadcastInDim ⟨2, ![R, 1]⟩ ![0] h1 v (ix2 p u) = v (ix1 p) :=
  broadcastInDim_apply _ h1 v (ix2 p u) (ix1 p) (fun a => by
    match a with
    | ⟨0, _⟩ =>
      show p.val = if R = 1 then 0 else p.val
      split
      · have := p.isLt; omega
      · rfl)

end Spread

end Cert.LibHostRead

end
-- ==== Proof.RefSide.lean ====
/-
  What the reference computes, in two halves that meet at the scores.

  The first half: the question is averaged with every document, the averaged rows and the documents are each scaled to
  unit length (a zero row guarded by ε), and row `i` of the scores sums, over every row `j`, the product
  `(cn_i · dn_j)(1 − dn_i · dn_j)` times `1 − [i = j]`.  Read at row `i` this is the pairwise score of the
  specification.

  The second half: the scores outside the mask are replaced by −∞; the softmax of the result weights the documents; the
  weighted sum is scaled to unit length; and when the mask selects nothing the question itself is returned.
-/
import proofs.«108611_j80152679678829_2_alg».proof.Proof.Gen.ReferenceIdeal
import proofs.«108611_j80152679678829_2_alg».proof.Proof.Spec
import proofs.«108611_j80152679678829_2_alg».proof.Proof.RefTail
import proofs.«108611_j80152679678829_2_alg».proof.Proof.LibHostRead
import proofs.«108611_j80152679678829_2_alg».proof.Proof.RefRun
import Idealize.ShloMosaic.Lib.StableHlo.Run
import Idealize.ShloMosaic.Lib.IdealHost
import Idealize.ShloMosaic.Lib.ValueLayout

noncomputable section

open scoped BigOperators

namespace Cert.RefSide

open Cert.ReferenceIdeal Cert.ReferenceIdeal.Gen Idealize.ShloMosaic Idealize.ShloMosaic.TcCoe Idealize.SL.Sem Idealize.ShloMosaic.StableHlo
open Idealize.ShloMosaic.ValueIdx Cert.LibHostRead

/-! ## Up to the scores -/

/-- The question averaged with every document: `(q + d_i) · ½`. -/
def comb (q : FVec Ideal S1024 .f32) (d : FVec Ideal S8192x1024 .f32) : FVec Ideal S8192x1024 .f32 :=
  mulf (addf (broadcastInDim S8192x1024 ![0, 1] bcast_S1x1024_S8192x1024_0_1 (broadcastInDim S1x1024 ![1] bcast_S1024_S1x1024_1 q)) d)
    (broadcastInDim S8192x1024 ![] bcast_S_S8192x1024 (constant (F := Ideal) S_ .f32 0x3F000000#32))

/-- Every row divided by its length, the length guarded below. -/
def unitRows (x : FVec Ideal S8192x1024 .f32) : FVec Ideal S8192x1024 .f32 :=
  Host.divf x (broadcastInDim S8192x1024 ![0, 1] bcast_S8192x1_S8192x1024_0_1
    (maximumf (Host.sqrt (broadcastInDim S8192x1 ![0] bcast_S8192_S8192x1_0
        (Host.reduceAdd (mulf x x) (constant (F := Ideal) S_ .f32 0x00000000#32) reducesTo_S8192x1024_S8192_d1 h_S_)))
      (broadcastInDim S8192x1 ![] bcast_S_S8192x1 (constant (F := Ideal) S_ .f32 0x322BCC77#32))))

/-- All products of a row of `a` with a row of `b`. -/
def rowDots (a b : FVec Ideal S8192x1024 .f32) : FVec Ideal S8192x8192 .f32 :=
  Host.dotGeneral dot_S8192x1024_S1024x8192_S8192x8192_1_0_0_1_n_n none a
    (transpose S1024x8192 [1, 0] b transposes_S8192x1024_S1024x8192_1_0)

/-- The matrix of ones. -/
def ones : FVec Ideal S8192x8192 .f32 :=
  broadcastInDim S8192x8192 ![] bcast_S_S8192x8192 (constant (F := Ideal) S_ .f32 0x3F800000#32)

/-- The identity matrix: one where the row's number is the column's, zero elsewhere. -/
def eye : FVec Ideal S8192x8192 .f32 :=
  uitofp .f32 (cmpi .eq (addi (iotaInDim S8192x8192 32 0) (broadcastInDim S8192x8192 ![] bcast_S_S8192x8192 (constantI S_ 32 0#32)))
    (iotaInDim S8192x8192 32 1))

/-- Row `i` sums, over every row `j`, `(a_i · b_j)(1 − b_i · b_j)` times `1 − [i = j]`. -/
def pairScores (a b : FVec Ideal S8192x1024 .f32) : FVec Ideal S8192 .f32 :=
  Host.reduceAdd
    (mulf (mulf (rowDots a b) (subf ones (rowDots b b))) (subf ones eye))
    (constant (F := Ideal) S_ .f32 0x00000000#32) reducesTo_S8192x8192_S8192_d1 h_S_

/-- The scores: the pairwise scores of the normalised averaged rows against the normalised documents. -/
def scores (q : FVec Ideal S1024 .f32) (d : FVec Ideal S8192x1024 .f32) : FVec Ideal S8192 .f32 :=
  pairScores (unitRows (comb q d)) (unitRows d)

/-! ## The stages read at an index -/

theorem hostSqrt_apply {s : Shape} (x : FVec Ideal s .f32) (i : s.Idx) : Host.sqrt x i = Ideal.sqrt (x i) := rfl

/-- The averaged rows, entry by entry. -/
theorem comb_at (q : FVec Ideal S1024 .f32) (d : FVec Ideal S8192x1024 .f32) (i : Fin 8192) (k : Fin 1024) :
    comb q d (ix2 i k) = Cert.Spec.comb (fun k => q (ix1 k)) (fun i k => d (ix2 i k)) i k := by
  unfold comb Cert.Spec.comb
  rw [mulf_apply, addf_apply, spread_cols_ix2, broadcastInDim_scalar_apply, constant_apply]

/-- The rows scaled to unit length, entry by entry. -/
theorem unitRows_at (x : FVec Ideal S8192x1024 .f32) (i : Fin 8192) (k : Fin 1024) :
    unitRows x (ix2 i k) = Cert.Spec.unit (fun i k => x (ix2 i k)) i k := by
  have hr : S8192x1024.Reduces [1] S8192 := by decide
  unfold unitRows Cert.Spec.unit
  rw [hostDivf_apply, spread_col_ix2, maximumf_apply, hostSqrt_apply, column_ix2, hostReduceAdd_apply,
    reduceAdd_lanes_ix1 _ _ _ hr, broadcastInDim_scalar_apply, constant_apply, constant_apply, Ideal.ofBits_zero_f32, zero_add]
  rfl

/-- The products of rows, entry by entry: the sum over the features. -/
theorem rowDots_at (a b : FVec Ideal S8192x1024 .f32) (i j : Fin 8192) :
    rowDots a b (ix2 i j) = ∑ k : Fin 1024, a (ix2 i k) * b (ix2 j k) := by
  unfold rowDots
  rw [dotGeneral_ix2 dot_S8192x1024_S1024x8192_S8192x8192_1_0_0_1_n_n rfl rfl rfl rfl rfl rfl]
  exact Finset.sum_congr rfl fun k _ => by rw [transpose_ix2_apply]

/-- Every entry of the matrix of ones is one. -/
theorem ones_at (i j : Fin 8192) : ones (ix2 i j) = Cert.Spec.one := by
  unfold ones
  rw [broadcastInDim_scalar_apply, constant_apply]

/-- Two numbers below 2³² are equal when their 32-bit words are. -/
theorem word_eq_iff (i j : Fin 8192) : BitVec.ofNat 32 i.val = BitVec.ofNat 32 j.val ↔ i = j := by
  constructor
  · intro h
    have h' := congrArg BitVec.toNat h
    simp only [BitVec.toNat_ofNat] at h'
    have hi := i.isLt
    have hj := j.isLt
    rw [Nat.mod_eq_of_lt (by omega), Nat.mod_eq_of_lt (by omega)] at h'
    exact Fin.ext h'
  · rintro rfl; rfl

/-- The identity matrix, entry by entry. -/
theorem eye_at (i j : Fin 8192) : eye (ix2 i j) = if i = j then Cert.Spec.one else 0 := by
  have hz : broadcastInDim S8192x8192 ![] bcast_S_S8192x8192 (constantI S_ 32 0#32) (ix2 i j) = 0#32 := by
    rw [broadcastInDim_scalar_apply]; rfl
  have hc : cmpi .eq (addi (iotaInDim S8192x8192 32 0) (broadcastInDim S8192x8192 ![] bcast_S_S8192x8192 (constantI S_ 32 0#32)))
      (iotaInDim S8192x8192 32 1) (ix2 i j) = BitVec.ofBool (decide (i = j)) := by
    show IntOp.cmpi .eq (IntOp.addi (BitVec.ofNat 32 i.val)
      (broadcastInDim S8192x8192 ![] bcast_S_S8192x8192 (constantI S_ 32 0#32) (ix2 i j))) (BitVec.ofNat 32 j.val) = _
    rw [hz]
    show BitVec.ofBool (BitVec.ofNat 32 i.val + 0#32 == BitVec.ofNat 32 j.val) = _
    rw [BitVec.add_zero]
    by_cases h : i = j
    · subst h; simp
    · have h' : (BitVec.ofNat 32 i.val == BitVec.ofNat 32 j.val) = false :=
        beq_eq_false_iff_ne.mpr fun e => h ((word_eq_iff i j).mp e)
      rw [h', decide_eq_false h]
  unfold eye
  show (((cmpi .eq (addi (iotaInDim S8192x8192 32 0) (broadcastInDim S8192x8192 ![] bcast_S_S8192x8192 (constantI S_ 32 0#32)))
      (iotaInDim S8192x8192 32 1) (ix2 i j)).toNat : ℝ) : EReal) = _
  rw [hc]
  by_cases h : i = j
  · rw [if_pos h]; simp [h, Ideal.ofBits_one_f32]
  · rw [if_neg h]; simp [h]

/-- The normalised averaged rows and the normalised documents, entry by entry. -/
theorem cn_at (q : FVec Ideal S1024 .f32) (d : FVec Ideal S8192x1024 .f32) (i : Fin 8192) (k : Fin 1024) :
    unitRows (comb q d) (ix2 i k) = Cert.Spec.cn (fun k => q (ix1 k)) (fun i k => d (ix2 i k)) i k := by
  rw [unitRows_at]
  unfold Cert.Spec.cn
  rw [show (fun i k => comb q d (ix2 i k)) = Cert.Spec.comb (fun k => q (ix1 k)) (fun i k => d (ix2 i k)) from
    funext fun i' => funext fun k' => comb_at q d i' k']

theorem dn_at (d : FVec Ideal S8192x1024 .f32) (i : Fin 8192) (k : Fin 1024) :
    unitRows d (ix2 i k) = Cert.Spec.dn (fun i k => d (ix2 i k)) i k := unitRows_at d i k

/-- The pairwise scores, row by row. -/
theorem pairScores_at (a b : FVec Ideal S8192x1024 .f32) (i : Fin 8192) :
    pairScores a b (ix1 i) = Cert.Spec.refScore (fun i k => a (ix2 i k)) (fun i k => b (ix2 i k)) i := by
  have hr : S8192x8192.Reduces [1] S8192 := by decide
  unfold pairScores Cert.Spec.refScore
  rw [hostReduceAdd_apply, reduceAdd_lanes_ix1 _ _ _ hr, constant_apply, Ideal.ofBits_zero_f32, zero_add]
  refine Finset.sum_congr rfl fun j _ => ?_
  simp only [mulf_apply, subf_apply, rowDots_at, ones_at, eye_at]

/-- The scores, row by row: the pairwise score of the specification. -/
theorem scores_at (q : FVec Ideal S1024 .f32) (d : FVec Ideal S8192x1024 .f32) (i : Fin 8192) :
    scores q d (ix1 i) = Cert.Spec.refScore (Cert.Spec.cn (fun k => q (ix1 k)) (fun i k => d (ix2 i k)))
      (Cert.Spec.dn (fun i k => d (ix2 i k))) i := by
  unfold scores
  rw [pairScores_at,
    show (fun i k => unitRows (comb q d) (ix2 i k)) = Cert.Spec.cn (fun k => q (ix1 k)) (fun i k => d (ix2 i k)) from
      funext fun i' => funext fun k' => cn_at q d i' k',
    show (fun i k => unitRows d (ix2 i k)) = Cert.Spec.dn (fun i k => d (ix2 i k)) from
      funext fun i' => funext fun k' => dn_at d i' k']

/-! ## The run, one stretch at a time

The program's operations are cut in five stretches.  Each stretch's result is read from ARBITRARY contents `X` of the
buffers as a stage function of the few buffers it reads; a buffer a stretch does not write is carried across it; the
chain of the five gives the result buffer after the whole program as `tail` of the arguments and the scores. -/

section Chunks
variable {F : FTy → Type} [FloatOps F]

/-- The first stretch: the question averaged with every document. -/
abbrev opsA : List (HloOp τ sig (Elt F)) :=
  [ unary main_arg0 main_v0 (broadcastInDim S1x1024 ![1] bcast_S1024_S1x1024_1 : (⟨S1024, .f32⟩ : BufTy).Contents (Elt F) → (⟨S1x1024, .f32⟩ : BufTy).Contents (Elt F)),
    unary main_v0 main_v1 (broadcastInDim S8192x1024 ![0, 1] bcast_S1x1024_S8192x1024_0_1 : (⟨S1x1024, .f32⟩ : BufTy).Contents (Elt F) → (⟨S8192x1024, .f32⟩ : BufTy).Contents (Elt F)),
    binary main_v1 main_arg1 main_v2 (addf : (⟨S8192x1024, .f32⟩ : BufTy).Contents (Elt F) → (⟨S8192x1024, .f32⟩ : BufTy).Contents (Elt F) → (⟨S8192x1024, .f32⟩ : BufTy).Contents (Elt F)),
    nullary main_cst (constant S_ .f32 0x3F000000#32),
    unary main_cst main_v3 (broadcastInDim S8192x1024 ![] bcast_S_S8192x1024 : (⟨S_, .f32⟩ : BufTy).Contents (Elt F) → (⟨S8192x1024, .f32⟩ : BufTy).Contents (Elt F)),
    binary main_v2 main_v3 main_v4 (mulf : (⟨S8192x1024, .f32⟩ : BufTy).Contents (Elt F) → (⟨S8192x1024, .f32⟩ : BufTy).Contents (Elt F) → (⟨S8192x1024, .f32⟩ : BufTy).Contents (Elt F)) ]

/-- The second stretch: the averaged rows scaled to unit length. -/
abbrev opsB : List (HloOp τ sig (Elt F)) :=
  [ TRef.binary (TRef.of (T := ⟨S8192x1024, .f32⟩) main_v4) (TRef.of (T := ⟨S8192x1024, .f32⟩) main_v4) (TRef.of (T := ⟨S8192x1024, .f32⟩) main_call0_v0) mulf,
    TRef.nullary (TRef.of (T := ⟨S_, .f32⟩) main_call0_cst) (constant S_ .f32 0x00000000#32),
    TRef.binary (TRef.of (T := ⟨S8192x1024, .f32⟩) main_call0_v0) (TRef.of (T := ⟨S_, .f32⟩) main_call0_cst) (TRef.of (T := ⟨S8192, .f32⟩) main_call0_v1) (fun x v => Host.reduceAdd x v reducesTo_S8192x1024_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v5) Host.sqrt,
    nullary main_cst_0 (constant S_ .f32 0x322BCC77#32),
    unary main_cst_0 main_v6 (broadcastInDim S8192x1 ![] bcast_S_S8192x1 : (⟨S_, .f32⟩ : BufTy).Contents (Elt F) → (⟨S8192x1, .f32⟩ : BufTy).Contents (Elt F)),
    binary main_v5 main_v6 main_v7 (maximumf : (⟨S8192x1, .f32⟩ : BufTy).Contents (Elt F) → (⟨S8192x1, .f32⟩ : BufTy).Contents (Elt F) → (⟨S8192x1, .f32⟩ : BufTy).Contents (Elt F)),
    unary main_v7 main_v8 (broadcastInDim S8192x1024 ![0, 1] bcast_S8192x1_S8192x1024_0_1 : (⟨S8192x1, .f32⟩ : BufTy).Contents (Elt F) → (⟨S8192x1024, .f32⟩ : BufTy).Contents (Elt F)),
    binary main_v4 main_v8 main_v9 (Host.divf : (⟨S8192x1024, .f32⟩ : BufTy).Contents (Elt F) → (⟨S8192x1024, .f32⟩ : BufTy).Contents (Elt F) → (⟨S8192x1024, .f32⟩ : BufTy).Contents (Elt F)) ]

/-- The third stretch: the documents scaled to unit length. -/
abbrev opsC : List (HloOp τ sig (Elt F)) :=
  [ TRef.binary (TRef.of (T := ⟨S8192x1024, .f32⟩) main_arg1) (TRef.of (T := ⟨S8192x1024, .f32⟩) main_arg1) (TRef.of (T := ⟨S8192x1024, .f32⟩) main_call1_v0) mulf,
    TRef.nullary (TRef.of (T := ⟨S_, .f32⟩) main_call1_cst) (constant S_ .f32 0x00000000#32),
    TRef.binary (TRef.of (T := ⟨S8192x1024, .f32⟩) main_call1_v0) (TRef.of (T := ⟨S_, .f32⟩) main_call1_cst) (TRef.of (T := ⟨S8192, .f32⟩) main_call1_v1) (fun x v => Host.reduceAdd x v reducesTo_S8192x1024_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v10) Host.sqrt,
    nullary main_cst_1 (constant S_ .f32 0x322BCC77#32),
    unary main_cst_1 main_v11 (broadcastInDim S8192x1 ![] bcast_S_S8192x1 : (⟨S_, .f32⟩ : BufTy).Contents (Elt F) → (⟨S8192x1, .f32⟩ : BufTy).Contents (Elt F)),
    binary main_v10 main_v11 main_v12 (maximumf : (⟨S8192x1, .f32⟩ : BufTy).Contents (Elt F) → (⟨S8192x1, .f32⟩ : BufTy).Contents (Elt F) → (⟨S8192x1, .f32⟩ : BufTy).Contents (Elt F)),
    unary main_v12 main_v13 (broadcastInDim S8192x1024 ![0, 1] bcast_S8192x1_S8192x1024_0_1 : (⟨S8192x1, .f32⟩ : BufTy).Contents (Elt F) → (⟨S8192x1024, .f32⟩ : BufTy).Contents (Elt F)),
    binary main_arg1 main_v13 main_v14 (Host.divf : (⟨S8192x1024, .f32⟩ : BufTy).Contents (Elt F) → (⟨S8192x1024, .f32⟩ : BufTy).Contents (Elt F) → (⟨S8192x1024, .f32⟩ : BufTy).Contents (Elt F)) ]

/-- The fourth stretch: the two matrices of row products, the identity mask, the row sums. -/
abbrev opsD : List (HloOp τ sig (Elt F)) :=
  [ unary main_v14 main_v15 ((transpose S1024x8192 [1, 0] · transposes_S8192x1024_S1024x8192_1_0) : (⟨S8192x1024, .f32⟩ : BufTy).Contents (Elt F) → (⟨S1024x8192, .f32⟩ : BufTy).Contents (Elt F)),
    binary main_v9 main_v15 main_v16 ((fun l r => Host.dotGeneral dot_S8192x1024_S1024x8192_S8192x8192_1_0_0_1_n_n none l r) : (⟨S8192x1024, .f32⟩ : BufTy).Contents (Elt F) → (⟨S1024x8192, .f32⟩ : BufTy).Contents (Elt F) → (⟨S8192x8192, .f32⟩ : BufTy).Contents (Elt F)),
    unary main_v14 main_v17 ((transpose S1024x8192 [1, 0] · transposes_S8192x1024_S1024x8192_1_0) : (⟨S8192x1024, .f32⟩ : BufTy).Contents (Elt F) → (⟨S1024x8192, .f32⟩ : BufTy).Contents (Elt F)),
    binary main_v14 main_v17 main_v18 ((fun l r => Host.dotGeneral dot_S8192x1024_S1024x8192_S8192x8192_1_0_0_1_n_n none l r) : (⟨S8192x1024, .f32⟩ : BufTy).Contents (Elt F) → (⟨S1024x8192, .f32⟩ : BufTy).Contents (Elt F) → (⟨S8192x8192, .f32⟩ : BufTy).Contents (Elt F)),
    nullary main_cst_2 (constant S_ .f32 0x3F800000#32),
    unary main_cst_2 main_v19 (broadcastInDim S8192x8192 ![] bcast_S_S8192x8192 : (⟨S_, .f32⟩ : BufTy).Contents (Elt F) → (⟨S8192x8192, .f32⟩ : BufTy).Contents (Elt F)),
    binary main_v19 main_v18 main_v20 (subf : (⟨S8192x8192, .f32⟩ : BufTy).Contents (Elt F) → (⟨S8192x8192, .f32⟩ : BufTy).Contents (Elt F) → (⟨S8192x8192, .f32⟩ : BufTy).Contents (Elt F)),
    binary main_v16 main_v20 main_v21 (mulf : (⟨S8192x8192, .f32⟩ : BufTy).Contents (Elt F) → (⟨S8192x8192, .f32⟩ : BufTy).Contents (Elt F) → (⟨S8192x8192, .f32⟩ : BufTy).Contents (Elt F)),
    nullary main_v22 (iotaInDim S8192x8192 32 0),
    nullary main_v23 (iotaInDim S8192x8192 32 1),
    nullary main_c (constantI S_ 32 0#32),
    unary main_c main_v24 (broadcastInDim S8192x8192 ![] bcast_S_S8192x8192 : (⟨S_, .i32⟩ : BufTy).Contents (Elt F) → (⟨S8192x8192, .i32⟩ : BufTy).Contents (Elt F)),
    binary main_v22 main_v24 main_v25 (addi : (⟨S8192x8192, .i32⟩ : BufTy).Contents (Elt F) → (⟨S8192x8192, .i32⟩ : BufTy).Contents (Elt F) → (⟨S8192x8192, .i32⟩ : BufTy).Contents (Elt F)),
    binary main_v25 main_v23 main_v26 (cmpi .eq : (⟨S8192x8192, .i32⟩ : BufTy).Contents (Elt F) → (⟨S8192x8192, .i32⟩ : BufTy).Contents (Elt F) → (⟨S8192x8192, .i1⟩ : BufTy).Contents (Elt F)),
    unary main_v26 main_v27 (uitofp .f32 : (⟨S8192x8192, .i1⟩ : BufTy).Contents (Elt F) → (⟨S8192x8192, .f32⟩ : BufTy).Contents (Elt F)),
    nullary main_cst_3 (constant S_ .f32 0x3F800000#32),
    unary main_cst_3 main_v28 (broadcastInDim S8192x8192 ![] bcast_S_S8192x8192 : (⟨S_, .f32⟩ : BufTy).Contents (Elt F) → (⟨S8192x8192, .f32⟩ : BufTy).Contents (Elt F)),
    binary main_v28 main_v27 main_v29 (subf : (⟨S8192x8192, .f32⟩ : BufTy).Contents (Elt F) → (⟨S8192x8192, .f32⟩ : BufTy).Contents (Elt F) → (⟨S8192x8192, .f32⟩ : BufTy).Contents (Elt F)),
    binary main_v21 main_v29 main_v30 (mulf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x00000000#32),
    binary main_v30 main_cst_4 main_v31 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

/-- The last stretch: from the scores to the result. -/
abbrev opsE : List (HloOp τ sig (Elt F)) :=
  [ nullary main_cst_5 (constant S_ .f32 0xFF800000#32),
    TRef.unary (TRef.of (T := ⟨S_, .f32⟩) main_cst_5) (TRef.of (T := ⟨S8192, .f32⟩) main_call2_v0) (broadcastInDim S8192 ![] bcast_S_S8192),
    TRef.ternary (TRef.of (T := ⟨S8192, .i1⟩) main_arg2) (TRef.of (T := ⟨S8192, .f32⟩) main_v31) (TRef.of (T := ⟨S8192, .f32⟩) main_call2_v0) (TRef.of (T := ⟨S8192, .f32⟩) main_v32) select,
    nullary main_cst_6 (constant S_ .f32 0xFF800000#32),
    binary main_v32 main_cst_6 main_v33 ((fun x v => Host.reduce FloatOps.maximumf x v reducesTo_S8192_S_d0 h_S_) : (⟨S8192, .f32⟩ : BufTy).Contents (Elt F) → (⟨S_, .f32⟩ : BufTy).Contents (Elt F) → (⟨S_, .f32⟩ : BufTy).Contents (Elt F)),
    nullary main_cst_7 (constant S_ .f32 0xFF800000#32),
    binary main_cst_7 main_v33 main_v34 (maximumf : (⟨S_, .f32⟩ : BufTy).Contents (Elt F) → (⟨S_, .f32⟩ : BufTy).Contents (Elt F) → (⟨S_, .f32⟩ : BufTy).Contents (Elt F)),
    unary main_v34 main_v35 (broadcastInDim S1 ![] bcast_S_S1 : (⟨S_, .f32⟩ : BufTy).Contents (Elt F) → (⟨S1, .f32⟩ : BufTy).Contents (Elt F)),
    unary main_v35 main_v36 (broadcastInDim S8192 ![0] bcast_S1_S8192_0 : (⟨S1, .f32⟩ : BufTy).Contents (Elt F) → (⟨S8192, .f32⟩ : BufTy).Contents (Elt F)),
    binary main_v32 main_v36 main_v37 (subf : (⟨S8192, .f32⟩ : BufTy).Contents (Elt F) → (⟨S8192, .f32⟩ : BufTy).Contents (Elt F) → (⟨S8192, .f32⟩ : BufTy).Contents (Elt F)),
    unary main_v37 main_v38 (Host.exp : (⟨S8192, .f32⟩ : BufTy).Contents (Elt F) → (⟨S8192, .f32⟩ : BufTy).Contents (Elt F)),
    nullary main_cst_8 (constant S_ .f32 0x00000000#32),
    binary main_v38 main_cst_8 main_v39 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v39 main_v40 (broadcastInDim S1 ![] bcast_S_S1 : (⟨S_, .f32⟩ : BufTy).Contents (Elt F) → (⟨S1, .f32⟩ : BufTy).Contents (Elt F)),
    unary main_v40 main_v41 (broadcastInDim S8192 ![0] bcast_S1_S8192_0 : (⟨S1, .f32⟩ : BufTy).Contents (Elt F) → (⟨S8192, .f32⟩ : BufTy).Contents (Elt F)),
    binary main_v38 main_v41 main_v42 (Host.divf : (⟨S8192, .f32⟩ : BufTy).Contents (Elt F) → (⟨S8192, .f32⟩ : BufTy).Contents (Elt F) → (⟨S8192, .f32⟩ : BufTy).Contents (Elt F)),
    unary main_v42 main_v43 (broadcastInDim S8192x1 ![0] bcast_S8192_S8192x1_0 : (⟨S8192, .f32⟩ : BufTy).Contents (Elt F) → (⟨S8192x1, .f32⟩ : BufTy).Contents (Elt F)),
    unary main_v43 main_v44 (broadcastInDim S8192x1024 ![0, 1] bcast_S8192x1_S8192x1024_0_1 : (⟨S8192x1, .f32⟩ : BufTy).Contents (Elt F) → (⟨S8192x1024, .f32⟩ : BufTy).Contents (Elt F)),
    binary main_arg1 main_v44 main_v45 (mulf : (⟨S8192x1024, .f32⟩ : BufTy).Contents (Elt F) → (⟨S8192x1024, .f32⟩ : BufTy).Contents (Elt F) → (⟨S8192x1024, .f32⟩ : BufTy).Contents (Elt F)),
    nullary main_cst_9 (constant S_ .f32 0x00000000#32),
    binary main_v45 main_cst_9 main_v46 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    TRef.binary (TRef.of (T := ⟨S1024, .f32⟩) main_v46) (TRef.of (T := ⟨S1024, .f32⟩) main_v46) (TRef.of (T := ⟨S1024, .f32⟩) main_call3_v0) mulf,
    TRef.nullary (TRef.of (T := ⟨S_, .f32⟩) main_call3_cst) (constant S_ .f32 0x00000000#32),
    TRef.binary (TRef.of (T := ⟨S1024, .f32⟩) main_call3_v0) (TRef.of (T := ⟨S_, .f32⟩) main_call3_cst) (TRef.of (T := ⟨S_, .f32⟩) main_call3_v1) (fun x v => Host.reduceAdd x v reducesTo_S1024_S_d0 h_S_),
    TRef.unary (TRef.of (T := ⟨S_, .f32⟩) main_call3_v1) (TRef.of (T := ⟨S1, .f32⟩) main_call3_v2) (broadcastInDim S1 ![] bcast_S_S1),
    TRef.unary (TRef.of (T := ⟨S1, .f32⟩) main_call3_v2) (TRef.of (T := ⟨S1, .f32⟩) main_v47) Host.sqrt,
    nullary main_cst_10 (constant S_ .f32 0x2B8CBCCC#32),
    unary main_cst_10 main_v48 (broadcastInDim S1 ![] bcast_S_S1 : (⟨S_, .f32⟩ : BufTy).Contents (Elt F) → (⟨S1, .f32⟩ : BufTy).Contents (Elt F)),
    binary main_v47 main_v48 main_v49 (maximumf : (⟨S1, .f32⟩ : BufTy).Contents (Elt F) → (⟨S1, .f32⟩ : BufTy).Contents (Elt F) → (⟨S1, .f32⟩ : BufTy).Contents (Elt F)),
    unary main_v49 main_v50 (broadcastInDim S1024 ![0] bcast_S1_S1024_0 : (⟨S1, .f32⟩ : BufTy).Contents (Elt F) → (⟨S1024, .f32⟩ : BufTy).Contents (Elt F)),
    binary main_v46 main_v50 main_v51 (Host.divf : (⟨S1024, .f32⟩ : BufTy).Contents (Elt F) → (⟨S1024, .f32⟩ : BufTy).Contents (Elt F) → (⟨S1024, .f32⟩ : BufTy).Contents (Elt F)),
    nullary main_c_11 (constantI S_ 1 0#1),
    binary main_arg2 main_c_11 main_v52 ((fun x v => Host.reduce IntOp.ori x v reducesTo_S8192_S_d0 h_S_) : (⟨S8192, .i1⟩ : BufTy).Contents (Elt F) → (⟨S_, .i1⟩ : BufTy).Contents (Elt F) → (⟨S_, .i1⟩ : BufTy).Contents (Elt F)),
    TRef.ternary (TRef.of (T := ⟨S_, .i1⟩) main_v52) (TRef.of (T := ⟨S1024, .f32⟩) main_v51) (TRef.of (T := ⟨S1024, .f32⟩) main_arg0) (TRef.of (T := ⟨S1024, .f32⟩) main_v53) (fun p a b => select (broadcastInDim S1024 ![] bcast_S_S1024 p) a b) ]

/-- The scores outside the mask replaced by −∞. -/
abbrev opsE1 : List (HloOp τ sig (Elt F)) :=
  [ nullary main_cst_5 (constant S_ .f32 0xFF800000#32),
    TRef.unary (TRef.of (T := ⟨S_, .f32⟩) main_cst_5) (TRef.of (T := ⟨S8192, .f32⟩) main_call2_v0) (broadcastInDim S8192 ![] bcast_S_S8192),
    TRef.ternary (TRef.of (T := ⟨S8192, .i1⟩) main_arg2) (TRef.of (T := ⟨S8192, .f32⟩) main_v31) (TRef.of (T := ⟨S8192, .f32⟩) main_call2_v0) (TRef.of (T := ⟨S8192, .f32⟩) main_v32) select ]

/-- The softmax of the masked scores and the sum of the documents it weights. -/
abbrev opsE2 : List (HloOp τ sig (Elt F)) :=
  [ nullary main_cst_6 (constant S_ .f32 0xFF800000#32),
    binary main_v32 main_cst_6 main_v33 ((fun x v => Host.reduce FloatOps.maximumf x v reducesTo_S8192_S_d0 h_S_) : (⟨S8192, .f32⟩ : BufTy).Contents (Elt F) → (⟨S_, .f32⟩ : BufTy).Contents (Elt F) → (⟨S_, .f32⟩ : BufTy).Contents (Elt F)),
    nullary main_cst_7 (constant S_ .f32 0xFF800000#32),
    binary main_cst_7 main_v33 main_v34 (maximumf : (⟨S_, .f32⟩ : BufTy).Contents (Elt F) → (⟨S_, .f32⟩ : BufTy).Contents (Elt F) → (⟨S_, .f32⟩ : BufTy).Contents (Elt F)),
    unary main_v34 main_v35 (broadcastInDim S1 ![] bcast_S_S1 : (⟨S_, .f32⟩ : BufTy).Contents (Elt F) → (⟨S1, .f32⟩ : BufTy).Contents (Elt F)),
    unary main_v35 main_v36 (broadcastInDim S8192 ![0] bcast_S1_S8192_0 : (⟨S1, .f32⟩ : BufTy).Contents (Elt F) → (⟨S8192, .f32⟩ : BufTy).Contents (Elt F)),
    binary main_v32 main_v36 main_v37 (subf : (⟨S8192, .f32⟩ : BufTy).Contents (Elt F) → (⟨S8192, .f32⟩ : BufTy).Contents (Elt F) → (⟨S8192, .f32⟩ : BufTy).Contents (Elt F)),
    unary main_v37 main_v38 (Host.exp : (⟨S8192, .f32⟩ : BufTy).Contents (Elt F) → (⟨S8192, .f32⟩ : BufTy).Contents (Elt F)),
    nullary main_cst_8 (constant S_ .f32 0x00000000#32),
    binary main_v38 main_cst_8 main_v39 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v39 main_v40 (broadcastInDim S1 ![] bcast_S_S1 : (⟨S_, .f32⟩ : BufTy).Contents (Elt F) → (⟨S1, .f32⟩ : BufTy).Contents (Elt F)),
    unary main_v40 main_v41 (broadcastInDim S8192 ![0] bcast_S1_S8192_0 : (⟨S1, .f32⟩ : BufTy).Contents (Elt F) → (⟨S8192, .f32⟩ : BufTy).Contents (Elt F)),
    binary main_v38 main_v41 main_v42 (Host.divf : (⟨S8192, .f32⟩ : BufTy).Contents (Elt F) → (⟨S8192, .f32⟩ : BufTy).Contents (Elt F) → (⟨S8192, .f32⟩ : BufTy).Contents (Elt F)),
    unary main_v42 main_v43 (broadcastInDim S8192x1 ![0] bcast_S8192_S8192x1_0 : (⟨S8192, .f32⟩ : BufTy).Contents (Elt F) → (⟨S8192x1, .f32⟩ : BufTy).Contents (Elt F)),
    unary main_v43 main_v44 (broadcastInDim S8192x1024 ![0, 1] bcast_S8192x1_S8192x1024_0_1 : (⟨S8192x1, .f32⟩ : BufTy).Contents (Elt F) → (⟨S8192x1024, .f32⟩ : BufTy).Contents (Elt F)),
    binary main_arg1 main_v44 main_v45 (mulf : (⟨S8192x1024, .f32⟩ : BufTy).Contents (Elt F) → (⟨S8192x1024, .f32⟩ : BufTy).Contents (Elt F) → (⟨S8192x1024, .f32⟩ : BufTy).Contents (Elt F)),
    nullary main_cst_9 (constant S_ .f32 0x00000000#32),
    binary main_v45 main_cst_9 main_v46 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)) ]

/-- The length of the weighted sum. -/
abbrev opsE3 : List (HloOp τ sig (Elt F)) :=
  [ TRef.binary (TRef.of (T := ⟨S1024, .f32⟩) main_v46) (TRef.of (T := ⟨S1024, .f32⟩) main_v46) (TRef.of (T := ⟨S1024, .f32⟩) main_call3_v0) mulf,
    TRef.nullary (TRef.of (T := ⟨S_, .f32⟩) main_call3_cst) (constant S_ .f32 0x00000000#32),
    TRef.binary (TRef.of (T := ⟨S1024, .f32⟩) main_call3_v0) (TRef.of (T := ⟨S_, .f32⟩) main_call3_cst) (TRef.of (T := ⟨S_, .f32⟩) main_call3_v1) (fun x v => Host.reduceAdd x v reducesTo_S1024_S_d0 h_S_),
    TRef.unary (TRef.of (T := ⟨S_, .f32⟩) main_call3_v1) (TRef.of (T := ⟨S1, .f32⟩) main_call3_v2) (broadcastInDim S1 ![] bcast_S_S1),
    TRef.unary (TRef.of (T := ⟨S1, .f32⟩) main_call3_v2) (TRef.of (T := ⟨S1, .f32⟩) main_v47) Host.sqrt ]

/-- The weighted sum divided by its guarded length; whether the mask selects anything. -/
abbrev opsE4 : List (HloOp τ sig (Elt F)) :=
  [ nullary main_cst_10 (constant S_ .f32 0x2B8CBCCC#32),
    unary main_cst_10 main_v48 (broadcastInDim S1 ![] bcast_S_S1 : (⟨S_, .f32⟩ : BufTy).Contents (Elt F) → (⟨S1, .f32⟩ : BufTy).Contents (Elt F)),
    binary main_v47 main_v48 main_v49 (maximumf : (⟨S1, .f32⟩ : BufTy).Contents (Elt F) → (⟨S1, .f32⟩ : BufTy).Contents (Elt F) → (⟨S1, .f32⟩ : BufTy).Contents (Elt F)),
    unary main_v49 main_v50 (broadcastInDim S1024 ![0] bcast_S1_S1024_0 : (⟨S1, .f32⟩ : BufTy).Contents (Elt F) → (⟨S1024, .f32⟩ : BufTy).Contents (Elt F)),
    binary main_v46 main_v50 main_v51 (Host.divf : (⟨S1024, .f32⟩ : BufTy).Contents (Elt F) → (⟨S1024, .f32⟩ : BufTy).Contents (Elt F) → (⟨S1024, .f32⟩ : BufTy).Contents (Elt F)),
    nullary main_c_11 (constantI S_ 1 0#1),
    binary main_arg2 main_c_11 main_v52 ((fun x v => Host.reduce IntOp.ori x v reducesTo_S8192_S_d0 h_S_) : (⟨S8192, .i1⟩ : BufTy).Contents (Elt F) → (⟨S_, .i1⟩ : BufTy).Contents (Elt F) → (⟨S_, .i1⟩ : BufTy).Contents (Elt F)) ]

/-- The choice between the scaled sum and the question. -/
abbrev opsE5 : List (HloOp τ sig (Elt F)) :=
  [ TRef.ternary (TRef.of (T := ⟨S_, .i1⟩) main_v52) (TRef.of (T := ⟨S1024, .f32⟩) main_v51) (TRef.of (T := ⟨S1024, .f32⟩) main_arg0) (TRef.of (T := ⟨S1024, .f32⟩) main_v53) (fun p a b => select (broadcastInDim S1024 ![] bcast_S_S1024 p) a b) ]

/-- The last stretch is its five parts in a row. -/
theorem opsE_eq : (opsE : List (HloOp τ sig (Elt F))) = opsE1 ++ opsE2 ++ opsE3 ++ opsE4 ++ opsE5 := rfl

/-- The program's operations are the five stretches in a row. -/
theorem ops_eq : (ValueP.ops : List (HloOp τ sig (Elt F))) = opsA ++ opsB ++ opsC ++ opsD ++ opsE := rfl

end Chunks

section Stretch
variable (X : Valuation τ sig (Elt Ideal))

theorem A_read : after opsA X (Proc.devRef .tc main_v4) = comb (X (Proc.devRef .tc main_arg0)) (X (Proc.devRef .tc main_arg1)) := by
  simp only [opsA]
  after_results_simp <;> (unfold comb; rfl)

theorem A_arg1 : after opsA X (Proc.devRef .tc main_arg1) = X (Proc.devRef .tc main_arg1) := by
  simp only [opsA]
  after_results_simp

theorem B_read : after opsB X (Proc.devRef .tc main_v9) = unitRows (X (Proc.devRef .tc main_v4)) := by
  simp only [opsB]
  after_results_simp <;> (unfold unitRows; rfl)

theorem B_arg1 : after opsB X (Proc.devRef .tc main_arg1) = X (Proc.devRef .tc main_arg1) := by
  simp only [opsB]
  after_results_simp

theorem C_read : after opsC X (Proc.devRef .tc main_v14) = unitRows (X (Proc.devRef .tc main_arg1)) := by
  simp only [opsC]
  after_results_simp <;> (unfold unitRows; rfl)

theorem C_v9 : after opsC X (Proc.devRef .tc main_v9) = X (Proc.devRef .tc main_v9) := by
  simp only [opsC]
  after_results_simp

theorem D_read : after opsD X (Proc.devRef .tc main_v31) = pairScores (X (Proc.devRef .tc main_v9)) (X (Proc.devRef .tc main_v14)) := by
  simp only [opsD]
  after_results_simp <;> (unfold pairScores rowDots ones eye; rfl)

/-- The length of a vector: the root of the sum of its squares. -/
def len (x : FVec Ideal S1024 .f32) : FVec Ideal S1 .f32 :=
  Host.sqrt (broadcastInDim S1 ![] bcast_S_S1
    (Host.reduceAdd (mulf x x) (constant (F := Ideal) S_ .f32 0x00000000#32) reducesTo_S1024_S_d0 h_S_))

theorem E1_read : after opsE1 X (Proc.devRef .tc main_v32) = masked (X (Proc.devRef .tc main_arg2)) (X (Proc.devRef .tc main_v31)) := by
  simp only [opsE1]
  after_results_simp <;> (unfold masked; rfl)

theorem E1_arg1 : after opsE1 X (Proc.devRef .tc main_arg1) = X (Proc.devRef .tc main_arg1) := by
  simp only [opsE1]
  after_results_simp

theorem E2_read : after opsE2 X (Proc.devRef .tc main_v46) = wavg (X (Proc.devRef .tc main_arg1)) (X (Proc.devRef .tc main_v32)) := by
  simp only [opsE2]
  after_results_simp <;> (unfold wavg weights expd; rfl)

theorem E3_read : after opsE3 X (Proc.devRef .tc main_v47) = len (X (Proc.devRef .tc main_v46)) := by
  simp only [opsE3]
  after_results_simp <;> (unfold len; rfl)

theorem E3_v46 : after opsE3 X (Proc.devRef .tc main_v46) = X (Proc.devRef .tc main_v46) := by
  simp only [opsE3]
  after_results_simp

theorem E4_read51 : after opsE4 X (Proc.devRef .tc main_v51)
    = Host.divf (X (Proc.devRef .tc main_v46)) (broadcastInDim S1024 ![0] bcast_S1_S1024_0
        (maximumf (X (Proc.devRef .tc main_v47)) (broadcastInDim S1 ![] bcast_S_S1 (constant (F := Ideal) S_ .f32 0x2B8CBCCC#32)))) := by
  simp only [opsE4]
  after_results_simp <;> rfl

theorem E4_read52 : after opsE4 X (Proc.devRef .tc main_v52)
    = Host.reduce IntOp.ori (X (Proc.devRef .tc main_arg2)) (constantI S_ 1 0#1) reducesTo_S8192_S_d0 h_S_ := by
  simp only [opsE4]
  after_results_simp <;> rfl

theorem E5_read : after opsE5 X (Proc.devRef .tc main_v53)
    = select (broadcastInDim S1024 ![] bcast_S_S1024 (X (Proc.devRef .tc main_v52))) (X (Proc.devRef .tc main_v51)) (X (Proc.devRef .tc main_arg0)) := by
  simp only [opsE5]
  after_results_simp <;> rfl

theorem E_arg2 : after opsE3 (after opsE2 (after opsE1 X)) (Proc.devRef .tc main_arg2) = X (Proc.devRef .tc main_arg2) := by
  simp only [opsE1, opsE2, opsE3]
  after_results_simp

theorem E_arg0 : after opsE4 (after opsE3 (after opsE2 (after opsE1 X))) (Proc.devRef .tc main_arg0) = X (Proc.devRef .tc main_arg0) := by
  simp only [opsE1, opsE2, opsE3, opsE4]
  after_results_simp

theorem E_read : after opsE X (Proc.devRef .tc main_v53)
    = tail (X (Proc.devRef .tc main_arg0)) (X (Proc.devRef .tc main_arg1)) (X (Proc.devRef .tc main_arg2)) (X (Proc.devRef .tc main_v31)) := by
  rw [opsE_eq]
  simp only [StableHlo.after_append]
  rw [E5_read, E4_read51, E4_read52, E_arg0, E3_read, E3_v46, E_arg2, E2_read, E1_arg1, E1_read]
  unfold tail len
  rfl

theorem pre_arg0 : after opsD (after opsC (after opsB (after opsA X))) (Proc.devRef .tc main_arg0) = X (Proc.devRef .tc main_arg0) := by
  simp only [opsA, opsB, opsC, opsD]
  after_results_simp

theorem pre_arg1 : after opsD (after opsC (after opsB (after opsA X))) (Proc.devRef .tc main_arg1) = X (Proc.devRef .tc main_arg1) := by
  simp only [opsA, opsB, opsC, opsD]
  after_results_simp

theorem pre_arg2 : after opsD (after opsC (after opsB (after opsA X))) (Proc.devRef .tc main_arg2) = X (Proc.devRef .tc main_arg2) := by
  simp only [opsA, opsB, opsC, opsD]
  after_results_simp

theorem all_arg0 : after opsE (after opsD (after opsC (after opsB (after opsA X)))) (Proc.devRef .tc main_arg0) = X (Proc.devRef .tc main_arg0) := by
  simp only [opsA, opsB, opsC, opsD, opsE]
  after_results_simp

theorem all_arg1 : after opsE (after opsD (after opsC (after opsB (after opsA X)))) (Proc.devRef .tc main_arg1) = X (Proc.devRef .tc main_arg1) := by
  simp only [opsA, opsB, opsC, opsD, opsE]
  after_results_simp

theorem all_arg2 : after opsE (after opsD (after opsC (after opsB (after opsA X)))) (Proc.devRef .tc main_arg2) = X (Proc.devRef .tc main_arg2) := by
  simp only [opsA, opsB, opsC, opsD, opsE]
  after_results_simp

/-- After the whole program the result buffer holds `tail` of the arguments and of their scores. -/
theorem fold_result : after ValueP.ops X (Proc.devRef .tc main_v53)
    = tail (X (Proc.devRef .tc main_arg0)) (X (Proc.devRef .tc main_arg1)) (X (Proc.devRef .tc main_arg2))
        (scores (X (Proc.devRef .tc main_arg0)) (X (Proc.devRef .tc main_arg1))) := by
  rw [ops_eq]
  simp only [StableHlo.after_append]
  rw [E_read, pre_arg0, pre_arg1, pre_arg2, D_read, C_read, C_v9, B_read, B_arg1, A_read, A_arg1]
  rfl

theorem fold_arg0 : after ValueP.ops X (Proc.devRef .tc main_arg0) = X (Proc.devRef .tc main_arg0) := by
  rw [ops_eq]
  simp only [StableHlo.after_append]
  exact all_arg0 X

theorem fold_arg1 : after ValueP.ops X (Proc.devRef .tc main_arg1) = X (Proc.devRef .tc main_arg1) := by
  rw [ops_eq]
  simp only [StableHlo.after_append]
  exact all_arg1 X

theorem fold_arg2 : after ValueP.ops X (Proc.devRef .tc main_arg2) = X (Proc.devRef .tc main_arg2) := by
  rw [ops_eq]
  simp only [StableHlo.after_append]
  exact all_arg2 X

end Stretch

/-- On every device, from any memory with zero counters: every weakly fair execution of the reference terminates with
    the result buffer at `tail` of the launch arguments and of their scores, the arguments unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53)
          = tail (m ((c.tc : Thread nD τ).loc main_arg0)) (m ((c.tc : Thread nD τ).loc main_arg1)) (m ((c.tc : Thread nD τ).loc main_arg2))
              (scores (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v53).trans (fold_result (launchContents m c)),
      (h c main_arg0).trans (fold_arg0 (launchContents m c)),
      (h c main_arg1).trans (fold_arg1 (launchContents m c)),
      (h c main_arg2).trans (fold_arg2 (launchContents m c))⟩)
    (ValueP.run m ρ)

end Cert.RefSide

end
-- ==== Proof.lean ====
/-
  The certificate of the three-kernel program against its reference.

  The kernel normalises the averaged rows `cn` and the documents `dn` (first kernel), accumulates the Gram matrix
  `G = Σ_j dn_j dn_jᵀ` and the column sums `t = Σ_j dn_j` block by block (second kernel), and scores row `i` as
  `cn_i · t − cn_iᵀ G dn_i − (cn_i · dn_i)(1 − dn_i · dn_i)` (third kernel); the reference sums
  `(cn_i · dn_j)(1 − dn_i · dn_j)` over the rows `j ≠ i`. With finite inputs every `cn`, `dn` entry is a real number
  and the two scores are one real number: multiply out, exchange the sums over `j` and over the features, and take the
  `j = i` term apart. From the scores on both programs apply the same masked softmax, weighted sum and normalisation;
  the kernel's extra guard (all scores replaced by 0 when the mask selects nothing) is invisible, because in that case
  both programs return the question itself.

  The frames: the program is thirteen items — host stretches and three kernel regions; each region's body obligation is
  proved from its kernel's run, the second region's invariant carrying its two accumulators from grid point to grid
  point; the arguments are written by no item.
-/
import proofs.«108611_j80152679678829_2_alg».proof.Defs
import proofs.«108611_j80152679678829_2_alg».proof.Proof.Gen.Kernel
import proofs.«108611_j80152679678829_2_alg».proof.Proof.Gen.KernelIdeal
import proofs.«108611_j80152679678829_2_alg».proof.Proof.Gen.ReferenceIdeal
import proofs.«108611_j80152679678829_2_alg».proof.Proof.Gen.Pre_finite_inputs
import proofs.«108611_j80152679678829_2_alg».proof.Proof.K.Run
import proofs.«108611_j80152679678829_2_alg».proof.Proof.KI.Run
import proofs.«108611_j80152679678829_2_alg».proof.Proof.KI.Fold
import proofs.«108611_j80152679678829_2_alg».proof.Proof.KI.Scores
import proofs.«108611_j80152679678829_2_alg».proof.Proof.KI.TailBridge
import proofs.«108611_j80152679678829_2_alg».proof.Proof.KI.Finite
import proofs.«108611_j80152679678829_2_alg».proof.Proof.RefSide
import Idealize.ShloMosaic.Adequacy
import Idealize.ShloMosaic.Init

noncomputable section

namespace Cert.Proof

open Idealize.ShloMosaic Idealize.SL.Sem Idealize.ShloMosaic.TcCoe

/-- The word-level program runs and leaves its arguments unchanged. -/
theorem frame_k : Cert.frame_Kernel := fun m ρ _ => Cert.Kernel.Run.frame (F := Bits) m ρ

/-- So does the program read over the extended reals. -/
theorem frame_ki : Cert.frame_KernelIdeal := fun m ρ _ => Cert.KernelIdeal.Run.frame (F := Ideal) m ρ

/-- The reference is a straight line of host operations: its run with the result dropped. -/
theorem frame_ri : Cert.frame_ReferenceIdeal := fun m ρ _ =>
  (θ_run Cert.ReferenceIdeal.defs _ _).mono (fun _ h c => (h c).2) (Cert.RefSide.run' m ρ)

/-- Nothing was rewritten on the way to the extended reals. -/
theorem preserves : Cert.preserves_Kernel_KernelIdeal := trivial

open Cert.KernelIdeal Cert.KernelIdeal.Run in
/-- From memories that agree on the arguments both programs end with the same result: the kernel's column of scores is
    the reference's vector of scores entry by entry (finite inputs), and the two host tails are one function of equal scores. -/
theorem algebraic : Cert.algebraic_KernelIdeal_ReferenceIdeal := by
  intro m ρ m' ρ' hpre hagree
  refine ⟨fun c => W13 m c (Proc.devRef .tc main_v29), ?_, ?_⟩
  · exact (θ_run Cert.KernelIdeal.defs _ _).mono (fun r h c =>
      ⟨h c _ (mem_uc main_v29 (by decide)),
       (h c _ (mem_uc main_arg0 (by decide))).trans (W13_main_arg0 m c),
       (h c _ (mem_uc main_arg1 (by decide))).trans (W13_main_arg1 m c),
       (h c _ (mem_uc main_arg2 (by decide))).trans (W13_main_arg2 m c)⟩) (run_all m ρ)
  · refine (θ_run Cert.ReferenceIdeal.defs _ _).mono (fun r h c => ⟨(h c).1.trans ?_, (h c).2⟩) (Cert.RefSide.run' m' ρ')
    obtain ⟨hq, hd⟩ := Cert.KernelIdeal.Finite.of_pre m hpre c
    have hk : W13 m c (Proc.devRef .tc main_v29)
        = Tail.tail (m ((c : Thread nD τ).loc main_arg0)) (m ((c : Thread nD τ).loc main_arg1)) (m ((c : Thread nD τ).loc main_arg2))
            (W5 m c (Proc.devRef .tc main_v4)) := by
      rw [Cert.KernelIdeal.Fold.W13_main_v29, W5_main_arg0, W5_main_arg1, W5_main_arg2]
    have hb := Cert.KernelIdeal.TailBridge.tail_eq (m ((c : Thread nD τ).loc main_arg0)) (m ((c : Thread nD τ).loc main_arg1))
      (m ((c : Thread nD τ).loc main_arg2)) (W5 m c (Proc.devRef .tc main_v4))
      (Cert.RefSide.scores (m ((c : Thread nD τ).loc main_arg0)) (m ((c : Thread nD τ).loc main_arg1)))
      (fun i => (Cert.KernelIdeal.Scores.scores_eq_ref m c hq hd i).trans (Cert.RefSide.scores_at _ _ i).symm)
    rw [(hagree c).1, (hagree c).2.1, (hagree c).2.2]
    exact (hk.trans hb).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
